-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S409600 : Shape := ⟨1, ![409600]⟩
abbrev S40960 : Shape := ⟨1, ![40960]⟩
abbrev S4096 : Shape := ⟨1, ![4096]⟩
abbrev S409600x300 : Shape := ⟨2, ![409600, 300]⟩
abbrev S40960x300 : Shape := ⟨2, ![40960, 300]⟩
abbrev S4096x300 : Shape := ⟨2, ![4096, 300]⟩
abbrev S100001x128 : Shape := ⟨2, ![100001, 128]⟩
abbrev S128x300 : Shape := ⟨2, ![128, 300]⟩
abbrev S128 : Shape := ⟨1, ![128]⟩
abbrev S128x256 : Shape := ⟨2, ![128, 256]⟩
abbrev S_ : Shape := ⟨0, ![]⟩

class Facts : Prop where
  bcast_S_S409600x300 : S_.BroadcastsInDim S409600x300 (![] : Fin 0 → Fin S409600x300.rank)
  reducesTo_S409600x300_S_d0_1 : S409600x300.ReducesTo [0, 1] S_
  h_S_ : 0 < S_.numel
  bcast_S_S40960x300 : S_.BroadcastsInDim S40960x300 (![] : Fin 0 → Fin S40960x300.rank)
  reducesTo_S40960x300_S_d0_1 : S40960x300.ReducesTo [0, 1] S_
  bcast_S_S4096x300 : S_.BroadcastsInDim S4096x300 (![] : Fin 0 → Fin S4096x300.rank)
  reducesTo_S4096x300_S_d0_1 : S4096x300.ReducesTo [0, 1] S_
  bcast_S_S100001x128 : S_.BroadcastsInDim S100001x128 (![] : Fin 0 → Fin S100001x128.rank)
  reducesTo_S100001x128_S_d0_1 : S100001x128.ReducesTo [0, 1] S_
  bcast_S_S128x300 : S_.BroadcastsInDim S128x300 (![] : Fin 0 → Fin S128x300.rank)
  reducesTo_S128x300_S_d0_1 : S128x300.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg18 : FVec F S128 .f32) (main_arg19 : FVec F S128x256 .f32) (main_arg20 : FVec F S128 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128 .f32 := Host.absf main_arg18
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg19
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg20
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg14 : FVec F S128 .f32) (main_arg15 : FVec F S128x300 .f32) (main_arg16 : FVec F S128 .f32) (main_arg17 : FVec F S128x256 .f32) (main_arg18 : FVec F S128 .f32) (main_arg19 : FVec F S128x256 .f32) (main_arg20 : FVec F S128 .f32) (main_v33 : IVec S_ 1) : IVec S_ 1 :=
  let main_v34 : FVec F S128 .f32 := Host.absf main_arg14
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x300 .f32 := Host.absf main_arg15
  let main_cst_14 : FVec F S_ .f32 := constant S_ .f32 0x7F800000#32
  let main_v40 : FVec F S128x300 .f32 := broadcastInDim S128x300 ![] bcast_S_S128x300 main_cst_14
  let main_v41 : IVec S128x300 1 := cmpf .olt main_v39 main_v40
  let main_c_15 : IVec S_ 1 := constantI S_ 1 1#1
  let main_v42 : IVec S_ 1 := (fun x v => Host.reduce IntOp.andi x v reducesTo_S128x300_S_d0_1 h_S_) main_v41 main_c_15
  let main_v43 : IVec S_ 1 := andi main_v38 main_v42
  let main_v44 : FVec F S128 .f32 := Host.absf main_arg16
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x256 .f32 := Host.absf main_arg17
  let main_cst_18 : FVec F S_ .f32 := constant S_ .f32 0x7F800000#32
  let main_v50 : FVec F S128x256 .f32 := broadcastInDim S128x256 ![] bcast_S_S128x256 main_cst_18
  fn_part3 (F := F) main_arg18 main_arg19 main_arg20 main_v48 main_v49 main_v50

def fn_part1 {F : FTy → Type} [FloatOps F] (main_arg11 : FVec F S128x300 .f32) (main_arg12 : FVec F S128 .f32) (main_arg13 : FVec F S128x300 .f32) (main_arg14 : FVec F S128 .f32) (main_arg15 : FVec F S128x300 .f32) (main_arg16 : FVec F S128 .f32) (main_arg17 : FVec F S128x256 .f32) (main_arg18 : FVec F S128 .f32) (main_arg19 : FVec F S128x256 .f32) (main_arg20 : FVec F S128 .f32) (main_v13 : IVec S_ 1) (main_v16 : IVec S100001x128 1) : IVec S_ 1 :=
  let main_c_5 : IVec S_ 1 := constantI S_ 1 1#1
  let main_v17 : IVec S_ 1 := (fun x v => Host.reduce IntOp.andi x v reducesTo_S100001x128_S_d0_1 h_S_) main_v16 main_c_5
  let main_v18 : IVec S_ 1 := andi main_v13 main_v17
  let main_v19 : FVec F S128x300 .f32 := Host.absf main_arg11
  let main_cst_6 : FVec F S_ .f32 := constant S_ .f32 0x7F800000#32
  let main_v20 : FVec F S128x300 .f32 := broadcastInDim S128x300 ![] bcast_S_S128x300 main_cst_6
  let main_v21 : IVec S128x300 1 := cmpf .olt main_v19 main_v20
  let main_c_7 : IVec S_ 1 := constantI S_ 1 1#1
  let main_v22 : IVec S_ 1 := (fun x v => Host.reduce IntOp.andi x v reducesTo_S128x300_S_d0_1 h_S_) main_v21 main_c_7
  let main_v23 : IVec S_ 1 := andi main_v18 main_v22
  let main_v24 : FVec F S128 .f32 := Host.absf main_arg12
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x300 .f32 := Host.absf main_arg13
  let main_cst_10 : FVec F S_ .f32 := constant S_ .f32 0x7F800000#32
  let main_v30 : FVec F S128x300 .f32 := broadcastInDim S128x300 ![] bcast_S_S128x300 main_cst_10
  let main_v31 : IVec S128x300 1 := cmpf .olt main_v29 main_v30
  let main_c_11 : IVec S_ 1 := constantI S_ 1 1#1
  let main_v32 : IVec S_ 1 := (fun x v => Host.reduce IntOp.andi x v reducesTo_S128x300_S_d0_1 h_S_) main_v31 main_c_11
  let main_v33 : IVec S_ 1 := andi main_v28 main_v32
  fn_part2 (F := F) main_arg14 main_arg15 main_arg16 main_arg17 main_arg18 main_arg19 main_arg20 main_v33

def fn {F : FTy → Type} [FloatOps F] (main_arg0 : IVec S409600 32) (main_arg1 : IVec S40960 32) (main_arg2 : IVec S4096 32) (main_arg3 : FVec F S409600x300 .f32) (main_arg4 : FVec F S40960x300 .f32) (main_arg5 : FVec F S4096x300 .f32) (main_arg6 : IVec S409600 32) (main_arg7 : IVec S409600 32) (main_arg8 : IVec S40960 32) (main_arg9 : IVec S40960 32) (main_arg10 : FVec F S100001x128 .f32) (main_arg11 : FVec F S128x300 .f32) (main_arg12 : FVec F S128 .f32) (main_arg13 : FVec F S128x300 .f32) (main_arg14 : FVec F S128 .f32) (main_arg15 : FVec F S128x300 .f32) (main_arg16 : FVec F S128 .f32) (main_arg17 : FVec F S128x256 .f32) (main_arg18 : FVec F S128 .f32) (main_arg19 : FVec F S128x256 .f32) (main_arg20 : FVec F S128 .f32) : IVec S_ 1 :=
  let main_v0 : FVec F S409600x300 .f32 := Host.absf main_arg3
  let main_cst : FVec F S_ .f32 := constant S_ .f32 0x7F800000#32
  let main_v1 : FVec F S409600x300 .f32 := broadcastInDim S409600x300 ![] bcast_S_S409600x300 main_cst
  let main_v2 : IVec S409600x300 1 := cmpf .olt main_v0 main_v1
  let main_c : IVec S_ 1 := constantI S_ 1 1#1
  let main_v3 : IVec S_ 1 := (fun x v => Host.reduce IntOp.andi x v reducesTo_S409600x300_S_d0_1 h_S_) main_v2 main_c
  let main_v4 : FVec F S40960x300 .f32 := Host.absf main_arg4
  let main_cst_0 : FVec F S_ .f32 := constant S_ .f32 0x7F800000#32
  let main_v5 : FVec F S40960x300 .f32 := broadcastInDim S40960x300 ![] bcast_S_S40960x300 main_cst_0
  let main_v6 : IVec S40960x300 1 := cmpf .olt main_v4 main_v5
  let main_c_1 : IVec S_ 1 := constantI S_ 1 1#1
  let main_v7 : IVec S_ 1 := (fun x v => Host.reduce IntOp.andi x v reducesTo_S40960x300_S_d0_1 h_S_) main_v6 main_c_1
  let main_v8 : IVec S_ 1 := andi main_v3 main_v7
  let main_v9 : FVec F S4096x300 .f32 := Host.absf main_arg5
  let main_cst_2 : FVec F S_ .f32 := constant S_ .f32 0x7F800000#32
  let main_v10 : FVec F S4096x300 .f32 := broadcastInDim S4096x300 ![] bcast_S_S4096x300 main_cst_2
  let main_v11 : IVec S4096x300 1 := cmpf .olt main_v9 main_v10
  let main_c_3 : IVec S_ 1 := constantI S_ 1 1#1
  let main_v12 : IVec S_ 1 := (fun x v => Host.reduce IntOp.andi x v reducesTo_S4096x300_S_d0_1 h_S_) main_v11 main_c_3
  let main_v13 : IVec S_ 1 := andi main_v8 main_v12
  let main_v14 : FVec F S100001x128 .f32 := Host.absf main_arg10
  let main_cst_4 : FVec F S_ .f32 := constant S_ .f32 0x7F800000#32
  let main_v15 : FVec F S100001x128 .f32 := broadcastInDim S100001x128 ![] bcast_S_S100001x128 main_cst_4
  let main_v16 : IVec S100001x128 1 := cmpf .olt main_v14 main_v15
  fn_part1 (F := F) main_arg11 main_arg12 main_arg13 main_arg14 main_arg15 main_arg16 main_arg17 main_arg18 main_arg19 main_arg20 main_v13 main_v16
-- ==== Kernel.lean ====
abbrev S409600 : Shape := ⟨1, ![409600]⟩
abbrev S40960 : Shape := ⟨1, ![40960]⟩
abbrev S4096 : Shape := ⟨1, ![4096]⟩
abbrev S409600x300 : Shape := ⟨2, ![409600, 300]⟩
abbrev S40960x300 : Shape := ⟨2, ![40960, 300]⟩
abbrev S4096x300 : Shape := ⟨2, ![4096, 300]⟩
abbrev S100001x128 : Shape := ⟨2, ![100001, 128]⟩
abbrev S128x300 : Shape := ⟨2, ![128, 300]⟩
abbrev S128 : Shape := ⟨1, ![128]⟩
abbrev S128x256 : Shape := ⟨2, ![128, 256]⟩
abbrev S_ : Shape := ⟨0, ![]⟩
abbrev S409600x1 : Shape := ⟨2, ![409600, 1]⟩
abbrev S409600x128 : Shape := ⟨2, ![409600, 128]⟩
abbrev S300x128 : Shape := ⟨2, ![300, 128]⟩
abbrev S2048x300 : Shape := ⟨2, ![2048, 300]⟩
abbrev S2048x128 : Shape := ⟨2, ![2048, 128]⟩
abbrev S1x128 : Shape := ⟨2, ![1, 128]⟩
abbrev S40960x1 : Shape := ⟨2, ![40960, 1]⟩
abbrev S40960x128 : Shape := ⟨2, ![40960, 128]⟩
abbrev S4096x1 : Shape := ⟨2, ![4096, 1]⟩
abbrev S4096x128 : Shape := ⟨2, ![4096, 128]⟩
abbrev S256x128 : Shape := ⟨2, ![256, 128]⟩
abbrev S2048x1 : Shape := ⟨2, ![2048, 1]⟩
abbrev S2048x256 : Shape := ⟨2, ![2048, 256]⟩
abbrev S2048 : Shape := ⟨1, ![2048]⟩

abbrev nBuf : Space → Nat
  | .hbm => 107
  | .vmem => 44
  | .smem => 0
  | _ => 0

abbrev bufTy : (tb : Table) → Fin (tcTables nBuf tb) → BufTy
  | .hbm, ⟨0, _⟩ => ⟨S409600, .i32⟩
  | .hbm, ⟨1, _⟩ => ⟨S40960, .i32⟩
  | .hbm, ⟨2, _⟩ => ⟨S4096, .i32⟩
  | .hbm, ⟨3, _⟩ => ⟨S409600x300, .f32⟩
  | .hbm, ⟨4, _⟩ => ⟨S40960x300, .f32⟩
  | .hbm, ⟨5, _⟩ => ⟨S4096x300, .f32⟩
  | .hbm, ⟨6, _⟩ => ⟨S409600, .i32⟩
  | .hbm, ⟨7, _⟩ => ⟨S409600, .i32⟩
  | .hbm, ⟨8, _⟩ => ⟨S40960, .i32⟩
  | .hbm, ⟨9, _⟩ => ⟨S40960, .i32⟩
  | .hbm, ⟨10, _⟩ => ⟨S100001x128, .f32⟩
  | .hbm, ⟨11, _⟩ => ⟨S128x300, .f32⟩
  | .hbm, ⟨12, _⟩ => ⟨S128, .f32⟩
  | .hbm, ⟨13, _⟩ => ⟨S128x300, .f32⟩
  | .hbm, ⟨14, _⟩ => ⟨S128, .f32⟩
  | .hbm, ⟨15, _⟩ => ⟨S128x300, .f32⟩
  | .hbm, ⟨16, _⟩ => ⟨S128, .f32⟩
  | .hbm, ⟨17, _⟩ => ⟨S128x256, .f32⟩
  | .hbm, ⟨18, _⟩ => ⟨S128, .f32⟩
  | .hbm, ⟨19, _⟩ => ⟨S128x256, .f32⟩
  | .hbm, ⟨20, _⟩ => ⟨S128, .f32⟩
  | .hbm, ⟨21, _⟩ => ⟨S_, .i32⟩
  | .hbm, ⟨22, _⟩ => ⟨S409600, .i32⟩
  | .hbm, ⟨23, _⟩ => ⟨S409600, .i32⟩
  | .hbm, ⟨24, _⟩ => ⟨S_, .i32⟩
  | .hbm, ⟨25, _⟩ => ⟨S409600, .i32⟩
  | .hbm, ⟨26, _⟩ => ⟨S409600, .i1⟩
  | .hbm, ⟨27, _⟩ => ⟨S_, .i32⟩
  | .hbm, ⟨28, _⟩ => ⟨S409600, .i32⟩
  | .hbm, ⟨29, _⟩ => ⟨S409600, .i32⟩
  | .hbm, ⟨30, _⟩ => ⟨S409600, .i32⟩
  | .hbm, ⟨31, _⟩ => ⟨S409600x1, .i32⟩
  | .hbm, ⟨32, _⟩ => ⟨S409600x128, .f32⟩
  | .hbm, ⟨33, _⟩ => ⟨S300x128, .f32⟩
  | .hbm, ⟨34, _⟩ => ⟨S409600x128, .f32⟩
  | .hbm, ⟨35, _⟩ => ⟨S_, .i32⟩
  | .hbm, ⟨36, _⟩ => ⟨S40960, .i32⟩
  | .hbm, ⟨37, _⟩ => ⟨S40960, .i32⟩
  | .hbm, ⟨38, _⟩ => ⟨S_, .i32⟩
  | .hbm, ⟨39, _⟩ => ⟨S40960, .i32⟩
  | .hbm, ⟨40, _⟩ => ⟨S40960, .i1⟩
  | .hbm, ⟨41, _⟩ => ⟨S_, .i32⟩
  | .hbm, ⟨42, _⟩ => ⟨S40960, .i32⟩
  | .hbm, ⟨43, _⟩ => ⟨S40960, .i32⟩
  | .hbm, ⟨44, _⟩ => ⟨S40960, .i32⟩
  | .hbm, ⟨45, _⟩ => ⟨S40960x1, .i32⟩
  | .hbm, ⟨46, _⟩ => ⟨S40960x128, .f32⟩
  | .hbm, ⟨47, _⟩ => ⟨S300x128, .f32⟩
  | .hbm, ⟨48, _⟩ => ⟨S40960x128, .f32⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096x1, .i32⟩
  | .hbm, ⟨60, _⟩ => ⟨S4096x128, .f32⟩
  | .hbm, ⟨61, _⟩ => ⟨S300x128, .f32⟩
  | .hbm, ⟨62, _⟩ => ⟨S4096x128, .f32⟩
  | .hbm, ⟨63, _⟩ => ⟨S_, .i32⟩
  | .hbm, ⟨64, _⟩ => ⟨S409600, .i32⟩
  | .hbm, ⟨65, _⟩ => ⟨S409600, .i1⟩
  | .hbm, ⟨66, _⟩ => ⟨S_, .i32⟩
  | .hbm, ⟨67, _⟩ => ⟨S409600, .i32⟩
  | .hbm, ⟨68, _⟩ => ⟨S409600, .i32⟩
  | .hbm, ⟨69, _⟩ => ⟨S409600, .i32⟩
  | .hbm, ⟨70, _⟩ => ⟨S409600x1, .i32⟩
  | .hbm, ⟨71, _⟩ => ⟨S409600x128, .f32⟩
  | .hbm, ⟨72, _⟩ => ⟨S_, .f32⟩
  | .hbm, ⟨73, _⟩ => ⟨S40960x128, .f32⟩
  | .hbm, ⟨74, _⟩ => ⟨S409600x1, .i32⟩
  | .hbm, ⟨75, _⟩ => ⟨S40960x128, .f32⟩
  | .hbm, ⟨76, _⟩ => ⟨S_, .f32⟩
  | .hbm, ⟨77, _⟩ => ⟨S409600, .f32⟩
  | .hbm, ⟨78, _⟩ => ⟨S_, .f32⟩
  | .hbm, ⟨79, _⟩ => ⟨S40960, .f32⟩
  | .hbm, ⟨80, _⟩ => ⟨S409600x1, .i32⟩
  | .hbm, ⟨81, _⟩ => ⟨S40960, .f32⟩
  | .hbm, ⟨82, _⟩ => ⟨S40960x1, .f32⟩
  | .hbm, ⟨83, _⟩ => ⟨S256x128, .f32⟩
  | .hbm, ⟨84, _⟩ => ⟨S40960x128, .f32⟩
  | .hbm, ⟨85, _⟩ => ⟨S_, .i32⟩
  | .hbm, ⟨86, _⟩ => ⟨S40960, .i32⟩
  | .hbm, ⟨87, _⟩ => ⟨S40960, .i1⟩
  | .hbm, ⟨88, _⟩ => ⟨S_, .i32⟩
  | .hbm, ⟨89, _⟩ => ⟨S40960, .i32⟩
  | .hbm, ⟨90, _⟩ => ⟨S40960, .i32⟩
  | .hbm, ⟨91, _⟩ => ⟨S40960, .i32⟩
  | .hbm, ⟨92, _⟩ => ⟨S40960x1, .i32⟩
  | .hbm, ⟨93, _⟩ => ⟨S40960x128, .f32⟩
  | .hbm, ⟨94, _⟩ => ⟨S_, .f32⟩
  | .hbm, ⟨95, _⟩ => ⟨S4096x128, .f32⟩
  | .hbm, ⟨96, _⟩ => ⟨S40960x1, .i32⟩
  | .hbm, ⟨97, _⟩ => ⟨S4096x128, .f32⟩
  | .hbm, ⟨98, _⟩ => ⟨S_, .f32⟩
  | .hbm, ⟨99, _⟩ => ⟨S40960, .f32⟩
  | .hbm, ⟨100, _⟩ => ⟨S_, .f32⟩
  | .hbm, ⟨101, _⟩ => ⟨S4096, .f32⟩
  | .hbm, ⟨102, _⟩ => ⟨S40960x1, .i32⟩
  | .hbm, ⟨103, _⟩ => ⟨S4096, .f32⟩
  | .hbm, ⟨104, _⟩ => ⟨S4096x1, .f32⟩
  | .hbm, ⟨105, _⟩ => ⟨S256x128, .f32⟩
  | .hbm, ⟨106, _⟩ => ⟨S4096x128, .f32⟩
  | .local _ .vmem, ⟨0, _⟩ => ⟨S2048x300, .f32⟩
  | .local _ .vmem, ⟨1, _⟩ => ⟨S2048x300, .f32⟩
  | .local _ .vmem, ⟨2, _⟩ => ⟨S300x128, .f32⟩
  | .local _ .vmem, ⟨3, _⟩ => ⟨S128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x300, .f32⟩
  | .local _ .vmem, ⟨9, _⟩ => ⟨S2048x300, .f32⟩
  | .local _ .vmem, ⟨10, _⟩ => ⟨S300x128, .f32⟩
  | .local _ .vmem, ⟨11, _⟩ => ⟨S128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x300, .f32⟩
  | .local _ .vmem, ⟨17, _⟩ => ⟨S2048x300, .f32⟩
  | .local _ .vmem, ⟨18, _⟩ => ⟨S300x128, .f32⟩
  | .local _ .vmem, ⟨19, _⟩ => ⟨S128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x1, .f32⟩
  | .local _ .vmem, ⟨29, _⟩ => ⟨S2048x1, .f32⟩
  | .local _ .vmem, ⟨30, _⟩ => ⟨S256x128, .f32⟩
  | .local _ .vmem, ⟨31, _⟩ => ⟨S128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S2048x128, .f32⟩
  | .local _ .vmem, ⟨38, _⟩ => ⟨S2048x1, .f32⟩
  | .local _ .vmem, ⟨39, _⟩ => ⟨S2048x1, .f32⟩
  | .local _ .vmem, ⟨40, _⟩ => ⟨S256x128, .f32⟩
  | .local _ .vmem, ⟨41, _⟩ => ⟨S128, .f32⟩
  | .local _ .vmem, ⟨42, _⟩ => ⟨S2048x128, .f32⟩
  | .local _ .vmem, ⟨43, _⟩ => ⟨S2048x128, .f32⟩
  | _, _ => ⟨S409600, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_c_1 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_2 : Ref sig .tc := ⟨.hbm, 35, rfl⟩
abbrev main_v11 : Ref sig .tc := ⟨.hbm, 36, rfl⟩
abbrev main_v12 : Ref sig .tc := ⟨.hbm, 37, rfl⟩
abbrev main_c_3 : Ref sig .tc := ⟨.hbm, 38, rfl⟩
abbrev main_v13 : Ref sig .tc := ⟨.hbm, 39, rfl⟩
abbrev main_v14 : Ref sig .tc := ⟨.hbm, 40, rfl⟩
abbrev main_c_4 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_5 : Ref sig .tc := ⟨.hbm, 49, rfl⟩
abbrev main_v22 : Ref sig .tc := ⟨.hbm, 50, rfl⟩
abbrev main_v23 : Ref sig .tc := ⟨.hbm, 51, rfl⟩
abbrev main_c_6 : Ref sig .tc := ⟨.hbm, 52, rfl⟩
abbrev main_v24 : Ref sig .tc := ⟨.hbm, 53, rfl⟩
abbrev main_v25 : Ref sig .tc := ⟨.hbm, 54, rfl⟩
abbrev main_c_7 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_8 : Ref sig .tc := ⟨.hbm, 63, rfl⟩
abbrev main_v33 : Ref sig .tc := ⟨.hbm, 64, rfl⟩
abbrev main_v34 : Ref sig .tc := ⟨.hbm, 65, rfl⟩
abbrev main_c_9 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_10 : Ref sig .tc := ⟨.hbm, 76, rfl⟩
abbrev main_v43 : Ref sig .tc := ⟨.hbm, 77, rfl⟩
abbrev main_cst_11 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_12 : Ref sig .tc := ⟨.hbm, 85, rfl⟩
abbrev main_v50 : Ref sig .tc := ⟨.hbm, 86, rfl⟩
abbrev main_v51 : Ref sig .tc := ⟨.hbm, 87, rfl⟩
abbrev main_c_13 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_14 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_15 : Ref sig .tc := ⟨.hbm, 98, rfl⟩
abbrev main_v60 : Ref sig .tc := ⟨.hbm, 99, rfl⟩
abbrev main_cst_16 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem5_1 : DmaSem sig := 43

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S300x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S300x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2048x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2048x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S409600 : S_.BroadcastsInDim S409600 (![] : Fin 0 → Fin S409600.rank)
  bcast_S409600_S409600x1_0 : S409600.BroadcastsInDim S409600x1 (![0] : Fin 1 → Fin S409600x1.rank)
  transposes_S128x300_S300x128_1_0 : S128x300.Transposes [1, 0] S300x128
  inb_S2048x300_S2048x300_0_0 : ∀ a, (![0, 0] : Fin 2 → Nat) a + S2048x300.size a ≤ S2048x300.size a
  h_S2048x300 : 0 < S2048x300.numel
  bitsLt_bf16_f32 : FTy.bits .bf16 < FTy.bits .f32
  inb_S300x128_S300x128_0_0 : ∀ a, (![0, 0] : Fin 2 → Nat) a + S300x128.size a ≤ S300x128.size a
  h_S300x128 : 0 < S300x128.numel
  shapeCasts_S300x128_S300x128 : S300x128.ShapeCasts S300x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bcast_S_S40960 : S_.BroadcastsInDim S40960 (![] : Fin 0 → Fin S40960.rank)
  bcast_S40960_S40960x1_0 : S40960.BroadcastsInDim S40960x1 (![0] : Fin 1 → Fin S40960x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S40960x128 : S_.BroadcastsInDim S40960x128 (![] : Fin 0 → Fin S40960x128.rank)
  transposes_S128x256_S256x128_1_0 : S128x256.Transposes [1, 0] S256x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  concatenates_S2048x128_S2048x128_S2048x256_d1 : Shape.Concatenates [S2048x128, S2048x128] S2048x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S2048x128_S2048 : S2048x128.Reduces [1] S2048
  shapeCasts_S2048_S2048x1 : S2048.ShapeCasts S2048x1
  bcast_S_S4096x128 : S_.BroadcastsInDim S4096x128 (![] : Fin 0 → Fin S4096x128.rank)
  gather_S100001x128_S409600x1_S409600x128_1_0_n_n_0_1_1128_wf : GatherDims.WF S100001x128 S409600x1 S409600x128 [1] [0] [] [0] [] 1 ![1, 128]
  dot_S2048x300_S300x128_S2048x128_1_0_0_1_n_n_wf : DotDims.WF S2048x300 S300x128 S2048x128 [1] [0] [0] [1] [] []
  gather_S100001x128_S40960x1_S40960x128_1_0_n_n_0_1_1128_wf : GatherDims.WF S100001x128 S40960x1 S40960x128 [1] [0] [] [0] [] 1 ![1, 128]
  gather_S100001x128_S4096x1_S4096x128_1_0_n_n_0_1_1128_wf : GatherDims.WF S100001x128 S4096x1 S4096x128 [1] [0] [] [0] [] 1 ![1, 128]
  gather_S409600x128_S409600x1_S409600x128_1_0_n_n_0_1_1128_wf : GatherDims.WF S409600x128 S409600x1 S409600x128 [1] [0] [] [0] [] 1 ![1, 128]
  scatter_S40960x128_S409600x1_S409600x128_1_0_0_1_wf : ScatterDims.WF S40960x128 S409600x1 S409600x128 [1] [0] [0] 1
  scatter_S40960_S409600x1_S409600_n_0_0_1_wf : ScatterDims.WF S40960 S409600x1 S409600 [] [0] [0] 1
  dot_S2048x256_S256x128_S2048x128_1_0_0_1_n_n_wf : DotDims.WF S2048x256 S256x128 S2048x128 [1] [0] [0] [1] [] []
  gather_S40960x128_S40960x1_S40960x128_1_0_n_n_0_1_1128_wf : GatherDims.WF S40960x128 S40960x1 S40960x128 [1] [0] [] [0] [] 1 ![1, 128]
  scatter_S4096x128_S40960x1_S40960x128_1_0_0_1_wf : ScatterDims.WF S4096x128 S40960x1 S40960x128 [1] [0] [0] 1
  scatter_S4096_S40960x1_S40960_n_0_0_1_wf : ScatterDims.WF S4096 S40960x1 S40960 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x300.size a ≤ S409600x300.size a
  hwx0_0 : ∀ i : grid0.Coords, EltTy.bits .f32 = 32 ∨ (Rect.block (s := S409600x300) S2048x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x128.size a ≤ S300x128.size a
  hwx0_1 : ∀ i : grid0.Coords, EltTy.bits .f32 = 32 ∨ (Rect.block (s := S300x128) S300x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S409600x128.size a
  hwx0_3 : ∀ i : grid0.Coords, EltTy.bits .f32 = 32 ∨ (Rect.block (s := S409600x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S409600x128.size a
  hwx0_4 : ∀ i : grid0.Coords, EltTy.bits .f32 = 32 ∨ (Rect.block (s := S409600x128) S2048x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x300.size a ≤ S40960x300.size a
  hwx1_0 : ∀ i : grid1.Coords, EltTy.bits .f32 = 32 ∨ (Rect.block (s := S40960x300) S2048x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S300x128.size a ≤ S300x128.size a
  hwx1_1 : ∀ i : grid1.Coords, EltTy.bits .f32 = 32 ∨ (Rect.block (s := S300x128) S300x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S40960x128.size a
  hwx1_3 : ∀ i : grid1.Coords, EltTy.bits .f32 = 32 ∨ (Rect.block (s := S40960x128) S2048x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x128.size a ≤ S40960x128.size a
  hwx1_4 : ∀ i : grid1.Coords, EltTy.bits .f32 = 32 ∨ (Rect.block (s := S40960x128) S2048x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x300.size a ≤ S4096x300.size a
  hwx2_0 : ∀ i : grid2.Coords, EltTy.bits .f32 = 32 ∨ (Rect.block (s := S4096x300) S2048x300.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S300x128.size a ≤ S300x128.size a
  hwx2_1 : ∀ i : grid2.Coords, EltTy.bits .f32 = 32 ∨ (Rect.block (s := S300x128) S300x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S4096x128.size a
  hwx2_3 : ∀ i : grid2.Coords, EltTy.bits .f32 = 32 ∨ (Rect.block (s := S4096x128) S2048x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x128.size a ≤ S4096x128.size a
  hwx2_4 : ∀ i : grid2.Coords, EltTy.bits .f32 = 32 ∨ (Rect.block (s := S4096x128) S2048x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S40960x128.size a
  hwx3_0 : ∀ i : grid3.Coords, EltTy.bits .f32 = 32 ∨ (Rect.block (s := S40960x128) S2048x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S40960x128.size a
  hwx3_1 : ∀ i : grid3.Coords, EltTy.bits .f32 = 32 ∨ (Rect.block (s := S40960x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S40960x1.size a
  hwx3_2 : ∀ i : grid3.Coords, EltTy.bits .f32 = 32 ∨ (Rect.block (s := S40960x1) S2048x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x128.size a ≤ S40960x128.size a
  hwx3_5 : ∀ i : grid3.Coords, EltTy.bits .f32 = 32 ∨ (Rect.block (s := S40960x128) S2048x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S4096x128.size a
  hwx4_0 : ∀ i : grid4.Coords, EltTy.bits .f32 = 32 ∨ (Rect.block (s := S4096x128) S2048x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S4096x128.size a
  hwx4_1 : ∀ i : grid4.Coords, EltTy.bits .f32 = 32 ∨ (Rect.block (s := S4096x128) S2048x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1.size a ≤ S4096x1.size a
  hwx4_2 : ∀ i : grid4.Coords, EltTy.bits .f32 = 32 ∨ (Rect.block (s := S4096x1) S2048x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .f32 = 32 ∨ (Rect.block (s := S256x128) S256x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2048x128.size a ≤ S4096x128.size a
  hwx4_5 : ∀ i : grid4.Coords, EltTy.bits .f32 = 32 ∨ (Rect.block (s := S4096x128) S2048x128.size (cc4_transform_5 i) (hinb4_5 i)).WholeWords (EltTy.packing .f32)

variable [Facts₀]

def gather_S100001x128_S409600x1_S409600x128_1_0_n_n_0_1_1128 : GatherDims S100001x128 S409600x1 S409600x128 where
  offsetDims := [1]
  collapsedSliceDims := [0]
  operandBatchingDims := []
  startIndicesBatchingDims := []
  startIndexMap := [0]
  indexVectorDim := 1
  sliceSizes := ![1, 128]
  wf := gather_S100001x128_S409600x1_S409600x128_1_0_n_n_0_1_1128_wf
def dot_S2048x300_S300x128_S2048x128_1_0_0_1_n_n : DotDims S2048x300 S300x128 S2048x128 where
  lhsContracting := [1]
  rhsContracting := [0]
  lhsNonContracting := [0]
  rhsNonContracting := [1]
  lhsBatch := []
  rhsBatch := []
  wf := dot_S2048x300_S300x128_S2048x128_1_0_0_1_n_n_wf
def gather_S100001x128_S40960x1_S40960x128_1_0_n_n_0_1_1128 : GatherDims S100001x128 S40960x1 S40960x128 where
  offsetDims := [1]
  collapsedSliceDims := [0]
  operandBatchingDims := []
  startIndicesBatchingDims := []
  startIndexMap := [0]
  indexVectorDim := 1
  sliceSizes := ![1, 128]
  wf := gather_S100001x128_S40960x1_S40960x128_1_0_n_n_0_1_1128_wf
def gather_S100001x128_S4096x1_S4096x128_1_0_n_n_0_1_1128 : GatherDims S100001x128 S4096x1 S4096x128 where
  offsetDims := [1]
  collapsedSliceDims := [0]
  operandBatchingDims := []
  startIndicesBatchingDims := []
  startIndexMap := [0]
  indexVectorDim := 1
  sliceSizes := ![1, 128]
  wf := gather_S100001x128_S4096x1_S4096x128_1_0_n_n_0_1_1128_wf
def gather_S409600x128_S409600x1_S409600x128_1_0_n_n_0_1_1128 : GatherDims S409600x128 S409600x1 S409600x128 where
  offsetDims := [1]
  collapsedSliceDims := [0]
  operandBatchingDims := []
  startIndicesBatchingDims := []
  startIndexMap := [0]
  indexVectorDim := 1
  sliceSizes := ![1, 128]
  wf := gather_S409600x128_S409600x1_S409600x128_1_0_n_n_0_1_1128_wf
def scatter_S40960x128_S409600x1_S409600x128_1_0_0_1 : ScatterDims S40960x128 S409600x1 S409600x128 where
  updateWindowDims := [1]
  insertedWindowDims := [0]
  scatterDimsToOperandDims := [0]
  indexVectorDim := 1
  wf := scatter_S40960x128_S409600x1_S409600x128_1_0_0_1_wf
def scatter_S40960_S409600x1_S409600_n_0_0_1 : ScatterDims S40960 S409600x1 S409600 where
  updateWindowDims := []
  insertedWindowDims := [0]
  scatterDimsToOperandDims := [0]
  indexVectorDim := 1
  wf := scatter_S40960_S409600x1_S409600_n_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S40960x128_S40960x1_S40960x128_1_0_n_n_0_1_1128 : GatherDims S40960x128 S40960x1 S40960x128 where
  offsetDims := [1]
  collapsedSliceDims := [0]
  operandBatchingDims := []
  startIndicesBatchingDims := []
  startIndexMap := [0]
  indexVectorDim := 1
  sliceSizes := ![1, 128]
  wf := gather_S40960x128_S40960x1_S40960x128_1_0_n_n_0_1_1128_wf
def scatter_S4096x128_S40960x1_S40960x128_1_0_0_1 : ScatterDims S4096x128 S40960x1 S40960x128 where
  updateWindowDims := [1]
  insertedWindowDims := [0]
  scatterDimsToOperandDims := [0]
  indexVectorDim := 1
  wf := scatter_S4096x128_S40960x1_S40960x128_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf

abbrev win0_0 : Pipeline.Window sig grid0 :=
  Pipeline.Window.ofSpec (Memref.whole main_arg3) S2048x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S300x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg12) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg4) S2048x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S300x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg14) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2048x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S2048x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg5) S2048x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S300x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S2048x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v32) S2048x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v21) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v48) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg18) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S2048x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v32) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S2048x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v65) S256x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg20) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S2048x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S409600 : Shape := ⟨1, ![409600]⟩
abbrev S40960 : Shape := ⟨1, ![40960]⟩
abbrev S4096 : Shape := ⟨1, ![4096]⟩
abbrev S409600x300 : Shape := ⟨2, ![409600, 300]⟩
abbrev S40960x300 : Shape := ⟨2, ![40960, 300]⟩
abbrev S4096x300 : Shape := ⟨2, ![4096, 300]⟩
abbrev S100001x128 : Shape := ⟨2, ![100001, 128]⟩
abbrev S128x300 : Shape := ⟨2, ![128, 300]⟩
abbrev S128 : Shape := ⟨1, ![128]⟩
abbrev S128x256 : Shape := ⟨2, ![128, 256]⟩
abbrev S_ : Shape := ⟨0, ![]⟩
abbrev S409600x1 : Shape := ⟨2, ![409600, 1]⟩
abbrev S409600x128 : Shape := ⟨2, ![409600, 128]⟩
abbrev S300x128 : Shape := ⟨2, ![300, 128]⟩
abbrev S1x128 : Shape := ⟨2, ![1, 128]⟩
abbrev S40960x1 : Shape := ⟨2, ![40960, 1]⟩
abbrev S40960x128 : Shape := ⟨2, ![40960, 128]⟩
abbrev S4096x1 : Shape := ⟨2, ![4096, 1]⟩
abbrev S4096x128 : Shape := ⟨2, ![4096, 128]⟩
abbrev S40960x256 : Shape := ⟨2, ![40960, 256]⟩
abbrev S256x128 : Shape := ⟨2, ![256, 128]⟩
abbrev S4096x256 : Shape := ⟨2, ![4096, 256]⟩

abbrev nBuf : Space → Nat
  | .hbm => 200
  | .vmem => 0
  | .smem => 0
  | _ => 0

abbrev hbmTy0_0 (i : Nat) : BufTy := match i % 128 with
  | 0 => ⟨S409600, .i32⟩
  | 1 => ⟨S40960, .i32⟩
  | 2 => ⟨S4096, .i32⟩
  | 3 => ⟨S409600x300, .f32⟩
  | 4 => ⟨S40960x300, .f32⟩
  | 5 => ⟨S4096x300, .f32⟩
  | 6 => ⟨S409600, .i32⟩
  | 7 => ⟨S409600, .i32⟩
  | 8 => ⟨S40960, .i32⟩
  | 9 => ⟨S40960, .i32⟩
  | 10 => ⟨S100001x128, .f32⟩
  | 11 => ⟨S128x300, .f32⟩
  | 12 => ⟨S128, .f32⟩
  | 13 => ⟨S128x300, .f32⟩
  | 14 => ⟨S128, .f32⟩
  | 15 => ⟨S128x300, .f32⟩
  | 16 => ⟨S128, .f32⟩
  | 17 => ⟨S128x256, .f32⟩
  | 18 => ⟨S128, .f32⟩
  | 19 => ⟨S128x256, .f32⟩
  | 20 => ⟨S128, .f32⟩
  | 21 => ⟨S_, .i32⟩
  | 22 => ⟨S409600, .i32⟩
  | 23 => ⟨S409600, .i32⟩
  | 24 => ⟨S_, .i32⟩
  | 25 => ⟨S409600, .i32⟩
  | 26 => ⟨S409600, .i1⟩
  | 27 => ⟨S_, .i32⟩
  | 28 => ⟨S409600, .i32⟩
  | 29 => ⟨S409600, .i32⟩
  | 30 => ⟨S409600, .i32⟩
  | 31 => ⟨S409600x1, .i32⟩
  | 32 => ⟨S409600x128, .f32⟩
  | 33 => ⟨S300x128, .f32⟩
  | 34 => ⟨S409600x128, .f32⟩
  | 35 => ⟨S1x128, .f32⟩
  | 36 => ⟨S409600x128, .f32⟩
  | 37 => ⟨S409600x128, .f32⟩
  | 38 => ⟨S_, .f32⟩
  | 39 => ⟨S409600x128, .f32⟩
  | 40 => ⟨S409600x128, .i1⟩
  | 41 => ⟨S_, .f32⟩
  | 42 => ⟨S409600x128, .f32⟩
  | 43 => ⟨S409600x128, .f32⟩
  | 44 => ⟨S409600x128, .f32⟩
  | 45 => ⟨S409600x128, .f32⟩
  | 46 => ⟨S_, .i32⟩
  | 47 => ⟨S40960, .i32⟩
  | 48 => ⟨S40960, .i32⟩
  | 49 => ⟨S_, .i32⟩
  | 50 => ⟨S40960, .i32⟩
  | 51 => ⟨S40960, .i1⟩
  | 52 => ⟨S_, .i32⟩
  | 53 => ⟨S40960, .i32⟩
  | 54 => ⟨S40960, .i32⟩
  | 55 => ⟨S40960, .i32⟩
  | 56 => ⟨S40960x1, .i32⟩
  | 57 => ⟨S40960x128, .f32⟩
  | 58 => ⟨S300x128, .f32⟩
  | 59 => ⟨S40960x128, .f32⟩
  | 60 => ⟨S1x128, .f32⟩
  | 61 => ⟨S40960x128, .f32⟩
  | 62 => ⟨S40960x128, .f32⟩
  | 63 => ⟨S_, .f32⟩
  | 64 => ⟨S40960x128, .f32⟩
  | 65 => ⟨S40960x128, .i1⟩
  | 66 => ⟨S_, .f32⟩
  | 67 => ⟨S40960x128, .f32⟩
  | 68 => ⟨S40960x128, .f32⟩
  | 69 => ⟨S40960x128, .f32⟩
  | 70 => ⟨S40960x128, .f32⟩
  | 71 => ⟨S_, .i32⟩
  | 72 => ⟨S4096, .i32⟩
  | 73 => ⟨S4096, .i32⟩
  | 74 => ⟨S_, .i32⟩
  | 75 => ⟨S4096, .i32⟩
  | 76 => ⟨S4096, .i1⟩
  | 77 => ⟨S_, .i32⟩
  | 78 => ⟨S4096, .i32⟩
  | 79 => ⟨S4096, .i32⟩
  | 80 => ⟨S4096, .i32⟩
  | 81 => ⟨S4096x1, .i32⟩
  | 82 => ⟨S4096x128, .f32⟩
  | 83 => ⟨S300x128, .f32⟩
  | 84 => ⟨S4096x128, .f32⟩
  | 85 => ⟨S1x128, .f32⟩
  | 86 => ⟨S4096x128, .f32⟩
  | 87 => ⟨S4096x128, .f32⟩
  | 88 => ⟨S_, .f32⟩
  | 89 => ⟨S4096x128, .f32⟩
  | 90 => ⟨S4096x128, .i1⟩
  | 91 => ⟨S_, .f32⟩
  | 92 => ⟨S4096x128, .f32⟩
  | 93 => ⟨S4096x128, .f32⟩
  | 94 => ⟨S4096x128, .f32⟩
  | 95 => ⟨S4096x128, .f32⟩
  | 96 => ⟨S_, .i32⟩
  | 97 => ⟨S409600, .i32⟩
  | 98 => ⟨S409600, .i1⟩
  | 99 => ⟨S_, .i32⟩
  | 100 => ⟨S409600, .i32⟩
  | 101 => ⟨S409600, .i32⟩
  | 102 => ⟨S409600, .i32⟩
  | 103 => ⟨S409600x1, .i32⟩
  | 104 => ⟨S409600x128, .f32⟩
  | 105 => ⟨S_, .f32⟩
  | 106 => ⟨S40960x128, .f32⟩
  | 107 => ⟨S409600x1, .i32⟩
  | 108 => ⟨S40960x128, .f32⟩
  | 109 => ⟨S_, .f32⟩
  | 110 => ⟨S409600, .f32⟩
  | 111 => ⟨S_, .f32⟩
  | 112 => ⟨S40960, .f32⟩
  | 113 => ⟨S409600x1, .i32⟩
  | 114 => ⟨S40960, .f32⟩
  | 115 => ⟨S40960x128, .f32⟩
  | 116 => ⟨S_, .f32⟩
  | 117 => ⟨S40960, .f32⟩
  | 118 => ⟨S40960, .f32⟩
  | 119 => ⟨S_, .f32⟩
  | 120 => ⟨S40960, .f32⟩
  | 121 => ⟨S40960, .f32⟩
  | 122 => ⟨S40960x1, .f32⟩
  | 123 => ⟨S40960x128, .f32⟩
  | 124 => ⟨S40960x128, .f32⟩
  | 125 => ⟨S40960x256, .f32⟩
  | 126 => ⟨S256x128, .f32⟩
  | 127 => ⟨S40960x128, .f32⟩
  | _ => ⟨S409600, .i32⟩

abbrev hbmTy0_1 (i : Nat) : BufTy := match i % 128 with
  | 0 => ⟨S1x128, .f32⟩
  | 1 => ⟨S40960x128, .f32⟩
  | 2 => ⟨S40960x128, .f32⟩
  | 3 => ⟨S_, .f32⟩
  | 4 => ⟨S40960x128, .f32⟩
  | 5 => ⟨S40960x128, .i1⟩
  | 6 => ⟨S_, .f32⟩
  | 7 => ⟨S40960x128, .f32⟩
  | 8 => ⟨S40960x128, .f32⟩
  | 9 => ⟨S40960x128, .f32⟩
  | 10 => ⟨S40960x128, .f32⟩
  | 11 => ⟨S_, .f32⟩
  | 12 => ⟨S40960, .f32⟩
  | 13 => ⟨S40960x1, .f32⟩
  | 14 => ⟨S40960x1, .f32⟩
  | 15 => ⟨S_, .f32⟩
  | 16 => ⟨S40960x1, .f32⟩
  | 17 => ⟨S40960x1, .f32⟩
  | 18 => ⟨S40960x128, .f32⟩
  | 19 => ⟨S40960x128, .f32⟩
  | 20 => ⟨S_, .i32⟩
  | 21 => ⟨S40960, .i32⟩
  | 22 => ⟨S40960, .i1⟩
  | 23 => ⟨S_, .i32⟩
  | 24 => ⟨S40960, .i32⟩
  | 25 => ⟨S40960, .i32⟩
  | 26 => ⟨S40960, .i32⟩
  | 27 => ⟨S40960x1, .i32⟩
  | 28 => ⟨S40960x128, .f32⟩
  | 29 => ⟨S_, .f32⟩
  | 30 => ⟨S4096x128, .f32⟩
  | 31 => ⟨S40960x1, .i32⟩
  | 32 => ⟨S4096x128, .f32⟩
  | 33 => ⟨S_, .f32⟩
  | 34 => ⟨S40960, .f32⟩
  | 35 => ⟨S_, .f32⟩
  | 36 => ⟨S4096, .f32⟩
  | 37 => ⟨S40960x1, .i32⟩
  | 38 => ⟨S4096, .f32⟩
  | 39 => ⟨S4096x128, .f32⟩
  | 40 => ⟨S_, .f32⟩
  | 41 => ⟨S4096, .f32⟩
  | 42 => ⟨S4096, .f32⟩
  | 43 => ⟨S_, .f32⟩
  | 44 => ⟨S4096, .f32⟩
  | 45 => ⟨S4096, .f32⟩
  | 46 => ⟨S4096x1, .f32⟩
  | 47 => ⟨S4096x128, .f32⟩
  | 48 => ⟨S4096x128, .f32⟩
  | 49 => ⟨S4096x256, .f32⟩
  | 50 => ⟨S256x128, .f32⟩
  | 51 => ⟨S4096x128, .f32⟩
  | 52 => ⟨S1x128, .f32⟩
  | 53 => ⟨S4096x128, .f32⟩
  | 54 => ⟨S4096x128, .f32⟩
  | 55 => ⟨S_, .f32⟩
  | 56 => ⟨S4096x128, .f32⟩
  | 57 => ⟨S4096x128, .i1⟩
  | 58 => ⟨S_, .f32⟩
  | 59 => ⟨S4096x128, .f32⟩
  | 60 => ⟨S4096x128, .f32⟩
  | 61 => ⟨S4096x128, .f32⟩
  | 62 => ⟨S4096x128, .f32⟩
  | 63 => ⟨S_, .f32⟩
  | 64 => ⟨S4096, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x128, .f32⟩
  | 71 => ⟨S4096x128, .f32⟩
  | _ => ⟨S409600, .i32⟩

abbrev hbmTy (i : Nat) : BufTy := match i / 128 with
  | 0 => hbmTy0_0 i
  | 1 => hbmTy0_1 i
  | _ => ⟨S409600, .i32⟩

abbrev bufTy : (tb : Table) → Fin (tcTables nBuf tb) → BufTy
  | .hbm, ⟨i, _⟩ => hbmTy i
  | _, _ => ⟨S409600, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_c_1 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_v14 : Ref sig .tc := ⟨.hbm, 44, rfl⟩
abbrev main_v15 : Ref sig .tc := ⟨.hbm, 45, rfl⟩
abbrev main_c_2 : Ref sig .tc := ⟨.hbm, 46, rfl⟩
abbrev main_v16 : Ref sig .tc := ⟨.hbm, 47, rfl⟩
abbrev main_v17 : Ref sig .tc := ⟨.hbm, 48, rfl⟩
abbrev main_c_3 : Ref sig .tc := ⟨.hbm, 49, rfl⟩
abbrev main_v18 : Ref sig .tc := ⟨.hbm, 50, rfl⟩
abbrev main_v19 : Ref sig .tc := ⟨.hbm, 51, rfl⟩
abbrev main_c_4 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_cst_0 : Ref sig .tc := ⟨.hbm, 66, rfl⟩
abbrev main_call1_v2 : Ref sig .tc := ⟨.hbm, 67, rfl⟩
abbrev main_call1_v3 : Ref sig .tc := ⟨.hbm, 68, rfl⟩
abbrev main_v30 : Ref sig .tc := ⟨.hbm, 69, rfl⟩
abbrev main_v31 : Ref sig .tc := ⟨.hbm, 70, rfl⟩
abbrev main_c_5 : Ref sig .tc := ⟨.hbm, 71, rfl⟩
abbrev main_v32 : Ref sig .tc := ⟨.hbm, 72, rfl⟩
abbrev main_v33 : Ref sig .tc := ⟨.hbm, 73, rfl⟩
abbrev main_c_6 : Ref sig .tc := ⟨.hbm, 74, rfl⟩
abbrev main_v34 : Ref sig .tc := ⟨.hbm, 75, rfl⟩
abbrev main_v35 : Ref sig .tc := ⟨.hbm, 76, rfl⟩
abbrev main_c_7 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_cst_0 : Ref sig .tc := ⟨.hbm, 91, rfl⟩
abbrev main_call2_v2 : Ref sig .tc := ⟨.hbm, 92, rfl⟩
abbrev main_call2_v3 : Ref sig .tc := ⟨.hbm, 93, rfl⟩
abbrev main_v46 : Ref sig .tc := ⟨.hbm, 94, rfl⟩
abbrev main_v47 : Ref sig .tc := ⟨.hbm, 95, rfl⟩
abbrev main_c_8 : Ref sig .tc := ⟨.hbm, 96, rfl⟩
abbrev main_v48 : Ref sig .tc := ⟨.hbm, 97, rfl⟩
abbrev main_v49 : Ref sig .tc := ⟨.hbm, 98, rfl⟩
abbrev main_c_9 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_cst : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_10 : Ref sig .tc := ⟨.hbm, 109, rfl⟩
abbrev main_v58 : Ref sig .tc := ⟨.hbm, 110, rfl⟩
abbrev main_cst_11 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_12 : Ref sig .tc := ⟨.hbm, 116, rfl⟩
abbrev main_v63 : Ref sig .tc := ⟨.hbm, 117, rfl⟩
abbrev main_v64 : Ref sig .tc := ⟨.hbm, 118, rfl⟩
abbrev main_cst_13 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_call3_cst : Ref sig .tc := ⟨.hbm, 131, rfl⟩
abbrev main_call3_v0 : Ref sig .tc := ⟨.hbm, 132, rfl⟩
abbrev main_call3_v1 : Ref sig .tc := ⟨.hbm, 133, rfl⟩
abbrev main_call3_cst_0 : Ref sig .tc := ⟨.hbm, 134, rfl⟩
abbrev main_call3_v2 : Ref sig .tc := ⟨.hbm, 135, rfl⟩
abbrev main_call3_v3 : Ref sig .tc := ⟨.hbm, 136, rfl⟩
abbrev main_v76 : Ref sig .tc := ⟨.hbm, 137, rfl⟩
abbrev main_call4_v0 : Ref sig .tc := ⟨.hbm, 138, rfl⟩
abbrev main_call4_cst : Ref sig .tc := ⟨.hbm, 139, rfl⟩
abbrev main_call4_v1 : Ref sig .tc := ⟨.hbm, 140, rfl⟩
abbrev main_call4_v2 : Ref sig .tc := ⟨.hbm, 141, rfl⟩
abbrev main_v77 : Ref sig .tc := ⟨.hbm, 142, rfl⟩
abbrev main_cst_14 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_c_15 : Ref sig .tc := ⟨.hbm, 148, rfl⟩
abbrev main_v82 : Ref sig .tc := ⟨.hbm, 149, rfl⟩
abbrev main_v83 : Ref sig .tc := ⟨.hbm, 150, rfl⟩
abbrev main_c_16 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_cst_17 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_cst_18 : Ref sig .tc := ⟨.hbm, 161, rfl⟩
abbrev main_v92 : Ref sig .tc := ⟨.hbm, 162, rfl⟩
abbrev main_cst_19 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_cst_20 : Ref sig .tc := ⟨.hbm, 168, rfl⟩
abbrev main_v97 : Ref sig .tc := ⟨.hbm, 169, rfl⟩
abbrev main_v98 : Ref sig .tc := ⟨.hbm, 170, rfl⟩
abbrev main_cst_21 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_call5_cst : Ref sig .tc := ⟨.hbm, 183, rfl⟩
abbrev main_call5_v0 : Ref sig .tc := ⟨.hbm, 184, rfl⟩
abbrev main_call5_v1 : Ref sig .tc := ⟨.hbm, 185, rfl⟩
abbrev main_call5_cst_0 : Ref sig .tc := ⟨.hbm, 186, rfl⟩
abbrev main_call5_v2 : Ref sig .tc := ⟨.hbm, 187, rfl⟩
abbrev main_call5_v3 : Ref sig .tc := ⟨.hbm, 188, rfl⟩
abbrev main_v110 : Ref sig .tc := ⟨.hbm, 189, rfl⟩
abbrev main_call6_v0 : Ref sig .tc := ⟨.hbm, 190, rfl⟩
abbrev main_call6_cst : Ref sig .tc := ⟨.hbm, 191, rfl⟩
abbrev main_call6_v1 : Ref sig .tc := ⟨.hbm, 192, rfl⟩
abbrev main_call6_v2 : Ref sig .tc := ⟨.hbm, 193, rfl⟩
abbrev main_v111 : Ref sig .tc := ⟨.hbm, 194, rfl⟩
abbrev main_cst_22 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩

abbrev nD : Nat := 1
abbrev τ : Topo := Topo.v7x

variable {F : FTy → Type} [FloatOps F]

class Facts₀ : Prop where
  bcast_S_S409600 : S_.BroadcastsInDim S409600 (![] : Fin 0 → Fin S409600.rank)
  bcast_S409600_S409600x1_0 : S409600.BroadcastsInDim S409600x1 (![0] : Fin 1 → Fin S409600x1.rank)
  transposes_S128x300_S300x128_1_0 : S128x300.Transposes [1, 0] S300x128
  bcast_S128_S1x128_1 : S128.BroadcastsInDim S1x128 (![1] : Fin 1 → Fin S1x128.rank)
  bcast_S1x128_S409600x128_0_1 : S1x128.BroadcastsInDim S409600x128 (![0, 1] : Fin 2 → Fin S409600x128.rank)
  bcast_S_S409600x128 : S_.BroadcastsInDim S409600x128 (![] : Fin 0 → Fin S409600x128.rank)
  bcast_S_S40960 : S_.BroadcastsInDim S40960 (![] : Fin 0 → Fin S40960.rank)
  bcast_S40960_S40960x1_0 : S40960.BroadcastsInDim S40960x1 (![0] : Fin 1 → Fin S40960x1.rank)
  bcast_S1x128_S40960x128_0_1 : S1x128.BroadcastsInDim S40960x128 (![0, 1] : Fin 2 → Fin S40960x128.rank)
  bcast_S_S40960x128 : S_.BroadcastsInDim S40960x128 (![] : Fin 0 → Fin S40960x128.rank)
  bcast_S_S4096 : S_.BroadcastsInDim S4096 (![] : Fin 0 → Fin S4096.rank)
  bcast_S4096_S4096x1_0 : S4096.BroadcastsInDim S4096x1 (![0] : Fin 1 → Fin S4096x1.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S40960x1_S40960x128_0_1 : S40960x1.BroadcastsInDim S40960x128 (![0, 1] : Fin 2 → Fin S40960x128.rank)
  concatenates_S40960x128_S40960x128_S40960x256_d1 : Shape.Concatenates [S40960x128, S40960x128] S40960x256 1
  transposes_S128x256_S256x128_1_0 : S128x256.Transposes [1, 0] S256x128
  reducesTo_S40960x128_S40960_d1 : S40960x128.ReducesTo [1] S40960
  h_S_ : 0 < S_.numel
  bcast_S_S40960x1 : S_.BroadcastsInDim S40960x1 (![] : Fin 0 → Fin S40960x1.rank)
  bcast_S4096x1_S4096x128_0_1 : S4096x1.BroadcastsInDim S4096x128 (![0, 1] : Fin 2 → Fin S4096x128.rank)
  concatenates_S4096x128_S4096x128_S4096x256_d1 : Shape.Concatenates [S4096x128, S4096x128] S4096x256 1
  reducesTo_S4096x128_S4096_d1 : S4096x128.ReducesTo [1] S4096
  bcast_S_S4096x1 : S_.BroadcastsInDim S4096x1 (![] : Fin 0 → Fin S4096x1.rank)
  gather_S100001x128_S409600x1_S409600x128_1_0_n_n_0_1_1128_wf : GatherDims.WF S100001x128 S409600x1 S409600x128 [1] [0] [] [0] [] 1 ![1, 128]
  dot_S409600x300_S300x128_S409600x128_1_0_0_1_n_n_wf : DotDims.WF S409600x300 S300x128 S409600x128 [1] [0] [0] [1] [] []
  gather_S100001x128_S40960x1_S40960x128_1_0_n_n_0_1_1128_wf : GatherDims.WF S100001x128 S40960x1 S40960x128 [1] [0] [] [0] [] 1 ![1, 128]
  dot_S40960x300_S300x128_S40960x128_1_0_0_1_n_n_wf : DotDims.WF S40960x300 S300x128 S40960x128 [1] [0] [0] [1] [] []
  gather_S100001x128_S4096x1_S4096x128_1_0_n_n_0_1_1128_wf : GatherDims.WF S100001x128 S4096x1 S4096x128 [1] [0] [] [0] [] 1 ![1, 128]
  dot_S4096x300_S300x128_S4096x128_1_0_0_1_n_n_wf : DotDims.WF S4096x300 S300x128 S4096x128 [1] [0] [0] [1] [] []
  gather_S409600x128_S409600x1_S409600x128_1_0_n_n_0_1_1128_wf : GatherDims.WF S409600x128 S409600x1 S409600x128 [1] [0] [] [0] [] 1 ![1, 128]
  scatter_S40960x128_S409600x1_S409600x128_1_0_0_1_wf : ScatterDims.WF S40960x128 S409600x1 S409600x128 [1] [0] [0] 1
  scatter_S40960_S409600x1_S409600_n_0_0_1_wf : ScatterDims.WF S40960 S409600x1 S409600 [] [0] [0] 1
  dot_S40960x256_S256x128_S40960x128_1_0_0_1_n_n_wf : DotDims.WF S40960x256 S256x128 S40960x128 [1] [0] [0] [1] [] []
  gather_S40960x128_S40960x1_S40960x128_1_0_n_n_0_1_1128_wf : GatherDims.WF S40960x128 S40960x1 S40960x128 [1] [0] [] [0] [] 1 ![1, 128]
  scatter_S4096x128_S40960x1_S40960x128_1_0_0_1_wf : ScatterDims.WF S4096x128 S40960x1 S40960x128 [1] [0] [0] 1
  scatter_S4096_S40960x1_S40960_n_0_0_1_wf : ScatterDims.WF S4096 S40960x1 S40960 [] [0] [0] 1
  dot_S4096x256_S256x128_S4096x128_1_0_0_1_n_n_wf : DotDims.WF S4096x256 S256x128 S4096x128 [1] [0] [0] [1] [] []

variable [Facts₀]

def gather_S100001x128_S409600x1_S409600x128_1_0_n_n_0_1_1128 : GatherDims S100001x128 S409600x1 S409600x128 where
  offsetDims := [1]
  collapsedSliceDims := [0]
  operandBatchingDims := []
  startIndicesBatchingDims := []
  startIndexMap := [0]
  indexVectorDim := 1
  sliceSizes := ![1, 128]
  wf := gather_S100001x128_S409600x1_S409600x128_1_0_n_n_0_1_1128_wf
def dot_S409600x300_S300x128_S409600x128_1_0_0_1_n_n : DotDims S409600x300 S300x128 S409600x128 where
  lhsContracting := [1]
  rhsContracting := [0]
  lhsNonContracting := [0]
  rhsNonContracting := [1]
  lhsBatch := []
  rhsBatch := []
  wf := dot_S409600x300_S300x128_S409600x128_1_0_0_1_n_n_wf
def gather_S100001x128_S40960x1_S40960x128_1_0_n_n_0_1_1128 : GatherDims S100001x128 S40960x1 S40960x128 where
  offsetDims := [1]
  collapsedSliceDims := [0]
  operandBatchingDims := []
  startIndicesBatchingDims := []
  startIndexMap := [0]
  indexVectorDim := 1
  sliceSizes := ![1, 128]
  wf := gather_S100001x128_S40960x1_S40960x128_1_0_n_n_0_1_1128_wf
def dot_S40960x300_S300x128_S40960x128_1_0_0_1_n_n : DotDims S40960x300 S300x128 S40960x128 where
  lhsContracting := [1]
  rhsContracting := [0]
  lhsNonContracting := [0]
  rhsNonContracting := [1]
  lhsBatch := []
  rhsBatch := []
  wf := dot_S40960x300_S300x128_S40960x128_1_0_0_1_n_n_wf
def gather_S100001x128_S4096x1_S4096x128_1_0_n_n_0_1_1128 : GatherDims S100001x128 S4096x1 S4096x128 where
  offsetDims := [1]
  collapsedSliceDims := [0]
  operandBatchingDims := []
  startIndicesBatchingDims := []
  startIndexMap := [0]
  indexVectorDim := 1
  sliceSizes := ![1, 128]
  wf := gather_S100001x128_S4096x1_S4096x128_1_0_n_n_0_1_1128_wf
def dot_S4096x300_S300x128_S4096x128_1_0_0_1_n_n : DotDims S4096x300 S300x128 S4096x128 where
  lhsContracting := [1]
  rhsContracting := [0]
  lhsNonContracting := [0]
  rhsNonContracting := [1]
  lhsBatch := []
  rhsBatch := []
  wf := dot_S4096x300_S300x128_S4096x128_1_0_0_1_n_n_wf
def gather_S409600x128_S409600x1_S409600x128_1_0_n_n_0_1_1128 : GatherDims S409600x128 S409600x1 S409600x128 where
  offsetDims := [1]
  collapsedSliceDims := [0]
  operandBatchingDims := []
  startIndicesBatchingDims := []
  startIndexMap := [0]
  indexVectorDim := 1
  sliceSizes := ![1, 128]
  wf := gather_S409600x128_S409600x1_S409600x128_1_0_n_n_0_1_1128_wf
def scatter_S40960x128_S409600x1_S409600x128_1_0_0_1 : ScatterDims S40960x128 S409600x1 S409600x128 where
  updateWindowDims := [1]
  insertedWindowDims := [0]
  scatterDimsToOperandDims := [0]
  indexVectorDim := 1
  wf := scatter_S40960x128_S409600x1_S409600x128_1_0_0_1_wf
def scatter_S40960_S409600x1_S409600_n_0_0_1 : ScatterDims S40960 S409600x1 S409600 where
  updateWindowDims := []
  insertedWindowDims := [0]
  scatterDimsToOperandDims := [0]
  indexVectorDim := 1
  wf := scatter_S40960_S409600x1_S409600_n_0_0_1_wf
def dot_S40960x256_S256x128_S40960x128_1_0_0_1_n_n : DotDims S40960x256 S256x128 S40960x128 where
  lhsContracting := [1]
  rhsContracting := [0]
  lhsNonContracting := [0]
  rhsNonContracting := [1]
  lhsBatch := []
  rhsBatch := []
  wf := dot_S40960x256_S256x128_S40960x128_1_0_0_1_n_n_wf
def gather_S40960x128_S40960x1_S40960x128_1_0_n_n_0_1_1128 : GatherDims S40960x128 S40960x1 S40960x128 where
  offsetDims := [1]
  collapsedSliceDims := [0]
  operandBatchingDims := []
  startIndicesBatchingDims := []
  startIndexMap := [0]
  indexVectorDim := 1
  sliceSizes := ![1, 128]
  wf := gather_S40960x128_S40960x1_S40960x128_1_0_n_n_0_1_1128_wf
def scatter_S4096x128_S40960x1_S40960x128_1_0_0_1 : ScatterDims S4096x128 S40960x1 S40960x128 where
  updateWindowDims := [1]
  insertedWindowDims := [0]
  scatterDimsToOperandDims := [0]
  indexVectorDim := 1
  wf := scatter_S4096x128_S40960x1_S40960x128_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

class Facts : Prop extends Facts₀ where

variable [Facts]
-- ==== Proof.KRun.lean ====
/-
  The kernel program's run with its result named.

  The program is five kernel regions among stretches of host operations. The buffer contents at each boundary
  form a chain from the launch memory: a stretch of host operations rewrites the buffers it writes, a region
  replaces each of its arrays by what its write-backs leave. Every weakly fair execution terminates, and the
  final memory holds, at every unscoped buffer, the last link of that chain; in particular the result buffer
  holds the last region's output array, and the arguments are as launched.
-/
import proofs.«171769_j36816459662034_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer ends at the
    last boundary's contents and every argument as launched. -/
theorem run_named : θ_run defs (onTc (τ := τ) (main (F := F))) ⟨m, fun _ => 0, ρ⟩ (fun r => ∀ c : Dev nD,
      r.2.mem ((c.tc : Thread nD τ).loc main_v66) = W10 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v66 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c),
       (h c _ (mem_uc main_arg19 (by decide))).trans (W10_main_arg19 m ρ c),
       (h c _ (mem_uc main_arg20 (by decide))).trans (W10_main_arg20 m ρ c)⟩)

end Cert.KernelIdeal.KRun

end
-- ==== Proof.KChain.lean ====
/-
  What each boundary of the kernel program keeps.

  Between the launch and the return the program alternates stretches of host operations and kernel regions. A
  stretch changes only the buffers its operations write; a region changes only its own arrays. So an argument
  array holds its launch contents at every boundary, and a region's output array, once written, is what later
  stretches and regions find until another region or operation writes it.
-/
import proofs.«171769_j36816459662034_1_alg».proof.Proof.Gen.KernelIdeal.Frame

set_option maxRecDepth 16384

noncomputable section

namespace Cert.KernelIdeal.KChain

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The buffers the host operations of stretch 0 write. -/
abbrev wr0 : List (Ref sig .tc) := [main_c, main_v0, main_v1, main_c_0, main_v2, main_v3, main_c_1, main_v4, main_v5, main_v6, main_v7, main_v8, main_v9]
theorem writes0 : (hostOps0 : List (HloOp τ sig (Elt F))).Forall fun op => op.writes ⊆ (wr0.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map_of_mem (by decide)
/-- A buffer stretch 0 does not write is after it what it was before. -/
theorem W1_of (c : Dev nD) (r : Ref sig .tc) (h : r ∉ wr0) :
    W1 m ρ c (Proc.devRef .tc r) = W0 m ρ c (Proc.devRef .tc r) :=
  StableHlo.after_of_writes_sub hostOps0 _ writes0 h

/-- The buffers the host operations of stretch 1 write. -/
abbrev wr1 : List (Ref sig .tc) := [main_c_2, main_v11, main_v12, main_c_3, main_v13, main_v14, main_c_4, main_v15, main_v16, main_v17, main_v18, main_v19, main_v20]
theorem writes1 : (hostOps1 : List (HloOp τ sig (Elt F))).Forall fun op => op.writes ⊆ (wr1.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map_of_mem (by decide)
/-- A buffer stretch 1 does not write is after it what it was before. -/
theorem W3_of (c : Dev nD) (r : Ref sig .tc) (h : r ∉ wr1) :
    W3 m ρ c (Proc.devRef .tc r) = W2 m ρ c (Proc.devRef .tc r) :=
  StableHlo.after_of_writes_sub hostOps1 _ writes1 h

/-- The buffers the host operations of stretch 2 write. -/
abbrev wr2 : List (Ref sig .tc) := [main_c_5, main_v22, main_v23, main_c_6, main_v24, main_v25, main_c_7, main_v26, main_v27, main_v28, main_v29, main_v30, main_v31]
theorem writes2 : (hostOps2 : List (HloOp τ sig (Elt F))).Forall fun op => op.writes ⊆ (wr2.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map_of_mem (by decide)
/-- A buffer stretch 2 does not write is after it what it was before. -/
theorem W5_of (c : Dev nD) (r : Ref sig .tc) (h : r ∉ wr2) :
    W5 m ρ c (Proc.devRef .tc r) = W4 m ρ c (Proc.devRef .tc r) :=
  StableHlo.after_of_writes_sub hostOps2 _ writes2 h

/-- The buffers the host operations of stretch 3 write. -/
abbrev wr3 : List (Ref sig .tc) := [main_c_8, main_v33, main_v34, main_c_9, main_v35, main_v36, main_v37, main_v38, main_v39, main_cst, main_v40, main_v41, main_v42, main_cst_10, main_v43, main_cst_11, main_v44, main_v45, main_v46, main_v47, main_v48]
theorem writes3 : (hostOps3 : List (HloOp τ sig (Elt F))).Forall fun op => op.writes ⊆ (wr3.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map_of_mem (by decide)
/-- A buffer stretch 3 does not write is after it what it was before. -/
theorem W7_of (c : Dev nD) (r : Ref sig .tc) (h : r ∉ wr3) :
    W7 m ρ c (Proc.devRef .tc r) = W6 m ρ c (Proc.devRef .tc r) :=
  StableHlo.after_of_writes_sub hostOps3 _ writes3 h

/-- The buffers the host operations of stretch 4 write. -/
abbrev wr4 : List (Ref sig .tc) := [main_c_12, main_v50, main_v51, main_c_13, main_v52, main_v53, main_v54, main_v55, main_v56, main_cst_14, main_v57, main_v58, main_v59, main_cst_15, main_v60, main_cst_16, main_v61, main_v62, main_v63, main_v64, main_v65]
theorem writes4 : (hostOps4 : List (HloOp τ sig (Elt F))).Forall fun op => op.writes ⊆ (wr4.map (Proc.devRef (τ := τ) .tc)).toFinset := by
  simp only [List.Forall, StableHlo.nullary_writes, StableHlo.unary_writes, StableHlo.binary_writes, StableHlo.ternary_writes, Finset.singleton_subset_iff, List.mem_toFinset]
  repeat' apply And.intro
  all_goals exact List.mem_map_of_mem (by decide)
/-- A buffer stretch 4 does not write is after it what it was before. -/
theorem W9_of (c : Dev nD) (r : Ref sig .tc) (h : r ∉ wr4) :
    W9 m ρ c (Proc.devRef .tc r) = W8 m ρ c (Proc.devRef .tc r) :=
  StableHlo.after_of_writes_sub hostOps4 _ writes4 h

/-! ## The arguments at the boundaries where a stretch reads them -/

theorem W2_arg1 (c : Dev nD) : W2 m ρ c (Proc.devRef .tc main_arg1) = m ((c : Thread nD τ).loc main_arg1) :=
  (W2_of_ne m ρ c main_arg1 (by decide)).trans <| (W1_of m ρ c main_arg1 (by decide)).trans rfl
theorem W2_arg4 (c : Dev nD) : W2 m ρ c (Proc.devRef .tc main_arg4) = m ((c : Thread nD τ).loc main_arg4) :=
  (W2_of_ne m ρ c main_arg4 (by decide)).trans <| (W1_of m ρ c main_arg4 (by decide)).trans rfl
theorem W2_arg10 (c : Dev nD) : W2 m ρ c (Proc.devRef .tc main_arg10) = m ((c : Thread nD τ).loc main_arg10) :=
  (W2_of_ne m ρ c main_arg10 (by decide)).trans <| (W1_of m ρ c main_arg10 (by decide)).trans rfl
theorem W2_arg13 (c : Dev nD) : W2 m ρ c (Proc.devRef .tc main_arg13) = m ((c : Thread nD τ).loc main_arg13) :=
  (W2_of_ne m ρ c main_arg13 (by decide)).trans <| (W1_of m ρ c main_arg13 (by decide)).trans rfl
theorem W2_arg14 (c : Dev nD) : W2 m ρ c (Proc.devRef .tc main_arg14) = m ((c : Thread nD τ).loc main_arg14) :=
  (W2_of_ne m ρ c main_arg14 (by decide)).trans <| (W1_of m ρ c main_arg14 (by decide)).trans rfl

theorem W4_arg2 (c : Dev nD) : W4 m ρ c (Proc.devRef .tc main_arg2) = m ((c : Thread nD τ).loc main_arg2) :=
  (W4_of_ne m ρ c main_arg2 (by decide)).trans <| (W3_of m ρ c main_arg2 (by decide)).trans <| (W2_of_ne m ρ c main_arg2 (by decide)).trans <| (W1_of m ρ c main_arg2 (by decide)).trans rfl
theorem W4_arg5 (c : Dev nD) : W4 m ρ c (Proc.devRef .tc main_arg5) = m ((c : Thread nD τ).loc main_arg5) :=
  (W4_of_ne m ρ c main_arg5 (by decide)).trans <| (W3_of m ρ c main_arg5 (by decide)).trans <| (W2_of_ne m ρ c main_arg5 (by decide)).trans <| (W1_of m ρ c main_arg5 (by decide)).trans rfl
theorem W4_arg10 (c : Dev nD) : W4 m ρ c (Proc.devRef .tc main_arg10) = m ((c : Thread nD τ).loc main_arg10) :=
  (W4_of_ne m ρ c main_arg10 (by decide)).trans <| (W3_of m ρ c main_arg10 (by decide)).trans <| (W2_of_ne m ρ c main_arg10 (by decide)).trans <| (W1_of m ρ c main_arg10 (by decide)).trans rfl
theorem W4_arg15 (c : Dev nD) : W4 m ρ c (Proc.devRef .tc main_arg15) = m ((c : Thread nD τ).loc main_arg15) :=
  (W4_of_ne m ρ c main_arg15 (by decide)).trans <| (W3_of m ρ c main_arg15 (by decide)).trans <| (W2_of_ne m ρ c main_arg15 (by decide)).trans <| (W1_of m ρ c main_arg15 (by decide)).trans rfl
theorem W4_arg16 (c : Dev nD) : W4 m ρ c (Proc.devRef .tc main_arg16) = m ((c : Thread nD τ).loc main_arg16) :=
  (W4_of_ne m ρ c main_arg16 (by decide)).trans <| (W3_of m ρ c main_arg16 (by decide)).trans <| (W2_of_ne m ρ c main_arg16 (by decide)).trans <| (W1_of m ρ c main_arg16 (by decide)).trans rfl

theorem W6_arg6 (c : Dev nD) : W6 m ρ c (Proc.devRef .tc main_arg6) = m ((c : Thread nD τ).loc main_arg6) :=
  (W6_of_ne m ρ c main_arg6 (by decide)).trans <| (W5_of m ρ c main_arg6 (by decide)).trans <| (W4_of_ne m ρ c main_arg6 (by decide)).trans <| (W3_of m ρ c main_arg6 (by decide)).trans <| (W2_of_ne m ρ c main_arg6 (by decide)).trans <| (W1_of m ρ c main_arg6 (by decide)).trans rfl
theorem W6_arg7 (c : Dev nD) : W6 m ρ c (Proc.devRef .tc main_arg7) = m ((c : Thread nD τ).loc main_arg7) :=
  (W6_of_ne m ρ c main_arg7 (by decide)).trans <| (W5_of m ρ c main_arg7 (by decide)).trans <| (W4_of_ne m ρ c main_arg7 (by decide)).trans <| (W3_of m ρ c main_arg7 (by decide)).trans <| (W2_of_ne m ρ c main_arg7 (by decide)).trans <| (W1_of m ρ c main_arg7 (by decide)).trans rfl
theorem W6_arg17 (c : Dev nD) : W6 m ρ c (Proc.devRef .tc main_arg17) = m ((c : Thread nD τ).loc main_arg17) :=
  (W6_of_ne m ρ c main_arg17 (by decide)).trans <| (W5_of m ρ c main_arg17 (by decide)).trans <| (W4_of_ne m ρ c main_arg17 (by decide)).trans <| (W3_of m ρ c main_arg17 (by decide)).trans <| (W2_of_ne m ρ c main_arg17 (by decide)).trans <| (W1_of m ρ c main_arg17 (by decide)).trans rfl
theorem W6_arg18 (c : Dev nD) : W6 m ρ c (Proc.devRef .tc main_arg18) = m ((c : Thread nD τ).loc main_arg18) :=
  (W6_of_ne m ρ c main_arg18 (by decide)).trans <| (W5_of m ρ c main_arg18 (by decide)).trans <| (W4_of_ne m ρ c main_arg18 (by decide)).trans <| (W3_of m ρ c main_arg18 (by decide)).trans <| (W2_of_ne m ρ c main_arg18 (by decide)).trans <| (W1_of m ρ c main_arg18 (by decide)).trans rfl

theorem W8_arg8 (c : Dev nD) : W8 m ρ c (Proc.devRef .tc main_arg8) = m ((c : Thread nD τ).loc main_arg8) :=
  (W8_of_ne m ρ c main_arg8 (by decide)).trans <| (W7_of m ρ c main_arg8 (by decide)).trans <| (W6_of_ne m ρ c main_arg8 (by decide)).trans <| (W5_of m ρ c main_arg8 (by decide)).trans <| (W4_of_ne m ρ c main_arg8 (by decide)).trans <| (W3_of m ρ c main_arg8 (by decide)).trans <| (W2_of_ne m ρ c main_arg8 (by decide)).trans <| (W1_of m ρ c main_arg8 (by decide)).trans rfl
theorem W8_arg9 (c : Dev nD) : W8 m ρ c (Proc.devRef .tc main_arg9) = m ((c : Thread nD τ).loc main_arg9) :=
  (W8_of_ne m ρ c main_arg9 (by decide)).trans <| (W7_of m ρ c main_arg9 (by decide)).trans <| (W6_of_ne m ρ c main_arg9 (by decide)).trans <| (W5_of m ρ c main_arg9 (by decide)).trans <| (W4_of_ne m ρ c main_arg9 (by decide)).trans <| (W3_of m ρ c main_arg9 (by decide)).trans <| (W2_of_ne m ρ c main_arg9 (by decide)).trans <| (W1_of m ρ c main_arg9 (by decide)).trans rfl
theorem W8_arg19 (c : Dev nD) : W8 m ρ c (Proc.devRef .tc main_arg19) = m ((c : Thread nD τ).loc main_arg19) :=
  (W8_of_ne m ρ c main_arg19 (by decide)).trans <| (W7_of m ρ c main_arg19 (by decide)).trans <| (W6_of_ne m ρ c main_arg19 (by decide)).trans <| (W5_of m ρ c main_arg19 (by decide)).trans <| (W4_of_ne m ρ c main_arg19 (by decide)).trans <| (W3_of m ρ c main_arg19 (by decide)).trans <| (W2_of_ne m ρ c main_arg19 (by decide)).trans <| (W1_of m ρ c main_arg19 (by decide)).trans rfl
theorem W8_arg20 (c : Dev nD) : W8 m ρ c (Proc.devRef .tc main_arg20) = m ((c : Thread nD τ).loc main_arg20) :=
  (W8_of_ne m ρ c main_arg20 (by decide)).trans <| (W7_of m ρ c main_arg20 (by decide)).trans <| (W6_of_ne m ρ c main_arg20 (by decide)).trans <| (W5_of m ρ c main_arg20 (by decide)).trans <| (W4_of_ne m ρ c main_arg20 (by decide)).trans <| (W3_of m ρ c main_arg20 (by decide)).trans <| (W2_of_ne m ρ c main_arg20 (by decide)).trans <| (W1_of m ρ c main_arg20 (by decide)).trans rfl

/-! ## The region outputs that later stretches and regions read -/

/-- The first embedding's output reaches the stretch before the first convolution unchanged. -/
theorem W6_v10 (c : Dev nD) : W6 m ρ c (Proc.devRef .tc main_v10) = W2 m ρ c (Proc.devRef .tc main_v10) :=
  (W6_of_ne m ρ c main_v10 (by decide)).trans <| (W5_of m ρ c main_v10 (by decide)).trans <| (W4_of_ne m ρ c main_v10 (by decide)).trans <| (W3_of m ρ c main_v10 (by decide))
/-- The second embedding's output reaches the first convolution unchanged. -/
theorem W6_v21 (c : Dev nD) : W6 m ρ c (Proc.devRef .tc main_v21) = W4 m ρ c (Proc.devRef .tc main_v21) :=
  (W6_of_ne m ρ c main_v21 (by decide)).trans <| (W5_of m ρ c main_v21 (by decide))
/-- The third embedding's output reaches the second convolution unchanged. -/
theorem W8_v32 (c : Dev nD) : W8 m ρ c (Proc.devRef .tc main_v32) = W6 m ρ c (Proc.devRef .tc main_v32) :=
  (W8_of_ne m ρ c main_v32 (by decide)).trans <| (W7_of m ρ c main_v32 (by decide))

end Cert.KernelIdeal.KChain

end
-- ==== Proof.KHost.lean ====
/-
  The kernel program's host operations between its regions, as functions of the buffers they read.

  Before each embedding region the host looks up the table rows of the layer's nodes and transposes the
  projection's weights; before each convolution region it gathers the source rows of the block's edges, adds them up
  per destination node, counts the edges per destination node, and transposes the weights.
-/
import proofs.«171769_j36816459662034_1_alg».proof.Proof.Gen.KernelIdeal.Launch
import Idealize.ShloMosaic.Lib.StableHlo.Run
import Idealize.ShloMosaic.PureOps.Ideal

set_option maxRecDepth 16384

noncomputable section

namespace Cert.KernelIdeal.KHost

open Cert.KernelIdeal Cert.KernelIdeal.Gen
open Idealize.ShloMosaic Idealize.ShloMosaic.TcCoe Idealize.ShloMosaic.StableHlo Idealize.SL.Sem

/-- The table rows looked up for the first layer's nodes: row `nid + 1` (a negative index wrapped by the table's length), by the host's gather. -/
def gath0 (x0 : (⟨S100001x128, .f32⟩ : BufTy).Contents (Elt Ideal)) (x1 : (⟨S409600, .i32⟩ : BufTy).Contents (Elt Ideal)) : (⟨S409600x128, .f32⟩ : BufTy).Contents (Elt Ideal) :=
  (((fun x i => Host.gather gather_S100001x128_S409600x1_S409600x128_1_0_n_n_0_1_1128 x i)) x0 ((broadcastInDim S409600x1 ![0] bcast_S409600_S409600x1_0) ((select) ((cmpi .slt) ((addi) x1 ((broadcastInDim S409600 ![] bcast_S_S409600) (constantI S_ 32 1#32))) ((broadcastInDim S409600 ![] bcast_S_S409600) (constantI S_ 32 0#32))) ((addi) ((addi) x1 ((broadcastInDim S409600 ![] bcast_S_S409600) (constantI S_ 32 1#32))) ((broadcastInDim S409600 ![] bcast_S_S409600) (constantI S_ 32 100001#32))) ((addi) x1 ((broadcastInDim S409600 ![] bcast_S_S409600) (constantI S_ 32 1#32))))))
/-- After stretch 0, from any contents `W`, the buffer holds that term of what `W` holds at the operands. -/
theorem host0_main_v8 (W : Valuation τ sig (Elt Ideal)) :
    StableHlo.after (hostOps0 (F := Ideal)) W (Proc.devRef .tc main_v8) = gath0 (W (Proc.devRef .tc main_arg10)) (W (Proc.devRef .tc main_arg0)) := by
  after_results
  rfl

/-- The first projection's weights transposed to `[300, 128]`. -/
def tr0 (x0 : (⟨S128x300, .f32⟩ : BufTy).Contents (Elt Ideal)) : (⟨S300x128, .f32⟩ : BufTy).Contents (Elt Ideal) :=
  (((transpose S300x128 [1, 0] · transposes_S128x300_S300x128_1_0)) x0)
/-- After stretch 0, from any contents `W`, the buffer holds that term of what `W` holds at the operands. -/
theorem host0_main_v9 (W : Valuation τ sig (Elt Ideal)) :
    StableHlo.after (hostOps0 (F := Ideal)) W (Proc.devRef .tc main_v9) = tr0 (W (Proc.devRef .tc main_arg11)) := by
  after_results
  rfl

/-- The table rows looked up for the second layer's nodes. -/
def gath1 (x0 : (⟨S100001x128, .f32⟩ : BufTy).Contents (Elt Ideal)) (x1 : (⟨S40960, .i32⟩ : BufTy).Contents (Elt Ideal)) : (⟨S40960x128, .f32⟩ : BufTy).Contents (Elt Ideal) :=
  (((fun x i => Host.gather gather_S100001x128_S40960x1_S40960x128_1_0_n_n_0_1_1128 x i)) x0 ((broadcastInDim S40960x1 ![0] bcast_S40960_S40960x1_0) ((select) ((cmpi .slt) ((addi) x1 ((broadcastInDim S40960 ![] bcast_S_S40960) (constantI S_ 32 1#32))) ((broadcastInDim S40960 ![] bcast_S_S40960) (constantI S_ 32 0#32))) ((addi) ((addi) x1 ((broadcastInDim S40960 ![] bcast_S_S40960) (constantI S_ 32 1#32))) ((broadcastInDim S40960 ![] bcast_S_S40960) (constantI S_ 32 100001#32))) ((addi) x1 ((broadcastInDim S40960 ![] bcast_S_S40960) (constantI S_ 32 1#32))))))
/-- After stretch 1, from any contents `W`, the buffer holds that term of what `W` holds at the operands. -/
theorem host1_main_v19 (W : Valuation τ sig (Elt Ideal)) :
    StableHlo.after (hostOps1 (F := Ideal)) W (Proc.devRef .tc main_v19) = gath1 (W (Proc.devRef .tc main_arg10)) (W (Proc.devRef .tc main_arg1)) := by
  after_results
  rfl

/-- The second projection's weights transposed. -/
def tr1 (x0 : (⟨S128x300, .f32⟩ : BufTy).Contents (Elt Ideal)) : (⟨S300x128, .f32⟩ : BufTy).Contents (Elt Ideal) :=
  (((transpose S300x128 [1, 0] · transposes_S128x300_S300x128_1_0)) x0)
/-- After stretch 1, from any contents `W`, the buffer holds that term of what `W` holds at the operands. -/
theorem host1_main_v20 (W : Valuation τ sig (Elt Ideal)) :
    StableHlo.after (hostOps1 (F := Ideal)) W (Proc.devRef .tc main_v20) = tr1 (W (Proc.devRef .tc main_arg13)) := by
  after_results
  rfl

/-- The table rows looked up for the third layer's nodes. -/
def gath2 (x0 : (⟨S100001x128, .f32⟩ : BufTy).Contents (Elt Ideal)) (x1 : (⟨S4096, .i32⟩ : BufTy).Contents (Elt Ideal)) : (⟨S4096x128, .f32⟩ : BufTy).Contents (Elt Ideal) :=
  (((fun x i => Host.gather gather_S100001x128_S4096x1_S4096x128_1_0_n_n_0_1_1128 x i)) x0 ((broadcastInDim S4096x1 ![0] bcast_S4096_S4096x1_0) ((select) ((cmpi .slt) ((addi) x1 ((broadcastInDim S4096 ![] bcast_S_S4096) (constantI S_ 32 1#32))) ((broadcastInDim S4096 ![] bcast_S_S4096) (constantI S_ 32 0#32))) ((addi) ((addi) x1 ((broadcastInDim S4096 ![] bcast_S_S4096) (constantI S_ 32 1#32))) ((broadcastInDim S4096 ![] bcast_S_S4096) (constantI S_ 32 100001#32))) ((addi) x1 ((broadcastInDim S4096 ![] bcast_S_S4096) (constantI S_ 32 1#32))))))
/-- After stretch 2, from any contents `W`, the buffer holds that term of what `W` holds at the operands. -/
theorem host2_main_v30 (W : Valuation τ sig (Elt Ideal)) :
    StableHlo.after (hostOps2 (F := Ideal)) W (Proc.devRef .tc main_v30) = gath2 (W (Proc.devRef .tc main_arg10)) (W (Proc.devRef .tc main_arg2)) := by
  after_results
  rfl

/-- The third projection's weights transposed. -/
def tr2 (x0 : (⟨S128x300, .f32⟩ : BufTy).Contents (Elt Ideal)) : (⟨S300x128, .f32⟩ : BufTy).Contents (Elt Ideal) :=
  (((transpose S300x128 [1, 0] · transposes_S128x300_S300x128_1_0)) x0)
/-- After stretch 2, from any contents `W`, the buffer holds that term of what `W` holds at the operands. -/
theorem host2_main_v31 (W : Valuation τ sig (Elt Ideal)) :
    StableHlo.after (hostOps2 (F := Ideal)) W (Proc.devRef .tc main_v31) = tr2 (W (Proc.devRef .tc main_arg15)) := by
  after_results
  rfl

/-- The sum, per destination node, of the source rows of the first block's edges: the host's gather of the rows at the edges' sources, scatter-added at their destinations into zeros. -/
def agg0 (x0 : (⟨S409600x128, .f32⟩ : BufTy).Contents (Elt Ideal)) (x1 : (⟨S409600, .i32⟩ : BufTy).Contents (Elt Ideal)) (x2 : (⟨S409600, .i32⟩ : BufTy).Contents (Elt Ideal)) : (⟨S40960x128, .f32⟩ : BufTy).Contents (Elt Ideal) :=
  (((fun x i u => Host.scatterAdd scatter_S40960x128_S409600x1_S409600x128_1_0_0_1 x i u)) ((broadcastInDim S40960x128 ![] bcast_S_S40960x128) (constant (F := Ideal) S_ .f32 0x00000000#32)) ((broadcastInDim S409600x1 ![0] bcast_S409600_S409600x1_0) x2) (((fun x i => Host.gather gather_S409600x128_S409600x1_S409600x128_1_0_n_n_0_1_1128 x i)) x0 ((broadcastInDim S409600x1 ![0] bcast_S409600_S409600x1_0) ((select) ((cmpi .slt) x1 ((broadcastInDim S409600 ![] bcast_S_S409600) (constantI S_ 32 0#32))) ((addi) x1 ((broadcastInDim S409600 ![] bcast_S_S409600) (constantI S_ 32 409600#32))) x1))))
set_option maxHeartbeats 2000000 in
/-- After stretch 3, from any contents `W`, the buffer holds that term of what `W` holds at the operands. -/
theorem host3_main_v42 (W : Valuation τ sig (Elt Ideal)) :
    StableHlo.after (hostOps3 (F := Ideal)) W (Proc.devRef .tc main_v42) = agg0 (W (Proc.devRef .tc main_v10)) (W (Proc.devRef .tc main_arg6)) (W (Proc.devRef .tc main_arg7)) := by
  after_results_simp
  rfl

/-- The number of edges per destination node of the first block: ones scatter-added at the destinations into zeros. -/
def cnt0 (x0 : (⟨S409600, .i32⟩ : BufTy).Contents (Elt Ideal)) : (⟨S40960, .f32⟩ : BufTy).Contents (Elt Ideal) :=
  (((fun x i u => Host.scatterAdd scatter_S40960_S409600x1_S409600_n_0_0_1 x i u)) ((broadcastInDim S40960 ![] bcast_S_S40960) (constant (F := Ideal) S_ .f32 0x00000000#32)) ((broadcastInDim S409600x1 ![0] bcast_S409600_S409600x1_0) x0) ((broadcastInDim S409600 ![] bcast_S_S409600) (constant (F := Ideal) S_ .f32 0x3F800000#32)))
set_option maxHeartbeats 2000000 in
/-- After stretch 3, from any contents `W`, the buffer holds that term of what `W` holds at the operands. -/
theorem host3_main_v46 (W : Valuation τ sig (Elt Ideal)) :
    StableHlo.after (hostOps3 (F := Ideal)) W (Proc.devRef .tc main_v46) = cnt0 (W (Proc.devRef .tc main_arg7)) := by
  after_results_simp
  rfl

/-- The first block's edge counts as a column. -/
def col0 (x0 : (⟨S409600, .i32⟩ : BufTy).Contents (Elt Ideal)) : (⟨S40960x1, .f32⟩ : BufTy).Contents (Elt Ideal) :=
  ((broadcastInDim S40960x1 ![0] bcast_S40960_S40960x1_0) (((fun x i u => Host.scatterAdd scatter_S40960_S409600x1_S409600_n_0_0_1 x i u)) ((broadcastInDim S40960 ![] bcast_S_S40960) (constant (F := Ideal) S_ .f32 0x00000000#32)) ((broadcastInDim S409600x1 ![0] bcast_S409600_S409600x1_0) x0) ((broadcastInDim S409600 ![] bcast_S_S409600) (constant (F := Ideal) S_ .f32 0x3F800000#32))))
set_option maxHeartbeats 2000000 in
/-- After stretch 3, from any contents `W`, the buffer holds that term of what `W` holds at the operands. -/
theorem host3_main_v47 (W : Valuation τ sig (Elt Ideal)) :
    StableHlo.after (hostOps3 (F := Ideal)) W (Proc.devRef .tc main_v47) = col0 (W (Proc.devRef .tc main_arg7)) := by
  after_results_simp
  rfl

/-- The first convolution's weights transposed to `[256, 128]`. -/
def trc0 (x0 : (⟨S128x256, .f32⟩ : BufTy).Contents (Elt Ideal)) : (⟨S256x128, .f32⟩ : BufTy).Contents (Elt Ideal) :=
  (((transpose S256x128 [1, 0] · transposes_S128x256_S256x128_1_0)) x0)
set_option maxHeartbeats 2000000 in
/-- After stretch 3, from any contents `W`, the buffer holds that term of what `W` holds at the operands. -/
theorem host3_main_v48 (W : Valuation τ sig (Elt Ideal)) :
    StableHlo.after (hostOps3 (F := Ideal)) W (Proc.devRef .tc main_v48) = trc0 (W (Proc.devRef .tc main_arg17)) := by
  after_results_simp
  rfl

/-- The sum, per destination node, of the source rows of the second block's edges. -/
def agg1 (x0 : (⟨S40960x128, .f32⟩ : BufTy).Contents (Elt Ideal)) (x1 : (⟨S40960, .i32⟩ : BufTy).Contents (Elt Ideal)) (x2 : (⟨S40960, .i32⟩ : BufTy).Contents (Elt Ideal)) : (⟨S4096x128, .f32⟩ : BufTy).Contents (Elt Ideal) :=
  (((fun x i u => Host.scatterAdd scatter_S4096x128_S40960x1_S40960x128_1_0_0_1 x i u)) ((broadcastInDim S4096x128 ![] bcast_S_S4096x128) (constant (F := Ideal) S_ .f32 0x00000000#32)) ((broadcastInDim S40960x1 ![0] bcast_S40960_S40960x1_0) x2) (((fun x i => Host.gather gather_S40960x128_S40960x1_S40960x128_1_0_n_n_0_1_1128 x i)) x0 ((broadcastInDim S40960x1 ![0] bcast_S40960_S40960x1_0) ((select) ((cmpi .slt) x1 ((broadcastInDim S40960 ![] bcast_S_S40960) (constantI S_ 32 0#32))) ((addi) x1 ((broadcastInDim S40960 ![] bcast_S_S40960) (constantI S_ 32 40960#32))) x1))))
set_option maxHeartbeats 2000000 in
/-- After stretch 4, from any contents `W`, the buffer holds that term of what `W` holds at the operands. -/
theorem host4_main_v59 (W : Valuation τ sig (Elt Ideal)) :
    StableHlo.after (hostOps4 (F := Ideal)) W (Proc.devRef .tc main_v59) = agg1 (W (Proc.devRef .tc main_v49)) (W (Proc.devRef .tc main_arg8)) (W (Proc.devRef .tc main_arg9)) := by
  after_results_simp
  rfl

/-- The number of edges per destination node of the second block. -/
def cnt1 (x0 : (⟨S40960, .i32⟩ : BufTy).Contents (Elt Ideal)) : (⟨S4096, .f32⟩ : BufTy).Contents (Elt Ideal) :=
  (((fun x i u => Host.scatterAdd scatter_S4096_S40960x1_S40960_n_0_0_1 x i u)) ((broadcastInDim S4096 ![] bcast_S_S4096) (constant (F := Ideal) S_ .f32 0x00000000#32)) ((broadcastInDim S40960x1 ![0] bcast_S40960_S40960x1_0) x0) ((broadcastInDim S40960 ![] bcast_S_S40960) (constant (F := Ideal) S_ .f32 0x3F800000#32)))
set_option maxHeartbeats 2000000 in
/-- After stretch 4, from any contents `W`, the buffer holds that term of what `W` holds at the operands. -/
theorem host4_main_v63 (W : Valuation τ sig (Elt Ideal)) :
    StableHlo.after (hostOps4 (F := Ideal)) W (Proc.devRef .tc main_v63) = cnt1 (W (Proc.devRef .tc main_arg9)) := by
  after_results_simp
  rfl

/-- The second block's edge counts as a column. -/
def col1 (x0 : (⟨S40960, .i32⟩ : BufTy).Contents (Elt Ideal)) : (⟨S4096x1, .f32⟩ : BufTy).Contents (Elt Ideal) :=
  ((broadcastInDim S4096x1 ![0] bcast_S4096_S4096x1_0) (((fun x i u => Host.scatterAdd scatter_S4096_S40960x1_S40960_n_0_0_1 x i u)) ((broadcastInDim S4096 ![] bcast_S_S4096) (constant (F := Ideal) S_ .f32 0x00000000#32)) ((broadcastInDim S40960x1 ![0] bcast_S40960_S40960x1_0) x0) ((broadcastInDim S40960 ![] bcast_S_S40960) (constant (F := Ideal) S_ .f32 0x3F800000#32))))
set_option maxHeartbeats 2000000 in
/-- After stretch 4, from any contents `W`, the buffer holds that term of what `W` holds at the operands. -/
theorem host4_main_v64 (W : Valuation τ sig (Elt Ideal)) :
    StableHlo.after (hostOps4 (F := Ideal)) W (Proc.devRef .tc main_v64) = col1 (W (Proc.devRef .tc main_arg9)) := by
  after_results_simp
  rfl

/-- The second convolution's weights transposed. -/
def trc1 (x0 : (⟨S128x256, .f32⟩ : BufTy).Contents (Elt Ideal)) : (⟨S256x128, .f32⟩ : BufTy).Contents (Elt Ideal) :=
  (((transpose S256x128 [1, 0] · transposes_S128x256_S256x128_1_0)) x0)
set_option maxHeartbeats 2000000 in
/-- After stretch 4, from any contents `W`, the buffer holds that term of what `W` holds at the operands. -/
theorem host4_main_v65 (W : Valuation τ sig (Elt Ideal)) :
    StableHlo.after (hostOps4 (F := Ideal)) W (Proc.devRef .tc main_v65) = trc1 (W (Proc.devRef .tc main_arg19)) := by
  after_results_simp
  rfl

end Cert.KernelIdeal.KHost

end
-- ==== Proof.Spec.lean ====
/-
  The mathematics both programs compute, entry by entry, on the extended reals.

  An embedding entry is the looked-up table entry plus the leaky rectifier of an affine form of a content row:
  `g + leaky (∑ k, c k * w k + b)`.  A convolution entry takes a node's own row `hs`, the sum `ag` of its
  neighbours' rows and the neighbour count `w`; forms the mean of the other neighbours
  `(ag - hs) / max (w - 1) 1`; lays the own row and that mean side by side (256 entries); applies an affine map
  and the leaky rectifier; and divides the row by its Euclidean length, floored at a small constant.
  Float constants are kept as their words: the same word appears on both sides and is never evaluated.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The leaky rectifier: `y` where `y ≥ 0`, the slope word times `y` elsewhere. -/
def leaky (y : EReal) : EReal :=
  Scalar.select (FloatOps.cmpf (F := Ideal) (φ := .f32) .oge y (Ideal.ofBits .f32 0x00000000#32)) y
    (Ideal.ofBits .f32 0x3C23D70A#32 * y)

/-- One embedding entry: table entry `g`, content row `c`, weight column `w`, bias `b`. -/
def embedAt (g : EReal) (c w : Fin 300 → EReal) (b : EReal) : EReal :=
  g + leaky ((∑ k : Fin 300, c k * w k) + b)

/-- The mean of a node's other neighbours at one feature: own entry `hs`, neighbour sum `ag`, count `w`. -/
def meanAt (hs ag w : EReal) : EReal :=
  Ideal.div (ag - hs) (max (w - Ideal.ofBits .f32 0x3F800000#32) (Ideal.ofBits .f32 0x3F800000#32))

/-- The own row and the neighbour mean side by side: 256 entries. -/
def catAt (hs ag : Fin 128 → EReal) (w : EReal) (k : Fin 256) : EReal :=
  if h : k.val < 128 then hs ⟨k.val, h⟩ else meanAt (hs ⟨k.val - 128, by omega⟩) (ag ⟨k.val - 128, by omega⟩) w

/-- A convolution row before normalisation, at feature `q`. -/
def preAt (hs ag : Fin 128 → EReal) (w : EReal) (wt : Fin 256 → Fin 128 → EReal) (b : Fin 128 → EReal)
    (q : Fin 128) : EReal :=
  leaky ((∑ k : Fin 256, catAt hs ag w k * wt k q) + b q)

/-- One convolution entry: the row `preAt` divided by its length, the length floored at the constant word. -/
def convAt (hs ag : Fin 128 → EReal) (w : EReal) (wt : Fin 256 → Fin 128 → EReal) (b : Fin 128 → EReal)
    (q : Fin 128) : EReal :=
  Ideal.div (preAt hs ag w wt b q)
    (max (Ideal.sqrt (∑ r : Fin 128, preAt hs ag w wt b r * preAt hs ag w wt b r))
      (Ideal.ofBits .f32 0x358637BD#32))

end Cert.Spec

end
-- ==== Proof.SpecArr.lean ====
/-
  The two layers as whole-array functions: row `i` of the result depends on row `i` of each row-indexed operand
  and on the shared weights.  Stated for any number of rows `n`; the feature widths (300 content features, 128
  hidden features, 256 concatenated) are literal.
-/
import proofs.«171769_j36816459662034_1_alg».proof.Proof.Spec

noncomputable section

namespace Cert.SpecArr

open Idealize.ShloMosaic Idealize.ShloMosaic.ValueIdx

/-- The embedding layer on `n` rows: looked-up rows `g`, contents `c`, the weights already transposed to
    `[300, 128]`, the bias `b`. -/
def embedArr (n : ℕ) (g : (⟨2, ![n, 128]⟩ : Shape).Idx → EReal) (c : (⟨2, ![n, 300]⟩ : Shape).Idx → EReal)
    (wt : (⟨2, ![300, 128]⟩ : Shape).Idx → EReal) (b : (⟨1, ![128]⟩ : Shape).Idx → EReal) :
    (⟨2, ![n, 128]⟩ : Shape).Idx → EReal :=
  fun j => Cert.Spec.embedAt (g j) (fun k => c (ix2 (j 0) k)) (fun k => wt (ix2 k (j 1))) (b (ix1 (j 1)))

/-- The convolution layer on `n` rows: own rows `hs`, neighbour sums `ag`, neighbour counts `cnt` (one per
    row), the weights already transposed to `[256, 128]`, the bias `b`. -/
def convArr (n : ℕ) (hs ag : (⟨2, ![n, 128]⟩ : Shape).Idx → EReal) (cnt : (⟨1, ![n]⟩ : Shape).Idx → EReal)
    (wt : (⟨2, ![256, 128]⟩ : Shape).Idx → EReal) (b : (⟨1, ![128]⟩ : Shape).Idx → EReal) :
    (⟨2, ![n, 128]⟩ : Shape).Idx → EReal :=
  fun j => Cert.Spec.convAt (fun q => hs (ix2 (j 0) q)) (fun q => ag (ix2 (j 0) q)) (cnt (ix1 (j 0)))
    (fun k q => wt (ix2 k q)) (fun q => b (ix1 q)) (j 1)

end Cert.SpecArr

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibColumn.lean ====
/-
  Keepdims columns.

  A vector of `a` entries viewed as a column `[a, 1]` holds entry `i` at `(i, 0)`: the row-major position of `(i, u)` in
  `[a, 1]` is `i · 1 + u = i`.
-/
import Idealize.ShloMosaic.Lib.Pipeline.Value
import Idealize.ShloMosaic.Lib.ValueIdx

namespace Idealize.ShloMosaic.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.LibColumn
-- ==== Proof.Payload.lean ====
/-
  The kernels' arithmetic at one entry, on the extended reals.

  Each kernel body stores one value that is a pure function of the blocks it read.  Read at entry `(p, q)` that
  value is the entry-by-entry mathematics of `Cert.Spec`: narrowing to fewer bits and a cast to the same shape change
  nothing on the extended reals; a matrix product into the zero accumulator is the sum over the contracted
  coordinate; a bias cast to one row and repeated down the rows is the bias at the column; a column repeated along
  the features is the column's entry at the row.
-/
import proofs.«171769_j36816459662034_1_alg».proof.Proof.Gen.KernelIdeal.Skeleton
import proofs.«171769_j36816459662034_1_alg».proof.Proof.Spec
import proofs.«171769_j36816459662034_1_alg».proof.Proof.LibDotSum
import proofs.«171769_j36816459662034_1_alg».proof.Proof.LibColumn
import Idealize.ShloMosaic.Lib.Pipeline.Value
import Idealize.ShloMosaic.Lib.ValueIdx
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-- The embedding product at one entry: the contraction over the 300 content features. -/
theorem dot300_apply (a : FVec Ideal S2048x300 .bf16) (b : FVec Ideal S300x128 .bf16) (p : Fin 2048) (q : Fin 128) :
    matmul dot_S2048x300_S300x128_S2048x128_1_0_0_1_n_n none a b (constant (F := Ideal) S2048x128 .f32 0x00000000#32) (ix2 p q)
      = ∑ k : Fin 300, a (ix2 p k) * b (ix2 k q) := by
  simp only [matmul]
  rw [Ideal.matmul_constant_zero_apply]
  refine LibDotSum.sum_single dot_S2048x300_S300x128_S2048x128_1_0_0_1_n_n 300 rfl rfl a b (ix2 p q) _ _ (fun k => ?_) (fun k => ?_)
  · refine congrArg a (funext fun ax => Fin.ext ?_)
    match ax with
    | ⟨0, _⟩ => rfl
    | ⟨1, _⟩ => exact LibDotSum.lhs_contr_val dot_S2048x300_S300x128_S2048x128_1_0_0_1_n_n 300 rfl rfl (cl := 1) rfl (ix2 p q) k
  · refine congrArg b (funext fun ax => Fin.ext ?_)
    match ax with
    | ⟨0, _⟩ => exact LibDotSum.rhs_contr_val dot_S2048x300_S300x128_S2048x128_1_0_0_1_n_n 300 rfl rfl (cr := 0) rfl (ix2 p q) k
    | ⟨1, _⟩ => rfl

/-- A bias vector laid along the features of every row: entry `(p, q)` is the bias at `q`. -/
theorem bias_apply (b : FVec Ideal S128 .f32) (p : Fin 2048) (q : Fin 128) :
    broadcastTo S2048x128 (shapeCast S1x128 b shapeCasts_S128_S1x128) broadcasts_S1x128_S2048x128 (ix2 p q) = b (ix1 q) := by
  rw [broadcastTo_apply _ broadcasts_S1x128_S2048x128 (ix2 p q) (ix2 (0 : Fin 1) q) (fun ax => by
    match ax with
    | ⟨0, _⟩ => rfl
    | ⟨1, _⟩ => rfl)]
  exact shapeCast_apply b shapeCasts_S128_S1x128 _ (ix1 q) (by
    rw [Shape.rowMajor_val_two, Shape.rowMajor_val_one]
    show q.val = (0 : Fin 1).val * 128 + q.val
    simp)

/-- The embedding kernel's stored value at `(p, q)`: the looked-up entry plus the leaky rectifier of the affine form
    of content row `p` against weight column `q`. -/
theorem embed_pay (x0 : Vec Ideal S2048x300 .f32) (x1 : Vec Ideal S300x128 .f32) (x2 : Vec Ideal S128 .f32)
    (x3 : Vec Ideal S2048x128 .f32) (p : Fin 2048) (q : Fin 128) :
    k0_pay1 (F := Ideal) x0 x1 x2 x3 (ix2 p q)
      = Cert.Spec.embedAt (x3 (ix2 p q)) (fun k => x0 (ix2 p k)) (fun k => x1 (ix2 k q)) (x2 (ix1 q)) := by
  unfold k0_pay1
  simp only [addf_apply, select_apply, cmpf_apply, mulf_apply, broadcast_apply]
  rw [dot300_apply, bias_apply, shapeCast_self, shapeCast_self]
  rfl

/-- The second and third embedding kernels store the same function of their blocks as the first. -/
theorem k1_pay1_eq : @k1_pay1 Ideal _ = @k0_pay1 Ideal _ := rfl

theorem k2_pay1_eq : @k2_pay1 Ideal _ = @k0_pay1 Ideal _ := rfl

end Cert.KernelIdeal.Payload

end
-- ==== Proof.KRegionE.lean ====
/-
  The three embedding regions, each as one whole-array function of the arrays it finds.

  A region runs the kernel body once per block of 2048 rows. The body's stored value at (p, q) is the embedding
  entry of the block inputs' row p; block `t` of a row-indexed array is its rows `2048 t … 2048 t + 2047`, and
  the weights and the bias are fetched whole. So point `t` writes back block `t` of the embedding layer applied to
  the whole arrays, the blocks tile the output, and the output array ends at that layer's value.
-/
import proofs.«171769_j36816459662034_1_alg».proof.Proof.Gen.KernelIdeal.Frame
import proofs.«171769_j36816459662034_1_alg».proof.Proof.SpecArr
import proofs.«171769_j36816459662034_1_alg».proof.Proof.Payload
import Idealize.ShloMosaic.Lib.Pipeline.Value
import Idealize.ShloMosaic.Lib.ValueIdx
import Idealize.ShloMosaic.Lib.ValueLayout

set_option maxRecDepth 16384

noncomputable section

namespace Cert.KernelIdeal.KRegionE

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

-- the contents of the TensorCore's buffers when a region is entered
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 0: 409600 rows in 200 blocks of 2048 -/

/-- The printed index maps over the grid: block `t` of the content, the looked-up rows and the output is row block
    `t`; the weights and the bias are one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the embedding layer applied to the arrays the region finds. -/
theorem flushed0 (c : Dev nD) (t : Fin cfg0.N) :
    (dat0 V c).flushed 4 t = ((cfg0.win 4).blk t).view.read (Elt Ideal)
      (Cert.SpecArr.embedArr 409600 (V c main_v8) (V c main_arg3) (V c main_v9) (V c main_arg12)) := by
  show (cfg0.win 4).cut (grid0.coords t) ((dat0 V c).after 4 t) = _
  rw [after0_4]
  unfold out0_4
  rw [View.canon_unit_zero hz2]
  simp only [View.ld_unit_zero (S := S2048x300) hz2, View.ld_unit_zero (S := S300x128) hz2, View.ld_unit_zero (S := S128) hz1, View.ld_unit_zero (S := S2048x128) hz2]
  funext j
  show k0_pay1 (F := Ideal) (iblk0 V c 0 t) (iblk0 V c 1 t) (iblk0 V c 2 t) (iblk0 V c 3 t) j
    = Cert.SpecArr.embedArr 409600 (V c main_v8) (V c main_arg3) (V c main_v9) (V c main_arg12) (((cfg0.win 4).blk t).view.emb j)
  obtain ⟨p, q, rfl⟩ : ∃ (p : Fin 2048) (q : Fin 128), j = ix2 p q := ⟨j 0, j 1, eq_ix2 j⟩
  refine (Cert.KernelIdeal.Payload.embed_pay _ _ _ _ p q).trans ?_
  unfold Cert.SpecArr.embedArr
  obtain ⟨e00, e01, e10, e11, e20, e30, e31, e40, e41⟩ := idx0 t
  have hrow : (((cfg0.win 4).blk t).view.emb (ix2 p q) 0).val = t.val * 2048 + p.val := by
    show win0_4.index t (0 : Fin 2) * 2048 + 1 * p.val = _; omega
  have hcol : (((cfg0.win 4).blk t).view.emb (ix2 p q) 1).val = q.val := by
    show win0_4.index t (1 : Fin 2) * 128 + 1 * q.val = _; omega
  have h3 : iblk0 V c 3 t (ix2 p q) = V c main_v8 (((cfg0.win 4).blk t).view.emb (ix2 p q)) := by
    show V c main_v8 (((cfg0.win 3).blk t).view.emb (ix2 p q)) = _
    refine congrArg _ (funext fun a => Fin.ext ?_)
    match a with
    | ⟨0, _⟩ => show win0_3.index t (0 : Fin 2) * 2048 + 1 * p.val = win0_4.index t (0 : Fin 2) * 2048 + 1 * p.val; omega
    | ⟨1, _⟩ => show win0_3.index t (1 : Fin 2) * 128 + 1 * q.val = win0_4.index t (1 : Fin 2) * 128 + 1 * q.val; omega
  have h0 : ∀ k : Fin 300, iblk0 V c 0 t (ix2 p k) = V c main_arg3 (ix2 (((cfg0.win 4).blk t).view.emb (ix2 p q) 0) k) := fun k => by
    show V c main_arg3 (((cfg0.win 0).blk t).view.emb (ix2 p k)) = _
    refine congrArg _ (funext fun a => Fin.ext ?_)
    match a with
    | ⟨0, _⟩ => show win0_0.index t (0 : Fin 2) * 2048 + 1 * p.val = (((cfg0.win 4).blk t).view.emb (ix2 p q) 0).val; rw [hrow]; omega
    | ⟨1, _⟩ => show win0_0.index t (1 : Fin 2) * 300 + 1 * k.val = k.val; omega
  have h1 : ∀ k : Fin 300, iblk0 V c 1 t (ix2 k q) = V c main_v9 (ix2 k (((cfg0.win 4).blk t).view.emb (ix2 p q) 1)) := fun k => by
    show V c main_v9 (((cfg0.win 1).blk t).view.emb (ix2 k q)) = _
    refine congrArg _ (funext fun a => Fin.ext ?_)
    match a with
    | ⟨0, _⟩ => show win0_1.index t (0 : Fin 2) * 300 + 1 * k.val = k.val; omega
    | ⟨1, _⟩ => show win0_1.index t (1 : Fin 2) * 128 + 1 * q.val = (((cfg0.win 4).blk t).view.emb (ix2 p q) 1).val; rw [hcol]; omega
  have h2 : iblk0 V c 2 t (ix1 q) = V c main_arg12 (ix1 (((cfg0.win 4).blk t).view.emb (ix2 p q) 1)) := by
    show V c main_arg12 (((cfg0.win 2).blk t).view.emb (ix1 q)) = _
    refine congrArg _ (funext fun a => Fin.ext ?_)
    match a with
    | ⟨0, _⟩ => show win0_2.index t (0 : Fin 1) * 128 + 1 * q.val = (((cfg0.win 4).blk t).view.emb (ix2 p q) 1).val; rw [hcol]; omega
  exact congr (congr (congr (congrArg Cert.Spec.embedAt h3) (funext h0)) (funext h1)) h2

/-- An index is in point `t`'s output block iff each coordinate is in the block's range. -/
theorem mem_blk0 (t : Fin cfg0.N) (i : S409600x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v10).slice (win0_4.rect t)).set ↔ _
  rw [View.set_slice_whole, Rect.mem_set_unit]
  exact Iff.rfl

/-- The output array after the region: the embedding layer of the arrays the region finds (row `r` is written by
    point `r / 2048`). -/
theorem final0 (c : Dev nD) : (dat0 V c).arrAt 4 cfg0.N
    = Cert.SpecArr.embedArr 409600 (V c main_v8) (V c main_arg3) (V c main_v9) (V c main_arg12) :=
  (dat0 V c).arrAt_eq_of_cover 4 _ (fun t _ => flushed0 V c t) fun i => by
    have hi0 : (i 0).val < 409600 := (i 0).isLt
    have hi1 : (i 1).val < 128 := (i 1).isLt
    have hN : cfg0.N = 200 := N_0
    refine ⟨⟨(i 0).val / 2048, by rw [hN]; omega⟩, flush0_4 _, ?_⟩
    rw [mem_blk0]
    obtain ⟨e00, e01, e10, e11, e20, e30, e31, e40, e41⟩ := idx0 ⟨(i 0).val / 2048, by rw [hN]; omega⟩
    intro a
    match a with
    | ⟨0, _⟩ => show win0_4.index _ (0 : Fin 2) * 2048 ≤ (i 0).val ∧ (i 0).val < win0_4.index _ (0 : Fin 2) * 2048 + 2048; rw [e40]; show (i 0).val / 2048 * 2048 ≤ (i 0).val ∧ (i 0).val < (i 0).val / 2048 * 2048 + 2048; omega
    | ⟨1, _⟩ => show win0_4.index _ (1 : Fin 2) * 128 ≤ (i 1).val ∧ (i 1).val < win0_4.index _ (1 : Fin 2) * 128 + 128; rw [e41]; omega

/-! ## Region 1: 40960 rows in 20 blocks of 2048 -/

/-- The printed index maps over the grid: block `t` of the content, the looked-up rows and the output is row block
    `t`; the weights and the bias are one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the embedding layer applied to the arrays the region finds. -/
theorem flushed1 (c : Dev nD) (t : Fin cfg1.N) :
    (dat1 V c).flushed 4 t = ((cfg1.win 4).blk t).view.read (Elt Ideal)
      (Cert.SpecArr.embedArr 40960 (V c main_v19) (V c main_arg4) (V c main_v20) (V c main_arg14)) := by
  show (cfg1.win 4).cut (grid1.coords t) ((dat1 V c).after 4 t) = _
  rw [after1_4]
  unfold out1_4
  rw [View.canon_unit_zero hz2]
  simp only [View.ld_unit_zero (S := S2048x300) hz2, View.ld_unit_zero (S := S300x128) hz2, View.ld_unit_zero (S := S128) hz1, View.ld_unit_zero (S := S2048x128) hz2]
  funext j
  show k1_pay1 (F := Ideal) (iblk1 V c 0 t) (iblk1 V c 1 t) (iblk1 V c 2 t) (iblk1 V c 3 t) j
    = Cert.SpecArr.embedArr 40960 (V c main_v19) (V c main_arg4) (V c main_v20) (V c main_arg14) (((cfg1.win 4).blk t).view.emb j)
  obtain ⟨p, q, rfl⟩ : ∃ (p : Fin 2048) (q : Fin 128), j = ix2 p q := ⟨j 0, j 1, eq_ix2 j⟩
  rw [Cert.KernelIdeal.Payload.k1_pay1_eq]
  refine (Cert.KernelIdeal.Payload.embed_pay _ _ _ _ p q).trans ?_
  unfold Cert.SpecArr.embedArr
  obtain ⟨e00, e01, e10, e11, e20, e30, e31, e40, e41⟩ := idx1 t
  have hrow : (((cfg1.win 4).blk t).view.emb (ix2 p q) 0).val = t.val * 2048 + p.val := by
    show win1_4.index t (0 : Fin 2) * 2048 + 1 * p.val = _; omega
  have hcol : (((cfg1.win 4).blk t).view.emb (ix2 p q) 1).val = q.val := by
    show win1_4.index t (1 : Fin 2) * 128 + 1 * q.val = _; omega
  have h3 : iblk1 V c 3 t (ix2 p q) = V c main_v19 (((cfg1.win 4).blk t).view.emb (ix2 p q)) := by
    show V c main_v19 (((cfg1.win 3).blk t).view.emb (ix2 p q)) = _
    refine congrArg _ (funext fun a => Fin.ext ?_)
    match a with
    | ⟨0, _⟩ => show win1_3.index t (0 : Fin 2) * 2048 + 1 * p.val = win1_4.index t (0 : Fin 2) * 2048 + 1 * p.val; omega
    | ⟨1, _⟩ => show win1_3.index t (1 : Fin 2) * 128 + 1 * q.val = win1_4.index t (1 : Fin 2) * 128 + 1 * q.val; omega
  have h0 : ∀ k : Fin 300, iblk1 V c 0 t (ix2 p k) = V c main_arg4 (ix2 (((cfg1.win 4).blk t).view.emb (ix2 p q) 0) k) := fun k => by
    show V c main_arg4 (((cfg1.win 0).blk t).view.emb (ix2 p k)) = _
    refine congrArg _ (funext fun a => Fin.ext ?_)
    match a with
    | ⟨0, _⟩ => show win1_0.index t (0 : Fin 2) * 2048 + 1 * p.val = (((cfg1.win 4).blk t).view.emb (ix2 p q) 0).val; rw [hrow]; omega
    | ⟨1, _⟩ => show win1_0.index t (1 : Fin 2) * 300 + 1 * k.val = k.val; omega
  have h1 : ∀ k : Fin 300, iblk1 V c 1 t (ix2 k q) = V c main_v20 (ix2 k (((cfg1.win 4).blk t).view.emb (ix2 p q) 1)) := fun k => by
    show V c main_v20 (((cfg1.win 1).blk t).view.emb (ix2 k q)) = _
    refine congrArg _ (funext fun a => Fin.ext ?_)
    match a with
    | ⟨0, _⟩ => show win1_1.index t (0 : Fin 2) * 300 + 1 * k.val = k.val; omega
    | ⟨1, _⟩ => show win1_1.index t (1 : Fin 2) * 128 + 1 * q.val = (((cfg1.win 4).blk t).view.emb (ix2 p q) 1).val; rw [hcol]; omega
  have h2 : iblk1 V c 2 t (ix1 q) = V c main_arg14 (ix1 (((cfg1.win 4).blk t).view.emb (ix2 p q) 1)) := by
    show V c main_arg14 (((cfg1.win 2).blk t).view.emb (ix1 q)) = _
    refine congrArg _ (funext fun a => Fin.ext ?_)
    match a with
    | ⟨0, _⟩ => show win1_2.index t (0 : Fin 1) * 128 + 1 * q.val = (((cfg1.win 4).blk t).view.emb (ix2 p q) 1).val; rw [hcol]; omega
  exact congr (congr (congr (congrArg Cert.Spec.embedAt h3) (funext h0)) (funext h1)) h2

/-- An index is in point `t`'s output block iff each coordinate is in the block's range. -/
theorem mem_blk1 (t : Fin cfg1.N) (i : S40960x128.Idx) :
    i ∈ ((cfg1.win 4).blk t).view.set ↔ ∀ a : Fin 2, win1_4.index t a * S2048x128.size a ≤ (i a).val ∧ (i a).val < win1_4.index t a * S2048x128.size a + S2048x128.size a := by
  show i ∈ ((View.whole main_v21).slice (win1_4.rect t)).set ↔ _
  rw [View.set_slice_whole, Rect.mem_set_unit]
  exact Iff.rfl

/-- The output array after the region: the embedding layer of the arrays the region finds (row `r` is written by
    point `r / 2048`). -/
theorem final1 (c : Dev nD) : (dat1 V c).arrAt 4 cfg1.N
    = Cert.SpecArr.embedArr 40960 (V c main_v19) (V c main_arg4) (V c main_v20) (V c main_arg14) :=
  (dat1 V c).arrAt_eq_of_cover 4 _ (fun t _ => flushed1 V c t) fun i => by
    have hi0 : (i 0).val < 40960 := (i 0).isLt
    have hi1 : (i 1).val < 128 := (i 1).isLt
    have hN : cfg1.N = 20 := N_1
    refine ⟨⟨(i 0).val / 2048, by rw [hN]; omega⟩, flush1_4 _, ?_⟩
    rw [mem_blk1]
    obtain ⟨e00, e01, e10, e11, e20, e30, e31, e40, e41⟩ := idx1 ⟨(i 0).val / 2048, by rw [hN]; omega⟩
    intro a
    match a with
    | ⟨0, _⟩ => show win1_4.index _ (0 : Fin 2) * 2048 ≤ (i 0).val ∧ (i 0).val < win1_4.index _ (0 : Fin 2) * 2048 + 2048; rw [e40]; show (i 0).val / 2048 * 2048 ≤ (i 0).val ∧ (i 0).val < (i 0).val / 2048 * 2048 + 2048; omega
    | ⟨1, _⟩ => show win1_4.index _ (1 : Fin 2) * 128 ≤ (i 1).val ∧ (i 1).val < win1_4.index _ (1 : Fin 2) * 128 + 128; rw [e41]; omega

/-! ## Region 2: 4096 rows in 2 blocks of 2048 -/

/-- The printed index maps over the grid: block `t` of the content, the looked-up rows and the output is row block
    `t`; the weights and the bias are one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the embedding layer applied to the arrays the region finds. -/
theorem flushed2 (c : Dev nD) (t : Fin cfg2.N) :
    (dat2 V c).flushed 4 t = ((cfg2.win 4).blk t).view.read (Elt Ideal)
      (Cert.SpecArr.embedArr 4096 (V c main_v30) (V c main_arg5) (V c main_v31) (V c main_arg16)) := by
  show (cfg2.win 4).cut (grid2.coords t) ((dat2 V c).after 4 t) = _
  rw [after2_4]
  unfold out2_4
  rw [View.canon_unit_zero hz2]
  simp only [View.ld_unit_zero (S := S2048x300) hz2, View.ld_unit_zero (S := S300x128) hz2, View.ld_unit_zero (S := S128) hz1, View.ld_unit_zero (S := S2048x128) hz2]
  funext j
  show k2_pay1 (F := Ideal) (iblk2 V c 0 t) (iblk2 V c 1 t) (iblk2 V c 2 t) (iblk2 V c 3 t) j
    = Cert.SpecArr.embedArr 4096 (V c main_v30) (V c main_arg5) (V c main_v31) (V c main_arg16) (((cfg2.win 4).blk t).view.emb j)
  obtain ⟨p, q, rfl⟩ : ∃ (p : Fin 2048) (q : Fin 128), j = ix2 p q := ⟨j 0, j 1, eq_ix2 j⟩
  rw [Cert.KernelIdeal.Payload.k2_pay1_eq]
  refine (Cert.KernelIdeal.Payload.embed_pay _ _ _ _ p q).trans ?_
  unfold Cert.SpecArr.embedArr
  obtain ⟨e00, e01, e10, e11, e20, e30, e31, e40, e41⟩ := idx2 t
  have hrow : (((cfg2.win 4).blk t).view.emb (ix2 p q) 0).val = t.val * 2048 + p.val := by
    show win2_4.index t (0 : Fin 2) * 2048 + 1 * p.val = _; omega
  have hcol : (((cfg2.win 4).blk t).view.emb (ix2 p q) 1).val = q.val := by
    show win2_4.index t (1 : Fin 2) * 128 + 1 * q.val = _; omega
  have h3 : iblk2 V c 3 t (ix2 p q) = V c main_v30 (((cfg2.win 4).blk t).view.emb (ix2 p q)) := by
    show V c main_v30 (((cfg2.win 3).blk t).view.emb (ix2 p q)) = _
    refine congrArg _ (funext fun a => Fin.ext ?_)
    match a with
    | ⟨0, _⟩ => show win2_3.index t (0 : Fin 2) * 2048 + 1 * p.val = win2_4.index t (0 : Fin 2) * 2048 + 1 * p.val; omega
    | ⟨1, _⟩ => show win2_3.index t (1 : Fin 2) * 128 + 1 * q.val = win2_4.index t (1 : Fin 2) * 128 + 1 * q.val; omega
  have h0 : ∀ k : Fin 300, iblk2 V c 0 t (ix2 p k) = V c main_arg5 (ix2 (((cfg2.win 4).blk t).view.emb (ix2 p q) 0) k) := fun k => by
    show V c main_arg5 (((cfg2.win 0).blk t).view.emb (ix2 p k)) = _
    refine congrArg _ (funext fun a => Fin.ext ?_)
    match a with
    | ⟨0, _⟩ => show win2_0.index t (0 : Fin 2) * 2048 + 1 * p.val = (((cfg2.win 4).blk t).view.emb (ix2 p q) 0).val; rw [hrow]; omega
    | ⟨1, _⟩ => show win2_0.index t (1 : Fin 2) * 300 + 1 * k.val = k.val; omega
  have h1 : ∀ k : Fin 300, iblk2 V c 1 t (ix2 k q) = V c main_v31 (ix2 k (((cfg2.win 4).blk t).view.emb (ix2 p q) 1)) := fun k => by
    show V c main_v31 (((cfg2.win 1).blk t).view.emb (ix2 k q)) = _
    refine congrArg _ (funext fun a => Fin.ext ?_)
    match a with
    | ⟨0, _⟩ => show win2_1.index t (0 : Fin 2) * 300 + 1 * k.val = k.val; omega
    | ⟨1, _⟩ => show win2_1.index t (1 : Fin 2) * 128 + 1 * q.val = (((cfg2.win 4).blk t).view.emb (ix2 p q) 1).val; rw [hcol]; omega
  have h2 : iblk2 V c 2 t (ix1 q) = V c main_arg16 (ix1 (((cfg2.win 4).blk t).view.emb (ix2 p q) 1)) := by
    show V c main_arg16 (((cfg2.win 2).blk t).view.emb (ix1 q)) = _
    refine congrArg _ (funext fun a => Fin.ext ?_)
    match a with
    | ⟨0, _⟩ => show win2_2.index t (0 : Fin 1) * 128 + 1 * q.val = (((cfg2.win 4).blk t).view.emb (ix2 p q) 1).val; rw [hcol]; omega
  exact congr (congr (congr (congrArg Cert.Spec.embedAt h3) (funext h0)) (funext h1)) h2

/-- An index is in point `t`'s output block iff each coordinate is in the block's range. -/
theorem mem_blk2 (t : Fin cfg2.N) (i : S4096x128.Idx) :
    i ∈ ((cfg2.win 4).blk t).view.set ↔ ∀ a : Fin 2, win2_4.index t a * S2048x128.size a ≤ (i a).val ∧ (i a).val < win2_4.index t a * S2048x128.size a + S2048x128.size a := by
  show i ∈ ((View.whole main_v32).slice (win2_4.rect t)).set ↔ _
  rw [View.set_slice_whole, Rect.mem_set_unit]
  exact Iff.rfl

/-- The output array after the region: the embedding layer of the arrays the region finds (row `r` is written by
    point `r / 2048`). -/
theorem final2 (c : Dev nD) : (dat2 V c).arrAt 4 cfg2.N
    = Cert.SpecArr.embedArr 4096 (V c main_v30) (V c main_arg5) (V c main_v31) (V c main_arg16) :=
  (dat2 V c).arrAt_eq_of_cover 4 _ (fun t _ => flushed2 V c t) fun i => by
    have hi0 : (i 0).val < 4096 := (i 0).isLt
    have hi1 : (i 1).val < 128 := (i 1).isLt
    have hN : cfg2.N = 2 := N_2
    refine ⟨⟨(i 0).val / 2048, by rw [hN]; omega⟩, flush2_4 _, ?_⟩
    rw [mem_blk2]
    obtain ⟨e00, e01, e10, e11, e20, e30, e31, e40, e41⟩ := idx2 ⟨(i 0).val / 2048, by rw [hN]; omega⟩
    intro a
    match a with
    | ⟨0, _⟩ => show win2_4.index _ (0 : Fin 2) * 2048 ≤ (i 0).val ∧ (i 0).val < win2_4.index _ (0 : Fin 2) * 2048 + 2048; rw [e40]; show (i 0).val / 2048 * 2048 ≤ (i 0).val ∧ (i 0).val < (i 0).val / 2048 * 2048 + 2048; omega
    | ⟨1, _⟩ => show win2_4.index _ (1 : Fin 2) * 128 ≤ (i 1).val ∧ (i 1).val < win2_4.index _ (1 : Fin 2) * 128 + 128; rw [e41]; omega

end Cert.KernelIdeal.KRegionE

end
-- ==== Proof.PayloadConv.lean ====
/-
  The convolution kernel's arithmetic at one entry, on the extended reals.

  The stored value is split in two: the row before normalisation (the neighbour mean, the own row and the mean side by
  side, the affine map, the leaky rectifier), and the division of a row by its Euclidean length floored at a small
  constant.  Read at entry `(p, q)` each is the entry-by-entry mathematics of `Cert.Spec`: a column repeated along the
  features is the column's entry at the row; two blocks side by side read the first block below feature 128 and the
  second from there on; the sum along the features of a row is the sum over the 128 feature coordinates.
-/
import proofs.«171769_j36816459662034_1_alg».proof.Proof.Payload

noncomputable section

open scoped BigOperators

namespace Cert.KernelIdeal.Payload

open Idealize.ShloMosaic Idealize.ShloMosaic.ValueIdx Cert.KernelIdeal Cert.KernelIdeal.Gen

/-- The convolution product at one entry: the contraction over the 256 concatenated features. -/
theorem dot256_apply (a : FVec Ideal S2048x256 .bf16) (b : FVec Ideal S256x128 .bf16) (p : Fin 2048) (q : Fin 128) :
    matmul dot_S2048x256_S256x128_S2048x128_1_0_0_1_n_n none a b (constant (F := Ideal) S2048x128 .f32 0x00000000#32) (ix2 p q)
      = ∑ k : Fin 256, a (ix2 p k) * b (ix2 k q) := by
  simp only [matmul]
  rw [Ideal.matmul_constant_zero_apply]
  refine LibDotSum.sum_single dot_S2048x256_S256x128_S2048x128_1_0_0_1_n_n 256 rfl rfl a b (ix2 p q) _ _ (fun k => ?_) (fun k => ?_)
  · refine congrArg a (funext fun ax => Fin.ext ?_)
    match ax with
    | ⟨0, _⟩ => rfl
    | ⟨1, _⟩ => exact LibDotSum.lhs_contr_val dot_S2048x256_S256x128_S2048x128_1_0_0_1_n_n 256 rfl rfl (cl := 1) rfl (ix2 p q) k
  · refine congrArg b (funext fun ax => Fin.ext ?_)
    match ax with
    | ⟨0, _⟩ => exact LibDotSum.rhs_contr_val dot_S2048x256_S256x128_S2048x128_1_0_0_1_n_n 256 rfl rfl (cr := 0) rfl (ix2 p q) k
    | ⟨1, _⟩ => rfl

/-- A column repeated along the features: entry `(p, q)` is the column's entry at row `p`. -/
theorem col_apply (c : FVec Ideal S2048x1 .f32) (p : Fin 2048) (q : Fin 128) :
    broadcastTo S2048x128 c broadcasts_S2048x1_S2048x128 (ix2 p q) = c (ix2 p 0) :=
  broadcastTo_apply c broadcasts_S2048x1_S2048x128 (ix2 p q) (ix2 p (0 : Fin 1)) (fun ax => by
    match ax with
    | ⟨0, _⟩ => rfl
    | ⟨1, _⟩ => rfl)

/-- Two blocks of 128 features side by side, read at feature `k` of 256: the first block below 128, the second
    block at `k - 128` from there on. -/
theorem cat_apply (a b : FVec Ideal S2048x128 .f32) (p : Fin 2048) (k : Fin 256) :
    concatenate S2048x256 1 [⟨S2048x128, a⟩, ⟨S2048x128, b⟩] concatenates_S2048x128_S2048x128_S2048x256_d1 (ix2 p k)
      = if h : k.val < 128 then a (ix2 p ⟨k.val, h⟩) else b (ix2 p ⟨k.val - 128, by omega⟩) := by
  by_cases h : k.val < 128
  · rw [dif_pos h]
    exact concatenate_pair_apply_left 1 a b _ (ix2 p k) rfl (ix2 p ⟨k.val, h⟩) (fun ax => by
      match ax with
      | ⟨0, _⟩ => rfl
      | ⟨1, _⟩ => rfl)
  · rw [dif_neg h]
    exact concatenate_pair_apply_right 1 a b _ (ix2 p k) rfl rfl (ix2 p ⟨k.val - 128, by omega⟩) (fun ax hne => by
      match ax, hne with
      | ⟨0, _⟩, _ => rfl
      | ⟨1, _⟩, hne => exact absurd rfl hne) (by
      show k.val - 128 + 128 = k.val
      omega)

/-- The sum along the features of row `p`. -/
theorem rowsum_apply (y : FVec Ideal S2048x128 .f32) (p : Fin 2048) :
    multiReduction (F := Ideal) .add [1] S2048 y 0x00000000#32 reduces_S2048x128_S2048 (.inl rfl) rfl (ix1 p)
      = ∑ r : Fin 128, y (ix2 p r) := by
  refine (Ideal.multiReduction_add_single y _ reduces_S2048x128_S2048 _ _ (ix1 p)).trans ?_
  refine Finset.sum_congr rfl fun r _ => congrArg y (funext fun ax => Fin.ext ?_)
  match ax with
  | ⟨0, _⟩ => rfl
  | ⟨1, _⟩ => rfl

/-- The convolution kernel's row before normalisation, operation by operation: the neighbour mean, the own row and the
    mean side by side, the affine map and the leaky rectifier. -/
def preV (v0 v2 : Vec Ideal S2048x128 .f32) (v4 : Vec Ideal S2048x1 .f32) (v15 : Vec Ideal S256x128 .f32)
    (v19 : Vec Ideal S128 .f32) : FVec Ideal S2048x128 .f32 :=
  have v1 : FVec Ideal S2048x128 .f32 := shapeCast S2048x128 v0 shapeCasts_S2048x128_S2048x128
  have v3 : FVec Ideal S2048x128 .f32 := shapeCast S2048x128 v2 shapeCasts_S2048x128_S2048x128
  have v5 : FVec Ideal S2048x1 .f32 := shapeCast S2048x1 v4 shapeCasts_S2048x1_S2048x1
  have cst : Ideal .f32 := Scalar.ofBits .f32 0x3F800000#32
  have v6 : FVec Ideal S2048x1 .f32 := broadcast S2048x1 cst
  have v7 : FVec Ideal S2048x1 .f32 := subf v5 v6
  have cst_5 : Ideal .f32 := Scalar.ofBits .f32 0x3F800000#32
  have v8 : FVec Ideal S2048x1 .f32 := broadcast S2048x1 cst_5
  have v9 : FVec Ideal S2048x1 .f32 := maximumf v7 v8
  have v10 : FVec Ideal S2048x128 .f32 := subf v3 v1
  have v11 : FVec Ideal S2048x128 .f32 := broadcastTo S2048x128 v9 broadcasts_S2048x1_S2048x128
  have v12 : FVec Ideal S2048x128 .f32 := divf v10 v11
  have v13 : FVec Ideal S2048x256 .f32 := concatenate S2048x256 1 [⟨S2048x128, v1⟩, ⟨S2048x128, v12⟩] concatenates_S2048x128_S2048x128_S2048x256_d1
  have v14 : FVec Ideal S2048x256 .bf16 := truncf .bf16 v13 bitsLt_bf16_f32
  have v16 : FVec Ideal S256x128 .f32 := shapeCast S256x128 v15 shapeCasts_S256x128_S256x128
  have v17 : FVec Ideal S256x128 .bf16 := truncf .bf16 v16 bitsLt_bf16_f32
  have cst_8 : FVec Ideal S2048x128 .f32 := constant S2048x128 .f32 0x00000000#32
  have v18 : FVec Ideal S2048x128 .f32 := matmul dot_S2048x256_S256x128_S2048x128_1_0_0_1_n_n none v14 v17 cst_8
  have v20 : FVec Ideal S1x128 .f32 := shapeCast S1x128 v19 shapeCasts_S128_S1x128
  have v21 : FVec Ideal S2048x128 .f32 := broadcastTo S2048x128 v20 broadcasts_S1x128_S2048x128
  have v22 : FVec Ideal S2048x128 .f32 := addf v18 v21
  have cst_10 : Ideal .f32 := Scalar.ofBits .f32 0x00000000#32
  have v23 : FVec Ideal S2048x128 .f32 := broadcast S2048x128 cst_10
  have v24 : IVec S2048x128 1 := cmpf .oge v22 v23
  have cst_11 : Ideal .f32 := Scalar.ofBits .f32 0x3C23D70A#32
  have v25 : FVec Ideal S2048x128 .f32 := broadcast S2048x128 cst_11
  have v26 : FVec Ideal S2048x128 .f32 := mulf v25 v22
  have v27 : FVec Ideal S2048x128 .f32 := select v24 v22 v26
  v27

/-- Dividing every row by its Euclidean length, the length floored at the small constant, operation by operation. -/
def normV (v27 : FVec Ideal S2048x128 .f32) : FVec Ideal S2048x128 .f32 :=
  have v28 : FVec Ideal S2048x128 .f32 := mulf v27 v27
  have v29 : FVec Ideal S2048 .f32 := multiReduction .add [1] S2048 v28 0x00000000#32 reduces_S2048x128_S2048 (.inl rfl) rfl
  have v30 : FVec Ideal S2048x1 .f32 := shapeCast S2048x1 v29 shapeCasts_S2048_S2048x1
  have v31 : FVec Ideal S2048x1 .f32 := sqrt v30
  have cst_13 : Ideal .f32 := Scalar.ofBits .f32 0x358637BD#32
  have v32 : FVec Ideal S2048x1 .f32 := broadcast S2048x1 cst_13
  have v33 : FVec Ideal S2048x1 .f32 := maximumf v31 v32
  have v34 : FVec Ideal S2048x128 .f32 := broadcastTo S2048x128 v33 broadcasts_S2048x1_S2048x128
  have v35 : FVec Ideal S2048x128 .f32 := divf v27 v34
  v35

/-- The convolution kernel's stored value is the normalisation of its pre-normalisation row. -/
theorem k3_pay1_eq (x0 x1 : Vec Ideal S2048x128 .f32) (x2 : Vec Ideal S2048x1 .f32) (x3 : Vec Ideal S256x128 .f32)
    (x4 : Vec Ideal S128 .f32) : k3_pay1 (F := Ideal) x0 x1 x2 x3 x4 = normV (preV x0 x1 x2 x3 x4) := rfl

/-- The own row and the neighbour mean side by side, read at feature `k` of 256. -/
theorem catV_apply (a b : FVec Ideal S2048x128 .f32) (c : FVec Ideal S2048x1 .f32) (p : Fin 2048) (k : Fin 256) :
    concatenate S2048x256 1
        [⟨S2048x128, a⟩,
         ⟨S2048x128, divf (subf b a)
            (broadcastTo S2048x128
              (maximumf (subf c (broadcast S2048x1 (FloatOps.ofBits (F := Ideal) .f32 0x3F800000#32)))
                (broadcast S2048x1 (FloatOps.ofBits (F := Ideal) .f32 0x3F800000#32)))
              broadcasts_S2048x1_S2048x128)⟩]
        concatenates_S2048x128_S2048x128_S2048x256_d1 (ix2 p k)
      = Cert.Spec.catAt (fun r => a (ix2 p r)) (fun r => b (ix2 p r)) (c (ix2 p 0)) k := by
  rw [cat_apply]
  unfold Cert.Spec.catAt
  by_cases h : k.val < 128
  · rw [dif_pos h, dif_pos h]
  · rw [dif_neg h, dif_neg h, divf_apply, subf_apply, col_apply, maximumf_apply, subf_apply, broadcast_apply]
    rfl

/-- The pre-normalisation row at `(p, r)`. -/
theorem preV_apply (x0 x1 : Vec Ideal S2048x128 .f32) (x2 : Vec Ideal S2048x1 .f32) (x3 : Vec Ideal S256x128 .f32)
    (x4 : Vec Ideal S128 .f32) (p : Fin 2048) (r : Fin 128) :
    preV x0 x1 x2 x3 x4 (ix2 p r)
      = Cert.Spec.preAt (fun r => x0 (ix2 p r)) (fun r => x1 (ix2 p r)) (x2 (ix2 p 0)) (fun k r => x3 (ix2 k r))
          (fun r => x4 (ix1 r)) r := by
  unfold preV
  simp only [select_apply, cmpf_apply, mulf_apply, addf_apply, broadcast_apply]
  rw [dot256_apply, bias_apply]
  simp only [truncf_apply, shapeCast_self, catV_apply]
  rfl

/-- The normalised row at `(p, q)`. -/
theorem normV_apply (y : FVec Ideal S2048x128 .f32) (p : Fin 2048) (q : Fin 128) :
    normV y (ix2 p q)
      = Ideal.div (y (ix2 p q))
          (max (Ideal.sqrt (∑ r : Fin 128, y (ix2 p r) * y (ix2 p r))) (Ideal.ofBits .f32 0x358637BD#32)) := by
  unfold normV
  rw [divf_apply, col_apply, maximumf_apply, broadcast_apply]
  show Ideal.div _ (max (Ideal.sqrt (shapeCast S2048x1 _ shapeCasts_S2048_S2048x1 (ix2 p (0 : Fin 1)))) _) = _
  rw [LibColumn.shapeCast_a_a1_apply, rowsum_apply]
  rfl

/-- The convolution kernel's stored value at `(p, q)`: the pre-normalisation row of node `p` divided by its length. -/
theorem conv_pay (x0 x1 : Vec Ideal S2048x128 .f32) (x2 : Vec Ideal S2048x1 .f32) (x3 : Vec Ideal S256x128 .f32)
    (x4 : Vec Ideal S128 .f32) (p : Fin 2048) (q : Fin 128) :
    k3_pay1 (F := Ideal) x0 x1 x2 x3 x4 (ix2 p q)
      = Cert.Spec.convAt (fun r => x0 (ix2 p r)) (fun r => x1 (ix2 p r)) (x2 (ix2 p 0)) (fun k r => x3 (ix2 k r))
          (fun r => x4 (ix1 r)) q := by
  rw [k3_pay1_eq, normV_apply]
  simp only [preV_apply]
  rfl

/-- The second convolution kernel stores the same function of its blocks as the first. -/
theorem k4_pay1_eq : @k4_pay1 Ideal _ = @k3_pay1 Ideal _ := rfl

end Cert.KernelIdeal.Payload

end
-- ==== Proof.KRegionC.lean ====
/-
  The two convolution regions, each as one whole-array function of the arrays it finds.

  A region runs the kernel body once per block of 2048 rows. The body's stored value at (p, q) is the convolution
  entry of the block inputs' row p; block `t` of a row-indexed array (own rows, neighbour sums, the count column)
  is its rows `2048 t … 2048 t + 2047`, and the weights and the bias are fetched whole. So point `t` writes back
  block `t` of the convolution layer applied to the whole arrays, the blocks tile the output, and the output array
  ends at that layer's value.
-/
import proofs.«171769_j36816459662034_1_alg».proof.Proof.Gen.KernelIdeal.Frame
import proofs.«171769_j36816459662034_1_alg».proof.Proof.SpecArr
import proofs.«171769_j36816459662034_1_alg».proof.Proof.PayloadConv
import Idealize.ShloMosaic.Lib.Pipeline.Value
import Idealize.ShloMosaic.Lib.ValueIdx
import Idealize.ShloMosaic.Lib.ValueLayout

set_option maxRecDepth 16384

noncomputable section

namespace Cert.KernelIdeal.KRegionC

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

-- the contents of the TensorCore's buffers when a region is entered
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 3: 40960 rows in 20 blocks of 2048 -/

/-- The printed index maps over the grid: block `t` of the own rows, the neighbour sums, the count column and the
    output is row block `t`; the weights and the bias are one block. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

set_option maxHeartbeats 2000000 in
/-- What point `t` writes back is block `t` of the convolution layer applied to the arrays the region finds, the
    count column read as the counts `cnt`. -/
theorem flushed3 (c : Dev nD) (cnt : S40960.Idx → EReal)
    (hcol : ∀ i : Fin 40960, (V c main_v47 : S40960x1.Idx → EReal) (ix2 i (0 : Fin 1)) = cnt (ix1 i)) (t : Fin cfg3.N) :
    (dat3 V c).flushed 5 t = ((cfg3.win 5).blk t).view.read (Elt Ideal)
      (Cert.SpecArr.convArr 40960 (V c main_v21) (V c main_v42) cnt (V c main_v48) (V c main_arg18)) := by
  show (cfg3.win 5).cut (grid3.coords t) ((dat3 V c).after 5 t) = _
  rw [after3_5]
  unfold out3_5
  rw [View.canon_unit_zero hz2]
  simp only [View.ld_unit_zero (S := S2048x128) hz2, View.ld_unit_zero (S := S2048x1) hz2, View.ld_unit_zero (S := S256x128) hz2, View.ld_unit_zero (S := S128) hz1]
  funext j
  show k3_pay1 (F := Ideal) (iblk3 V c 0 t) (iblk3 V c 1 t) (iblk3 V c 2 t) (iblk3 V c 3 t) (iblk3 V c 4 t) j
    = Cert.SpecArr.convArr 40960 (V c main_v21) (V c main_v42) cnt (V c main_v48) (V c main_arg18) (((cfg3.win 5).blk t).view.emb j)
  obtain ⟨p, q, rfl⟩ : ∃ (p : Fin 2048) (q : Fin 128), j = ix2 p q := ⟨j 0, j 1, eq_ix2 j⟩
  refine (Cert.KernelIdeal.Payload.conv_pay _ _ _ _ _ p q).trans ?_
  unfold Cert.SpecArr.convArr
  obtain ⟨e00, e01, e10, e11, e20, e21, e30, e31, e40, e50, e51⟩ := idx3 t
  have hrow : (((cfg3.win 5).blk t).view.emb (ix2 p q) 0).val = t.val * 2048 + p.val := by
    show win3_5.index t (0 : Fin 2) * 2048 + 1 * p.val = _; omega
  have hcolq : (((cfg3.win 5).blk t).view.emb (ix2 p q) 1).val = q.val := by
    show win3_5.index t (1 : Fin 2) * 128 + 1 * q.val = _; omega
  have h0 : ∀ r : Fin 128, iblk3 V c 0 t (ix2 p r) = V c main_v21 (ix2 (((cfg3.win 5).blk t).view.emb (ix2 p q) 0) r) := fun r => by
    show V c main_v21 (((cfg3.win 0).blk t).view.emb (ix2 p r)) = _
    refine congrArg _ (funext fun a => Fin.ext ?_)
    match a with
    | ⟨0, _⟩ => show win3_0.index t (0 : Fin 2) * 2048 + 1 * p.val = (((cfg3.win 5).blk t).view.emb (ix2 p q) 0).val; rw [hrow]; omega
    | ⟨1, _⟩ => show win3_0.index t (1 : Fin 2) * 128 + 1 * r.val = r.val; omega
  have h1 : ∀ r : Fin 128, iblk3 V c 1 t (ix2 p r) = V c main_v42 (ix2 (((cfg3.win 5).blk t).view.emb (ix2 p q) 0) r) := fun r => by
    show V c main_v42 (((cfg3.win 1).blk t).view.emb (ix2 p r)) = _
    refine congrArg _ (funext fun a => Fin.ext ?_)
    match a with
    | ⟨0, _⟩ => show win3_1.index t (0 : Fin 2) * 2048 + 1 * p.val = (((cfg3.win 5).blk t).view.emb (ix2 p q) 0).val; rw [hrow]; omega
    | ⟨1, _⟩ => show win3_1.index t (1 : Fin 2) * 128 + 1 * r.val = r.val; omega
  have h2 : iblk3 V c 2 t (ix2 p (0 : Fin 1)) = cnt (ix1 (((cfg3.win 5).blk t).view.emb (ix2 p q) 0)) := by
    show V c main_v47 (((cfg3.win 2).blk t).view.emb (ix2 p (0 : Fin 1))) = _
    refine (congrArg _ (?_ : ((cfg3.win 2).blk t).view.emb (ix2 p (0 : Fin 1)) = ix2 (((cfg3.win 5).blk t).view.emb (ix2 p q) 0) (0 : Fin 1))).trans (hcol _)
    refine funext fun a => Fin.ext ?_
    match a with
    | ⟨0, _⟩ => show win3_2.index t (0 : Fin 2) * 2048 + 1 * p.val = (((cfg3.win 5).blk t).view.emb (ix2 p q) 0).val; rw [hrow]; omega
    | ⟨1, _⟩ => show win3_2.index t (1 : Fin 2) * 1 + 1 * 0 = 0; omega
  have h3 : ∀ (k : Fin 256) (r : Fin 128), iblk3 V c 3 t (ix2 k r) = V c main_v48 (ix2 k r) := fun k r => by
    show V c main_v48 (((cfg3.win 3).blk t).view.emb (ix2 k r)) = _
    refine congrArg _ (funext fun a => Fin.ext ?_)
    match a with
    | ⟨0, _⟩ => show win3_3.index t (0 : Fin 2) * 256 + 1 * k.val = k.val; omega
    | ⟨1, _⟩ => show win3_3.index t (1 : Fin 2) * 128 + 1 * r.val = r.val; omega
  have h4 : ∀ r : Fin 128, iblk3 V c 4 t (ix1 r) = V c main_arg18 (ix1 r) := fun r => by
    show V c main_arg18 (((cfg3.win 4).blk t).view.emb (ix1 r)) = _
    refine congrArg _ (funext fun a => Fin.ext ?_)
    match a with
    | ⟨0, _⟩ => show win3_4.index t (0 : Fin 1) * 128 + 1 * r.val = r.val; omega
  have hq : (((cfg3.win 5).blk t).view.emb (ix2 p q) 1 : Fin 128) = q := Fin.ext hcolq
  exact congr (congr (congr (congr (congr (congrArg Cert.Spec.convAt (funext h0)) (funext h1)) h2)
    (funext fun k => funext (h3 k))) (funext h4)) hq.symm

/-- An index is in point `t`'s output block iff each coordinate is in the block's range. -/
theorem mem_blk3 (t : Fin cfg3.N) (i : S40960x128.Idx) :
    i ∈ ((cfg3.win 5).blk t).view.set ↔ ∀ a : Fin 2, win3_5.index t a * S2048x128.size a ≤ (i a).val ∧ (i a).val < win3_5.index t a * S2048x128.size a + S2048x128.size a := by
  show i ∈ ((View.whole main_v49).slice (win3_5.rect t)).set ↔ _
  rw [View.set_slice_whole, Rect.mem_set_unit]
  exact Iff.rfl

/-- The output array after the region: the convolution layer of the arrays the region finds (row `r` is written by
    point `r / 2048`). -/
theorem final3 (c : Dev nD) (cnt : S40960.Idx → EReal)
    (hcol : ∀ i : Fin 40960, (V c main_v47 : S40960x1.Idx → EReal) (ix2 i (0 : Fin 1)) = cnt (ix1 i)) :
    (dat3 V c).arrAt 5 cfg3.N
      = Cert.SpecArr.convArr 40960 (V c main_v21) (V c main_v42) cnt (V c main_v48) (V c main_arg18) :=
  (dat3 V c).arrAt_eq_of_cover 5 _ (fun t _ => flushed3 V c cnt hcol t) fun i => by
    have hi0 : (i 0).val < 40960 := (i 0).isLt
    have hi1 : (i 1).val < 128 := (i 1).isLt
    have hN : cfg3.N = 20 := N_3
    refine ⟨⟨(i 0).val / 2048, by rw [hN]; omega⟩, flush3_5 _, ?_⟩
    rw [mem_blk3]
    obtain ⟨e00, e01, e10, e11, e20, e21, e30, e31, e40, e50, e51⟩ := idx3 ⟨(i 0).val / 2048, by rw [hN]; omega⟩
    intro a
    match a with
    | ⟨0, _⟩ => show win3_5.index _ (0 : Fin 2) * 2048 ≤ (i 0).val ∧ (i 0).val < win3_5.index _ (0 : Fin 2) * 2048 + 2048; rw [e50]; show (i 0).val / 2048 * 2048 ≤ (i 0).val ∧ (i 0).val < (i 0).val / 2048 * 2048 + 2048; omega
    | ⟨1, _⟩ => show win3_5.index _ (1 : Fin 2) * 128 ≤ (i 1).val ∧ (i 1).val < win3_5.index _ (1 : Fin 2) * 128 + 128; rw [e51]; omega

/-! ## Region 4: 4096 rows in 2 blocks of 2048 -/

/-- The printed index maps over the grid: block `t` of the own rows, the neighbour sums, the count column and the
    output is row block `t`; the weights and the bias are one block. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

set_option maxHeartbeats 2000000 in
/-- What point `t` writes back is block `t` of the convolution layer applied to the arrays the region finds, the
    count column read as the counts `cnt`. -/
theorem flushed4 (c : Dev nD) (cnt : S4096.Idx → EReal)
    (hcol : ∀ i : Fin 4096, (V c main_v64 : S4096x1.Idx → EReal) (ix2 i (0 : Fin 1)) = cnt (ix1 i)) (t : Fin cfg4.N) :
    (dat4 V c).flushed 5 t = ((cfg4.win 5).blk t).view.read (Elt Ideal)
      (Cert.SpecArr.convArr 4096 (V c main_v32) (V c main_v59) cnt (V c main_v65) (V c main_arg20)) := by
  show (cfg4.win 5).cut (grid4.coords t) ((dat4 V c).after 5 t) = _
  rw [after4_5]
  unfold out4_5
  rw [View.canon_unit_zero hz2]
  simp only [View.ld_unit_zero (S := S2048x128) hz2, View.ld_unit_zero (S := S2048x1) hz2, View.ld_unit_zero (S := S256x128) hz2, View.ld_unit_zero (S := S128) hz1]
  funext j
  show k4_pay1 (F := Ideal) (iblk4 V c 0 t) (iblk4 V c 1 t) (iblk4 V c 2 t) (iblk4 V c 3 t) (iblk4 V c 4 t) j
    = Cert.SpecArr.convArr 4096 (V c main_v32) (V c main_v59) cnt (V c main_v65) (V c main_arg20) (((cfg4.win 5).blk t).view.emb j)
  obtain ⟨p, q, rfl⟩ : ∃ (p : Fin 2048) (q : Fin 128), j = ix2 p q := ⟨j 0, j 1, eq_ix2 j⟩
  rw [Cert.KernelIdeal.Payload.k4_pay1_eq]
  refine (Cert.KernelIdeal.Payload.conv_pay _ _ _ _ _ p q).trans ?_
  unfold Cert.SpecArr.convArr
  obtain ⟨e00, e01, e10, e11, e20, e21, e30, e31, e40, e50, e51⟩ := idx4 t
  have hrow : (((cfg4.win 5).blk t).view.emb (ix2 p q) 0).val = t.val * 2048 + p.val := by
    show win4_5.index t (0 : Fin 2) * 2048 + 1 * p.val = _; omega
  have hcolq : (((cfg4.win 5).blk t).view.emb (ix2 p q) 1).val = q.val := by
    show win4_5.index t (1 : Fin 2) * 128 + 1 * q.val = _; omega
  have h0 : ∀ r : Fin 128, iblk4 V c 0 t (ix2 p r) = V c main_v32 (ix2 (((cfg4.win 5).blk t).view.emb (ix2 p q) 0) r) := fun r => by
    show V c main_v32 (((cfg4.win 0).blk t).view.emb (ix2 p r)) = _
    refine congrArg _ (funext fun a => Fin.ext ?_)
    match a with
    | ⟨0, _⟩ => show win4_0.index t (0 : Fin 2) * 2048 + 1 * p.val = (((cfg4.win 5).blk t).view.emb (ix2 p q) 0).val; rw [hrow]; omega
    | ⟨1, _⟩ => show win4_0.index t (1 : Fin 2) * 128 + 1 * r.val = r.val; omega
  have h1 : ∀ r : Fin 128, iblk4 V c 1 t (ix2 p r) = V c main_v59 (ix2 (((cfg4.win 5).blk t).view.emb (ix2 p q) 0) r) := fun r => by
    show V c main_v59 (((cfg4.win 1).blk t).view.emb (ix2 p r)) = _
    refine congrArg _ (funext fun a => Fin.ext ?_)
    match a with
    | ⟨0, _⟩ => show win4_1.index t (0 : Fin 2) * 2048 + 1 * p.val = (((cfg4.win 5).blk t).view.emb (ix2 p q) 0).val; rw [hrow]; omega
    | ⟨1, _⟩ => show win4_1.index t (1 : Fin 2) * 128 + 1 * r.val = r.val; omega
  have h2 : iblk4 V c 2 t (ix2 p (0 : Fin 1)) = cnt (ix1 (((cfg4.win 5).blk t).view.emb (ix2 p q) 0)) := by
    show V c main_v64 (((cfg4.win 2).blk t).view.emb (ix2 p (0 : Fin 1))) = _
    refine (congrArg _ (?_ : ((cfg4.win 2).blk t).view.emb (ix2 p (0 : Fin 1)) = ix2 (((cfg4.win 5).blk t).view.emb (ix2 p q) 0) (0 : Fin 1))).trans (hcol _)
    refine funext fun a => Fin.ext ?_
    match a with
    | ⟨0, _⟩ => show win4_2.index t (0 : Fin 2) * 2048 + 1 * p.val = (((cfg4.win 5).blk t).view.emb (ix2 p q) 0).val; rw [hrow]; omega
    | ⟨1, _⟩ => show win4_2.index t (1 : Fin 2) * 1 + 1 * 0 = 0; omega
  have h3 : ∀ (k : Fin 256) (r : Fin 128), iblk4 V c 3 t (ix2 k r) = V c main_v65 (ix2 k r) := fun k r => by
    show V c main_v65 (((cfg4.win 3).blk t).view.emb (ix2 k r)) = _
    refine congrArg _ (funext fun a => Fin.ext ?_)
    match a with
    | ⟨0, _⟩ => show win4_3.index t (0 : Fin 2) * 256 + 1 * k.val = k.val; omega
    | ⟨1, _⟩ => show win4_3.index t (1 : Fin 2) * 128 + 1 * r.val = r.val; omega
  have h4 : ∀ r : Fin 128, iblk4 V c 4 t (ix1 r) = V c main_arg20 (ix1 r) := fun r => by
    show V c main_arg20 (((cfg4.win 4).blk t).view.emb (ix1 r)) = _
    refine congrArg _ (funext fun a => Fin.ext ?_)
    match a with
    | ⟨0, _⟩ => show win4_4.index t (0 : Fin 1) * 128 + 1 * r.val = r.val; omega
  have hq : (((cfg4.win 5).blk t).view.emb (ix2 p q) 1 : Fin 128) = q := Fin.ext hcolq
  exact congr (congr (congr (congr (congr (congrArg Cert.Spec.convAt (funext h0)) (funext h1)) h2)
    (funext fun k => funext (h3 k))) (funext h4)) hq.symm

/-- An index is in point `t`'s output block iff each coordinate is in the block's range. -/
theorem mem_blk4 (t : Fin cfg4.N) (i : S4096x128.Idx) :
    i ∈ ((cfg4.win 5).blk t).view.set ↔ ∀ a : Fin 2, win4_5.index t a * S2048x128.size a ≤ (i a).val ∧ (i a).val < win4_5.index t a * S2048x128.size a + S2048x128.size a := by
  show i ∈ ((View.whole main_v66).slice (win4_5.rect t)).set ↔ _
  rw [View.set_slice_whole, Rect.mem_set_unit]
  exact Iff.rfl

/-- The output array after the region: the convolution layer of the arrays the region finds (row `r` is written by
    point `r / 2048`). -/
theorem final4 (c : Dev nD) (cnt : S4096.Idx → EReal)
    (hcol : ∀ i : Fin 4096, (V c main_v64 : S4096x1.Idx → EReal) (ix2 i (0 : Fin 1)) = cnt (ix1 i)) :
    (dat4 V c).arrAt 5 cfg4.N
      = Cert.SpecArr.convArr 4096 (V c main_v32) (V c main_v59) cnt (V c main_v65) (V c main_arg20) :=
  (dat4 V c).arrAt_eq_of_cover 5 _ (fun t _ => flushed4 V c cnt hcol t) fun i => by
    have hi0 : (i 0).val < 4096 := (i 0).isLt
    have hi1 : (i 1).val < 128 := (i 1).isLt
    have hN : cfg4.N = 2 := N_4
    refine ⟨⟨(i 0).val / 2048, by rw [hN]; omega⟩, flush4_5 _, ?_⟩
    rw [mem_blk4]
    obtain ⟨e00, e01, e10, e11, e20, e21, e30, e31, e40, e50, e51⟩ := idx4 ⟨(i 0).val / 2048, by rw [hN]; omega⟩
    intro a
    match a with
    | ⟨0, _⟩ => show win4_5.index _ (0 : Fin 2) * 2048 ≤ (i 0).val ∧ (i 0).val < win4_5.index _ (0 : Fin 2) * 2048 + 2048; rw [e50]; show (i 0).val / 2048 * 2048 ≤ (i 0).val ∧ (i 0).val < (i 0).val / 2048 * 2048 + 2048; omega
    | ⟨1, _⟩ => show win4_5.index _ (1 : Fin 2) * 128 ≤ (i 1).val ∧ (i 1).val < win4_5.index _ (1 : Fin 2) * 128 + 128; rw [e51]; omega

end Cert.KernelIdeal.KRegionC

end
-- ==== Proof.KValue.lean ====
/-
  The kernel program's result as a function of its arguments.

  Following the chain of boundary contents from the launch: each embedding region leaves its output at the
  embedding layer of the looked-up rows, the layer's contents, the transposed weights and the bias; each
  convolution region leaves its output at the convolution layer of the next layer's rows, the neighbour sums of
  the previous result, the neighbour counts, the transposed weights and the bias. The result buffer holds the
  second convolution's output.
-/
import proofs.«171769_j36816459662034_1_alg».proof.Proof.KChain
import proofs.«171769_j36816459662034_1_alg».proof.Proof.KHost
import proofs.«171769_j36816459662034_1_alg».proof.Proof.KRegionE
import proofs.«171769_j36816459662034_1_alg».proof.Proof.KRegionC

set_option maxRecDepth 16384

noncomputable section

namespace Cert.KernelIdeal.KValue

open Cert.KernelIdeal Cert.KernelIdeal.Gen Cert.KernelIdeal.KChain Cert.KernelIdeal.KHost
open Idealize.ShloMosaic Idealize.ShloMosaic.TcCoe Idealize.ShloMosaic.ValueIdx Idealize.SL.Sem

variable (m : (ℓ : Loc nD τ sig) → Buf (Elt Ideal) ℓ) (ρ : Dev nD → PrngReg)

/-- Layer 0's embedded rows, as a function of the launch contents of the arguments. -/
def H0 (c : Dev nD) : S409600x128.Idx → EReal :=
  Cert.SpecArr.embedArr 409600 (gath0 (m ((c : Thread nD τ).loc main_arg10)) (m ((c : Thread nD τ).loc main_arg0))) (m ((c : Thread nD τ).loc main_arg3)) (tr0 (m ((c : Thread nD τ).loc main_arg11))) (m ((c : Thread nD τ).loc main_arg12))

/-- Embedding region 0 leaves its output array at `H0`. -/
theorem R0 (c : Dev nD) : W2 m ρ c (Proc.devRef .tc main_v10) = H0 m c :=
  (W2_arr m ρ c 4).trans <| (Cert.KernelIdeal.KRegionE.final0 (V1 m ρ) c).trans <|
    congr (congr (congr (congrArg (Cert.SpecArr.embedArr 409600)
      (host0_main_v8 (W0 m ρ c)))
      (W1_of m ρ c main_arg3 (by decide)))
      (host0_main_v9 (W0 m ρ c)))
      (W1_of m ρ c main_arg12 (by decide))

/-- Layer 1's embedded rows, as a function of the launch contents of the arguments. -/
def H1 (c : Dev nD) : S40960x128.Idx → EReal :=
  Cert.SpecArr.embedArr 40960 (gath1 (m ((c : Thread nD τ).loc main_arg10)) (m ((c : Thread nD τ).loc main_arg1))) (m ((c : Thread nD τ).loc main_arg4)) (tr1 (m ((c : Thread nD τ).loc main_arg13))) (m ((c : Thread nD τ).loc main_arg14))

/-- Embedding region 1 leaves its output array at `H1`. -/
theorem R1 (c : Dev nD) : W4 m ρ c (Proc.devRef .tc main_v21) = H1 m c :=
  (W4_arr m ρ c 4).trans <| (Cert.KernelIdeal.KRegionE.final1 (V3 m ρ) c).trans <|
    congr (congr (congr (congrArg (Cert.SpecArr.embedArr 40960)
      ((host1_main_v19 (W2 m ρ c)).trans (congr (congrArg gath1 (W2_arg10 m ρ c)) (W2_arg1 m ρ c))))
      ((W3_of m ρ c main_arg4 (by decide)).trans (W2_arg4 m ρ c)))
      ((host1_main_v20 (W2 m ρ c)).trans (congrArg tr1 (W2_arg13 m ρ c))))
      ((W3_of m ρ c main_arg14 (by decide)).trans (W2_arg14 m ρ c))

/-- Layer 2's embedded rows, as a function of the launch contents of the arguments. -/
def H2 (c : Dev nD) : S4096x128.Idx → EReal :=
  Cert.SpecArr.embedArr 4096 (gath2 (m ((c : Thread nD τ).loc main_arg10)) (m ((c : Thread nD τ).loc main_arg2))) (m ((c : Thread nD τ).loc main_arg5)) (tr2 (m ((c : Thread nD τ).loc main_arg15))) (m ((c : Thread nD τ).loc main_arg16))

/-- Embedding region 2 leaves its output array at `H2`. -/
theorem R2 (c : Dev nD) : W6 m ρ c (Proc.devRef .tc main_v32) = H2 m c :=
  (W6_arr m ρ c 4).trans <| (Cert.KernelIdeal.KRegionE.final2 (V5 m ρ) c).trans <|
    congr (congr (congr (congrArg (Cert.SpecArr.embedArr 4096)
      ((host2_main_v30 (W4 m ρ c)).trans (congr (congrArg gath2 (W4_arg10 m ρ c)) (W4_arg2 m ρ c))))
      ((W5_of m ρ c main_arg5 (by decide)).trans (W4_arg5 m ρ c)))
      ((host2_main_v31 (W4 m ρ c)).trans (congrArg tr2 (W4_arg15 m ρ c))))
      ((W5_of m ρ c main_arg16 (by decide)).trans (W4_arg16 m ρ c))

/-- The count column the region finds reads, at row `i`, the count of row `i`. -/
theorem hcol3 (c : Dev nD) (i : Fin 40960) :
    (V7 m ρ c main_v47 : S40960x1.Idx → EReal) (ix2 i (0 : Fin 1)) = cnt0 (m ((c : Thread nD τ).loc main_arg7)) (ix1 i) := by
  have e : V7 m ρ c main_v47 = col0 (m ((c : Thread nD τ).loc main_arg7)) :=
    (host3_main_v47 (W6 m ρ c)).trans (congrArg col0 (W6_arg7 m ρ c))
  refine (congrFun e (ix2 i (0 : Fin 1))).trans ?_
  show broadcastInDim S40960x1 ![0] bcast_S40960_S40960x1_0 (cnt0 (m ((c : Thread nD τ).loc main_arg7))) (ix2 i (0 : Fin 1)) = _
  exact broadcastInDim_apply _ _ _ _ (ix1 i) (fun a => by match a with | ⟨0, _⟩ => rfl)

/-- The second layer's rows after the first convolution. -/
def C3 (c : Dev nD) : S40960x128.Idx → EReal :=
  Cert.SpecArr.convArr 40960 (H1 m c) (agg0 (H0 m c) (m ((c : Thread nD τ).loc main_arg6)) (m ((c : Thread nD τ).loc main_arg7))) (cnt0 (m ((c : Thread nD τ).loc main_arg7))) (trc0 (m ((c : Thread nD τ).loc main_arg17))) (m ((c : Thread nD τ).loc main_arg18))

/-- Convolution region 3 leaves its output array at `C3`. -/
theorem R3 (c : Dev nD) : W8 m ρ c (Proc.devRef .tc main_v49) = C3 m c :=
  (W8_arr m ρ c 5).trans <| (Cert.KernelIdeal.KRegionC.final3 (V7 m ρ) c (cnt0 (m ((c : Thread nD τ).loc main_arg7))) (hcol3 m ρ c)).trans <|
    congr (congr (congr (congr (congrArg (Cert.SpecArr.convArr 40960)
      ((W7_of m ρ c main_v21 (by decide)).trans <| (W6_v21 m ρ c).trans (R1 m ρ c)))
      ((host3_main_v42 (W6 m ρ c)).trans (congr (congr (congrArg agg0 ((W6_v10 m ρ c).trans (R0 m ρ c))) (W6_arg6 m ρ c)) (W6_arg7 m ρ c))))
      (rfl : cnt0 (m ((c : Thread nD τ).loc main_arg7)) = cnt0 (m ((c : Thread nD τ).loc main_arg7))))
      ((host3_main_v48 (W6 m ρ c)).trans (congrArg trc0 (W6_arg17 m ρ c))))
      ((W7_of m ρ c main_arg18 (by decide)).trans (W6_arg18 m ρ c))

/-- The count column the region finds reads, at row `i`, the count of row `i`. -/
theorem hcol4 (c : Dev nD) (i : Fin 4096) :
    (V9 m ρ c main_v64 : S4096x1.Idx → EReal) (ix2 i (0 : Fin 1)) = cnt1 (m ((c : Thread nD τ).loc main_arg9)) (ix1 i) := by
  have e : V9 m ρ c main_v64 = col1 (m ((c : Thread nD τ).loc main_arg9)) :=
    (host4_main_v64 (W8 m ρ c)).trans (congrArg col1 (W8_arg9 m ρ c))
  refine (congrFun e (ix2 i (0 : Fin 1))).trans ?_
  show broadcastInDim S4096x1 ![0] bcast_S4096_S4096x1_0 (cnt1 (m ((c : Thread nD τ).loc main_arg9))) (ix2 i (0 : Fin 1)) = _
  exact broadcastInDim_apply _ _ _ _ (ix1 i) (fun a => by match a with | ⟨0, _⟩ => rfl)

/-- The third layer's rows after the second convolution: the program's result. -/
def C4 (c : Dev nD) : S4096x128.Idx → EReal :=
  Cert.SpecArr.convArr 4096 (H2 m c) (agg1 (C3 m c) (m ((c : Thread nD τ).loc main_arg8)) (m ((c : Thread nD τ).loc main_arg9))) (cnt1 (m ((c : Thread nD τ).loc main_arg9))) (trc1 (m ((c : Thread nD τ).loc main_arg19))) (m ((c : Thread nD τ).loc main_arg20))

/-- Convolution region 4 leaves its output array at `C4`. -/
theorem R4 (c : Dev nD) : W10 m ρ c (Proc.devRef .tc main_v66) = C4 m c :=
  (W10_arr m ρ c 5).trans <| (Cert.KernelIdeal.KRegionC.final4 (V9 m ρ) c (cnt1 (m ((c : Thread nD τ).loc main_arg9))) (hcol4 m ρ c)).trans <|
    congr (congr (congr (congr (congrArg (Cert.SpecArr.convArr 4096)
      ((W9_of m ρ c main_v32 (by decide)).trans <| (W8_v32 m ρ c).trans (R2 m ρ c)))
      ((host4_main_v59 (W8 m ρ c)).trans (congr (congr (congrArg agg1 (R3 m ρ c)) (W8_arg8 m ρ c)) (W8_arg9 m ρ c))))
      (rfl : cnt1 (m ((c : Thread nD τ).loc main_arg9)) = cnt1 (m ((c : Thread nD τ).loc main_arg9))))
      ((host4_main_v65 (W8 m ρ c)).trans (congrArg trc1 (W8_arg19 m ρ c))))
      ((W9_of m ρ c main_arg20 (by decide)).trans (W8_arg20 m ρ c))

end Cert.KernelIdeal.KValue

end
-- ==== Proof.RefRun.lean ====
/-
  The reference program's @main as a list of its host operations, each called function's operations standing in
  its call's place over the call's buffers, and its run read back: every weakly fair execution terminates with the
  result buffer at the fold of the operations over the launch contents and the arguments unchanged.

  The list is cut where the mathematics is: three embedding layers, then two convolution layers.
-/
import proofs.«171769_j36816459662034_1_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first embedding: statements through `%15` (the 409600-row layer), the rectifier's call inlined over its record. -/
abbrev opsE0 : List (HloOp τ sig (Elt F)) :=
  [ nullary main_c (constantI S_ 32 1#32),
    unary main_c main_v0 (broadcastInDim S409600 ![] bcast_S_S409600 : (⟨S_, .i32⟩ : BufTy).Contents (Elt F) → (⟨S409600, .i32⟩ : BufTy).Contents (Elt F)),
    binary main_arg0 main_v0 main_v1 (addi : (⟨S409600, .i32⟩ : BufTy).Contents (Elt F) → (⟨S409600, .i32⟩ : BufTy).Contents (Elt F) → (⟨S409600, .i32⟩ : BufTy).Contents (Elt F)),
    nullary main_c_0 (constantI S_ 32 0#32),
    unary main_c_0 main_v2 (broadcastInDim S409600 ![] bcast_S_S409600 : (⟨S_, .i32⟩ : BufTy).Contents (Elt F) → (⟨S409600, .i32⟩ : BufTy).Contents (Elt F)),
    binary main_v1 main_v2 main_v3 (cmpi .slt : (⟨S409600, .i32⟩ : BufTy).Contents (Elt F) → (⟨S409600, .i32⟩ : BufTy).Contents (Elt F) → (⟨S409600, .i1⟩ : BufTy).Contents (Elt F)),
    nullary main_c_1 (constantI S_ 32 100001#32),
    unary main_c_1 main_v4 (broadcastInDim S409600 ![] bcast_S_S409600 : (⟨S_, .i32⟩ : BufTy).Contents (Elt F) → (⟨S409600, .i32⟩ : BufTy).Contents (Elt F)),
    binary main_v1 main_v4 main_v5 (addi : (⟨S409600, .i32⟩ : BufTy).Contents (Elt F) → (⟨S409600, .i32⟩ : BufTy).Contents (Elt F) → (⟨S409600, .i32⟩ : BufTy).Contents (Elt F)),
    ternary main_v3 main_v5 main_v1 main_v6 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v6 main_v7 (broadcastInDim S409600x1 ![0] bcast_S409600_S409600x1_0 : (⟨S409600, .i32⟩ : BufTy).Contents (Elt F) → (⟨S409600x1, .i32⟩ : BufTy).Contents (Elt F)),
    binary main_arg10 main_v7 main_v8 ((fun x i => Host.gather gather_S100001x128_S409600x1_S409600x128_1_0_n_n_0_1_1128 x i) : (⟨S100001x128, .f32⟩ : BufTy).Contents (Elt F) → (⟨S409600x1, .i32⟩ : BufTy).Contents (Elt F) → (⟨S409600x128, .f32⟩ : BufTy).Contents (Elt F)),
    unary main_arg11 main_v9 ((transpose S300x128 [1, 0] · transposes_S128x300_S300x128_1_0) : (⟨S128x300, .f32⟩ : BufTy).Contents (Elt F) → (⟨S300x128, .f32⟩ : BufTy).Contents (Elt F)),
    binary main_arg3 main_v9 main_v10 ((fun l r => Host.dotGeneral dot_S409600x300_S300x128_S409600x128_1_0_0_1_n_n none l r) : (⟨S409600x300, .f32⟩ : BufTy).Contents (Elt F) → (⟨S300x128, .f32⟩ : BufTy).Contents (Elt F) → (⟨S409600x128, .f32⟩ : BufTy).Contents (Elt F)),
    unary main_arg12 main_v11 (broadcastInDim S1x128 ![1] bcast_S128_S1x128_1 : (⟨S128, .f32⟩ : BufTy).Contents (Elt F) → (⟨S1x128, .f32⟩ : BufTy).Contents (Elt F)),
    unary main_v11 main_v12 (broadcastInDim S409600x128 ![0, 1] bcast_S1x128_S409600x128_0_1 : (⟨S1x128, .f32⟩ : BufTy).Contents (Elt F) → (⟨S409600x128, .f32⟩ : BufTy).Contents (Elt F)),
    binary main_v10 main_v12 main_v13 (addf : (⟨S409600x128, .f32⟩ : BufTy).Contents (Elt F) → (⟨S409600x128, .f32⟩ : BufTy).Contents (Elt F) → (⟨S409600x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S409600x128, .f32⟩) main_call0_v0) (broadcastInDim S409600x128 ![] bcast_S_S409600x128),
    TRef.binary (TRef.of (T := ⟨S409600x128, .f32⟩) main_v13) (TRef.of (T := ⟨S409600x128, .f32⟩) main_call0_v0) (TRef.of (T := ⟨S409600x128, .i1⟩) main_call0_v1) (cmpf .oge),
    TRef.nullary (TRef.of (T := ⟨S_, .f32⟩) main_call0_cst_0) (constant S_ .f32 0x3C23D70A#32),
    TRef.unary (TRef.of (T := ⟨S_, .f32⟩) main_call0_cst_0) (TRef.of (T := ⟨S409600x128, .f32⟩) main_call0_v2) (broadcastInDim S409600x128 ![] bcast_S_S409600x128),
    TRef.binary (TRef.of (T := ⟨S409600x128, .f32⟩) main_call0_v2) (TRef.of (T := ⟨S409600x128, .f32⟩) main_v13) (TRef.of (T := ⟨S409600x128, .f32⟩) main_call0_v3) mulf,
    TRef.ternary (TRef.of (T := ⟨S409600x128, .i1⟩) main_call0_v1) (TRef.of (T := ⟨S409600x128, .f32⟩) main_v13) (TRef.of (T := ⟨S409600x128, .f32⟩) main_call0_v3) (TRef.of (T := ⟨S409600x128, .f32⟩) main_v14) select,
    binary main_v8 main_v14 main_v15 (addf : (⟨S409600x128, .f32⟩ : BufTy).Contents (Elt F) → (⟨S409600x128, .f32⟩ : BufTy).Contents (Elt F) → (⟨S409600x128, .f32⟩ : BufTy).Contents (Elt F)) ]

/-- The second embedding: statements through `%31` (the 40960-row layer). -/
abbrev opsE1 : List (HloOp τ sig (Elt F)) :=
  [ nullary main_c_2 (constantI S_ 32 1#32),
    unary main_c_2 main_v16 (broadcastInDim S40960 ![] bcast_S_S40960 : (⟨S_, .i32⟩ : BufTy).Contents (Elt F) → (⟨S40960, .i32⟩ : BufTy).Contents (Elt F)),
    binary main_arg1 main_v16 main_v17 (addi : (⟨S40960, .i32⟩ : BufTy).Contents (Elt F) → (⟨S40960, .i32⟩ : BufTy).Contents (Elt F) → (⟨S40960, .i32⟩ : BufTy).Contents (Elt F)),
    nullary main_c_3 (constantI S_ 32 0#32),
    unary main_c_3 main_v18 (broadcastInDim S40960 ![] bcast_S_S40960 : (⟨S_, .i32⟩ : BufTy).Contents (Elt F) → (⟨S40960, .i32⟩ : BufTy).Contents (Elt F)),
    binary main_v17 main_v18 main_v19 (cmpi .slt : (⟨S40960, .i32⟩ : BufTy).Contents (Elt F) → (⟨S40960, .i32⟩ : BufTy).Contents (Elt F) → (⟨S40960, .i1⟩ : BufTy).Contents (Elt F)),
    nullary main_c_4 (constantI S_ 32 100001#32),
    unary main_c_4 main_v20 (broadcastInDim S40960 ![] bcast_S_S40960 : (⟨S_, .i32⟩ : BufTy).Contents (Elt F) → (⟨S40960, .i32⟩ : BufTy).Contents (Elt F)),
    binary main_v17 main_v20 main_v21 (addi : (⟨S40960, .i32⟩ : BufTy).Contents (Elt F) → (⟨S40960, .i32⟩ : BufTy).Contents (Elt F) → (⟨S40960, .i32⟩ : BufTy).Contents (Elt F)),
    ternary main_v19 main_v21 main_v17 main_v22 (select : (⟨S40960, .i1⟩ : BufTy).Contents (Elt F) → (⟨S40960, .i32⟩ : BufTy).Contents (Elt F) → (⟨S40960, .i32⟩ : BufTy).Contents (Elt F) → (⟨S40960, .i32⟩ : BufTy).Contents (Elt F)),
    unary main_v22 main_v23 (broadcastInDim S40960x1 ![0] bcast_S40960_S40960x1_0 : (⟨S40960, .i32⟩ : BufTy).Contents (Elt F) → (⟨S40960x1, .i32⟩ : BufTy).Contents (Elt F)),
    binary main_arg10 main_v23 main_v24 ((fun x i => Host.gather gather_S100001x128_S40960x1_S40960x128_1_0_n_n_0_1_1128 x i) : (⟨S100001x128, .f32⟩ : BufTy).Contents (Elt F) → (⟨S40960x1, .i32⟩ : BufTy).Contents (Elt F) → (⟨S40960x128, .f32⟩ : BufTy).Contents (Elt F)),
    unary main_arg13 main_v25 ((transpose S300x128 [1, 0] · transposes_S128x300_S300x128_1_0) : (⟨S128x300, .f32⟩ : BufTy).Contents (Elt F) → (⟨S300x128, .f32⟩ : BufTy).Contents (Elt F)),
    binary main_arg4 main_v25 main_v26 ((fun l r => Host.dotGeneral dot_S40960x300_S300x128_S40960x128_1_0_0_1_n_n none l r) : (⟨S40960x300, .f32⟩ : BufTy).Contents (Elt F) → (⟨S300x128, .f32⟩ : BufTy).Contents (Elt F) → (⟨S40960x128, .f32⟩ : BufTy).Contents (Elt F)),
    unary main_arg14 main_v27 (broadcastInDim S1x128 ![1] bcast_S128_S1x128_1 : (⟨S128, .f32⟩ : BufTy).Contents (Elt F) → (⟨S1x128, .f32⟩ : BufTy).Contents (Elt F)),
    unary main_v27 main_v28 (broadcastInDim S40960x128 ![0, 1] bcast_S1x128_S40960x128_0_1 : (⟨S1x128, .f32⟩ : BufTy).Contents (Elt F) → (⟨S40960x128, .f32⟩ : BufTy).Contents (Elt F)),
    binary main_v26 main_v28 main_v29 (addf : (⟨S40960x128, .f32⟩ : BufTy).Contents (Elt F) → (⟨S40960x128, .f32⟩ : BufTy).Contents (Elt F) → (⟨S40960x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S40960x128, .f32⟩) main_call1_v0) (broadcastInDim S40960x128 ![] bcast_S_S40960x128),
    TRef.binary (TRef.of (T := ⟨S40960x128, .f32⟩) main_v29) (TRef.of (T := ⟨S40960x128, .f32⟩) main_call1_v0) (TRef.of (T := ⟨S40960x128, .i1⟩) main_call1_v1) (cmpf .oge),
    TRef.nullary (TRef.of (T := ⟨S_, .f32⟩) main_call1_cst_0) (constant S_ .f32 0x3C23D70A#32),
    TRef.unary (TRef.of (T := ⟨S_, .f32⟩) main_call1_cst_0) (TRef.of (T := ⟨S40960x128, .f32⟩) main_call1_v2) (broadcastInDim S40960x128 ![] bcast_S_S40960x128),
    TRef.binary (TRef.of (T := ⟨S40960x128, .f32⟩) main_call1_v2) (TRef.of (T := ⟨S40960x128, .f32⟩) main_v29) (TRef.of (T := ⟨S40960x128, .f32⟩) main_call1_v3) mulf,
    TRef.ternary (TRef.of (T := ⟨S40960x128, .i1⟩) main_call1_v1) (TRef.of (T := ⟨S40960x128, .f32⟩) main_v29) (TRef.of (T := ⟨S40960x128, .f32⟩) main_call1_v3) (TRef.of (T := ⟨S40960x128, .f32⟩) main_v30) select,
    binary main_v24 main_v30 main_v31 (addf : (⟨S40960x128, .f32⟩ : BufTy).Contents (Elt F) → (⟨S40960x128, .f32⟩ : BufTy).Contents (Elt F) → (⟨S40960x128, .f32⟩ : BufTy).Contents (Elt F)) ]

/-- The third embedding: statements through `%47` (the 4096-row layer). -/
abbrev opsE2 : List (HloOp τ sig (Elt F)) :=
  [ nullary main_c_5 (constantI S_ 32 1#32),
    unary main_c_5 main_v32 (broadcastInDim S4096 ![] bcast_S_S4096 : (⟨S_, .i32⟩ : BufTy).Contents (Elt F) → (⟨S4096, .i32⟩ : BufTy).Contents (Elt F)),
    binary main_arg2 main_v32 main_v33 (addi : (⟨S4096, .i32⟩ : BufTy).Contents (Elt F) → (⟨S4096, .i32⟩ : BufTy).Contents (Elt F) → (⟨S4096, .i32⟩ : BufTy).Contents (Elt F)),
    nullary main_c_6 (constantI S_ 32 0#32),
    unary main_c_6 main_v34 (broadcastInDim S4096 ![] bcast_S_S4096 : (⟨S_, .i32⟩ : BufTy).Contents (Elt F) → (⟨S4096, .i32⟩ : BufTy).Contents (Elt F)),
    binary main_v33 main_v34 main_v35 (cmpi .slt : (⟨S4096, .i32⟩ : BufTy).Contents (Elt F) → (⟨S4096, .i32⟩ : BufTy).Contents (Elt F) → (⟨S4096, .i1⟩ : BufTy).Contents (Elt F)),
    nullary main_c_7 (constantI S_ 32 100001#32),
    unary main_c_7 main_v36 (broadcastInDim S4096 ![] bcast_S_S4096 : (⟨S_, .i32⟩ : BufTy).Contents (Elt F) → (⟨S4096, .i32⟩ : BufTy).Contents (Elt F)),
    binary main_v33 main_v36 main_v37 (addi : (⟨S4096, .i32⟩ : BufTy).Contents (Elt F) → (⟨S4096, .i32⟩ : BufTy).Contents (Elt F) → (⟨S4096, .i32⟩ : BufTy).Contents (Elt F)),
    ternary main_v35 main_v37 main_v33 main_v38 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v38 main_v39 (broadcastInDim S4096x1 ![0] bcast_S4096_S4096x1_0 : (⟨S4096, .i32⟩ : BufTy).Contents (Elt F) → (⟨S4096x1, .i32⟩ : BufTy).Contents (Elt F)),
    binary main_arg10 main_v39 main_v40 ((fun x i => Host.gather gather_S100001x128_S4096x1_S4096x128_1_0_n_n_0_1_1128 x i) : (⟨S100001x128, .f32⟩ : BufTy).Contents (Elt F) → (⟨S4096x1, .i32⟩ : BufTy).Contents (Elt F) → (⟨S4096x128, .f32⟩ : BufTy).Contents (Elt F)),
    unary main_arg15 main_v41 ((transpose S300x128 [1, 0] · transposes_S128x300_S300x128_1_0) : (⟨S128x300, .f32⟩ : BufTy).Contents (Elt F) → (⟨S300x128, .f32⟩ : BufTy).Contents (Elt F)),
    binary main_arg5 main_v41 main_v42 ((fun l r => Host.dotGeneral dot_S4096x300_S300x128_S4096x128_1_0_0_1_n_n none l r) : (⟨S4096x300, .f32⟩ : BufTy).Contents (Elt F) → (⟨S300x128, .f32⟩ : BufTy).Contents (Elt F) → (⟨S4096x128, .f32⟩ : BufTy).Contents (Elt F)),
    unary main_arg16 main_v43 (broadcastInDim S1x128 ![1] bcast_S128_S1x128_1 : (⟨S128, .f32⟩ : BufTy).Contents (Elt F) → (⟨S1x128, .f32⟩ : BufTy).Contents (Elt F)),
    unary main_v43 main_v44 (broadcastInDim S4096x128 ![0, 1] bcast_S1x128_S4096x128_0_1 : (⟨S1x128, .f32⟩ : BufTy).Contents (Elt F) → (⟨S4096x128, .f32⟩ : BufTy).Contents (Elt F)),
    binary main_v42 main_v44 main_v45 (addf : (⟨S4096x128, .f32⟩ : BufTy).Contents (Elt F) → (⟨S4096x128, .f32⟩ : BufTy).Contents (Elt F) → (⟨S4096x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x128, .f32⟩) main_call2_v0) (broadcastInDim S4096x128 ![] bcast_S_S4096x128),
    TRef.binary (TRef.of (T := ⟨S4096x128, .f32⟩) main_v45) (TRef.of (T := ⟨S4096x128, .f32⟩) main_call2_v0) (TRef.of (T := ⟨S4096x128, .i1⟩) main_call2_v1) (cmpf .oge),
    TRef.nullary (TRef.of (T := ⟨S_, .f32⟩) main_call2_cst_0) (constant S_ .f32 0x3C23D70A#32),
    TRef.unary (TRef.of (T := ⟨S_, .f32⟩) main_call2_cst_0) (TRef.of (T := ⟨S4096x128, .f32⟩) main_call2_v2) (broadcastInDim S4096x128 ![] bcast_S_S4096x128),
    TRef.binary (TRef.of (T := ⟨S4096x128, .f32⟩) main_call2_v2) (TRef.of (T := ⟨S4096x128, .f32⟩) main_v45) (TRef.of (T := ⟨S4096x128, .f32⟩) main_call2_v3) mulf,
    TRef.ternary (TRef.of (T := ⟨S4096x128, .i1⟩) main_call2_v1) (TRef.of (T := ⟨S4096x128, .f32⟩) main_v45) (TRef.of (T := ⟨S4096x128, .f32⟩) main_call2_v3) (TRef.of (T := ⟨S4096x128, .f32⟩) main_v46) select,
    binary main_v40 main_v46 main_v47 (addf : (⟨S4096x128, .f32⟩ : BufTy).Contents (Elt F) → (⟨S4096x128, .f32⟩ : BufTy).Contents (Elt F) → (⟨S4096x128, .f32⟩ : BufTy).Contents (Elt F)) ]

/-- The first convolution: statements through `%81`, the rectifier's and the norm's calls inlined over their records. -/
abbrev opsC0 : List (HloOp τ sig (Elt F)) :=
  [ nullary main_c_8 (constantI S_ 32 0#32),
    unary main_c_8 main_v48 (broadcastInDim S409600 ![] bcast_S_S409600 : (⟨S_, .i32⟩ : BufTy).Contents (Elt F) → (⟨S409600, .i32⟩ : BufTy).Contents (Elt F)),
    binary main_arg6 main_v48 main_v49 (cmpi .slt : (⟨S409600, .i32⟩ : BufTy).Contents (Elt F) → (⟨S409600, .i32⟩ : BufTy).Contents (Elt F) → (⟨S409600, .i1⟩ : BufTy).Contents (Elt F)),
    nullary main_c_9 (constantI S_ 32 409600#32),
    unary main_c_9 main_v50 (broadcastInDim S409600 ![] bcast_S_S409600 : (⟨S_, .i32⟩ : BufTy).Contents (Elt F) → (⟨S409600, .i32⟩ : BufTy).Contents (Elt F)),
    binary main_arg6 main_v50 main_v51 (addi : (⟨S409600, .i32⟩ : BufTy).Contents (Elt F) → (⟨S409600, .i32⟩ : BufTy).Contents (Elt F) → (⟨S409600, .i32⟩ : BufTy).Contents (Elt F)),
    ternary main_v49 main_v51 main_arg6 main_v52 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v52 main_v53 (broadcastInDim S409600x1 ![0] bcast_S409600_S409600x1_0 : (⟨S409600, .i32⟩ : BufTy).Contents (Elt F) → (⟨S409600x1, .i32⟩ : BufTy).Contents (Elt F)),
    binary main_v15 main_v53 main_v54 ((fun x i => Host.gather gather_S409600x128_S409600x1_S409600x128_1_0_n_n_0_1_1128 x i) : (⟨S409600x128, .f32⟩ : BufTy).Contents (Elt F) → (⟨S409600x1, .i32⟩ : BufTy).Contents (Elt F) → (⟨S409600x128, .f32⟩ : BufTy).Contents (Elt F)),
    nullary main_cst (constant S_ .f32 0x00000000#32),
    unary main_cst main_v55 (broadcastInDim S40960x128 ![] bcast_S_S40960x128 : (⟨S_, .f32⟩ : BufTy).Contents (Elt F) → (⟨S40960x128, .f32⟩ : BufTy).Contents (Elt F)),
    unary main_arg7 main_v56 (broadcastInDim S409600x1 ![0] bcast_S409600_S409600x1_0 : (⟨S409600, .i32⟩ : BufTy).Contents (Elt F) → (⟨S409600x1, .i32⟩ : BufTy).Contents (Elt F)),
    ternary main_v55 main_v56 main_v54 main_v57 ((fun x i u => Host.scatterAdd scatter_S40960x128_S409600x1_S409600x128_1_0_0_1 x i u) : (⟨S40960x128, .f32⟩ : BufTy).Contents (Elt F) → (⟨S409600x1, .i32⟩ : BufTy).Contents (Elt F) → (⟨S409600x128, .f32⟩ : BufTy).Contents (Elt F) → (⟨S40960x128, .f32⟩ : BufTy).Contents (Elt F)),
    nullary main_cst_10 (constant S_ .f32 0x3F800000#32),
    unary main_cst_10 main_v58 (broadcastInDim S409600 ![] bcast_S_S409600 : (⟨S_, .f32⟩ : BufTy).Contents (Elt F) → (⟨S409600, .f32⟩ : BufTy).Contents (Elt F)),
    nullary main_cst_11 (constant S_ .f32 0x00000000#32),
    unary main_cst_11 main_v59 (broadcastInDim S40960 ![] bcast_S_S40960 : (⟨S_, .f32⟩ : BufTy).Contents (Elt F) → (⟨S40960, .f32⟩ : BufTy).Contents (Elt F)),
    unary main_arg7 main_v60 (broadcastInDim S409600x1 ![0] bcast_S409600_S409600x1_0 : (⟨S409600, .i32⟩ : BufTy).Contents (Elt F) → (⟨S409600x1, .i32⟩ : BufTy).Contents (Elt F)),
    ternary main_v59 main_v60 main_v58 main_v61 ((fun x i u => Host.scatterAdd scatter_S40960_S409600x1_S409600_n_0_0_1 x i u) : (⟨S40960, .f32⟩ : BufTy).Contents (Elt F) → (⟨S409600x1, .i32⟩ : BufTy).Contents (Elt F) → (⟨S409600, .f32⟩ : BufTy).Contents (Elt F) → (⟨S40960, .f32⟩ : BufTy).Contents (Elt F)),
    binary main_v57 main_v31 main_v62 (subf : (⟨S40960x128, .f32⟩ : BufTy).Contents (Elt F) → (⟨S40960x128, .f32⟩ : BufTy).Contents (Elt F) → (⟨S40960x128, .f32⟩ : BufTy).Contents (Elt F)),
    nullary main_cst_12 (constant S_ .f32 0x3F800000#32),
    unary main_cst_12 main_v63 (broadcastInDim S40960 ![] bcast_S_S40960 : (⟨S_, .f32⟩ : BufTy).Contents (Elt F) → (⟨S40960, .f32⟩ : BufTy).Contents (Elt F)),
    binary main_v61 main_v63 main_v64 (subf : (⟨S40960, .f32⟩ : BufTy).Contents (Elt F) → (⟨S40960, .f32⟩ : BufTy).Contents (Elt F) → (⟨S40960, .f32⟩ : BufTy).Contents (Elt F)),
    nullary main_cst_13 (constant S_ .f32 0x3F800000#32),
    unary main_cst_13 main_v65 (broadcastInDim S40960 ![] bcast_S_S40960 : (⟨S_, .f32⟩ : BufTy).Contents (Elt F) → (⟨S40960, .f32⟩ : BufTy).Contents (Elt F)),
    binary main_v64 main_v65 main_v66 (maximumf : (⟨S40960, .f32⟩ : BufTy).Contents (Elt F) → (⟨S40960, .f32⟩ : BufTy).Contents (Elt F) → (⟨S40960, .f32⟩ : BufTy).Contents (Elt F)),
    unary main_v66 main_v67 (broadcastInDim S40960x1 ![0] bcast_S40960_S40960x1_0 : (⟨S40960, .f32⟩ : BufTy).Contents (Elt F) → (⟨S40960x1, .f32⟩ : BufTy).Contents (Elt F)),
    unary main_v67 main_v68 (broadcastInDim S40960x128 ![0, 1] bcast_S40960x1_S40960x128_0_1 : (⟨S40960x1, .f32⟩ : BufTy).Contents (Elt F) → (⟨S40960x128, .f32⟩ : BufTy).Contents (Elt F)),
    binary main_v62 main_v68 main_v69 (Host.divf : (⟨S40960x128, .f32⟩ : BufTy).Contents (Elt F) → (⟨S40960x128, .f32⟩ : BufTy).Contents (Elt F) → (⟨S40960x128, .f32⟩ : BufTy).Contents (Elt F)),
    binary main_v31 main_v69 main_v70 ((fun a b => concatenate S40960x256 1 [⟨S40960x128, a⟩, ⟨S40960x128, b⟩] concatenates_S40960x128_S40960x128_S40960x256_d1) : (⟨S40960x128, .f32⟩ : BufTy).Contents (Elt F) → (⟨S40960x128, .f32⟩ : BufTy).Contents (Elt F) → (⟨S40960x256, .f32⟩ : BufTy).Contents (Elt F)),
    unary main_arg17 main_v71 ((transpose S256x128 [1, 0] · transposes_S128x256_S256x128_1_0) : (⟨S128x256, .f32⟩ : BufTy).Contents (Elt F) → (⟨S256x128, .f32⟩ : BufTy).Contents (Elt F)),
    binary main_v70 main_v71 main_v72 ((fun l r => Host.dotGeneral dot_S40960x256_S256x128_S40960x128_1_0_0_1_n_n none l r) : (⟨S40960x256, .f32⟩ : BufTy).Contents (Elt F) → (⟨S256x128, .f32⟩ : BufTy).Contents (Elt F) → (⟨S40960x128, .f32⟩ : BufTy).Contents (Elt F)),
    unary main_arg18 main_v73 (broadcastInDim S1x128 ![1] bcast_S128_S1x128_1 : (⟨S128, .f32⟩ : BufTy).Contents (Elt F) → (⟨S1x128, .f32⟩ : BufTy).Contents (Elt F)),
    unary main_v73 main_v74 (broadcastInDim S40960x128 ![0, 1] bcast_S1x128_S40960x128_0_1 : (⟨S1x128, .f32⟩ : BufTy).Contents (Elt F) → (⟨S40960x128, .f32⟩ : BufTy).Contents (Elt F)),
    binary main_v72 main_v74 main_v75 (addf : (⟨S40960x128, .f32⟩ : BufTy).Contents (Elt F) → (⟨S40960x128, .f32⟩ : BufTy).Contents (Elt F) → (⟨S40960x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S40960x128, .f32⟩) main_call3_v0) (broadcastInDim S40960x128 ![] bcast_S_S40960x128),
    TRef.binary (TRef.of (T := ⟨S40960x128, .f32⟩) main_v75) (TRef.of (T := ⟨S40960x128, .f32⟩) main_call3_v0) (TRef.of (T := ⟨S40960x128, .i1⟩) main_call3_v1) (cmpf .oge),
    TRef.nullary (TRef.of (T := ⟨S_, .f32⟩) main_call3_cst_0) (constant S_ .f32 0x3C23D70A#32),
    TRef.unary (TRef.of (T := ⟨S_, .f32⟩) main_call3_cst_0) (TRef.of (T := ⟨S40960x128, .f32⟩) main_call3_v2) (broadcastInDim S40960x128 ![] bcast_S_S40960x128),
    TRef.binary (TRef.of (T := ⟨S40960x128, .f32⟩) main_call3_v2) (TRef.of (T := ⟨S40960x128, .f32⟩) main_v75) (TRef.of (T := ⟨S40960x128, .f32⟩) main_call3_v3) mulf,
    TRef.ternary (TRef.of (T := ⟨S40960x128, .i1⟩) main_call3_v1) (TRef.of (T := ⟨S40960x128, .f32⟩) main_v75) (TRef.of (T := ⟨S40960x128, .f32⟩) main_call3_v3) (TRef.of (T := ⟨S40960x128, .f32⟩) main_v76) select,
    TRef.binary (TRef.of (T := ⟨S40960x128, .f32⟩) main_v76) (TRef.of (T := ⟨S40960x128, .f32⟩) main_v76) (TRef.of (T := ⟨S40960x128, .f32⟩) main_call4_v0) mulf,
    TRef.nullary (TRef.of (T := ⟨S_, .f32⟩) main_call4_cst) (constant S_ .f32 0x00000000#32),
    TRef.binary (TRef.of (T := ⟨S40960x128, .f32⟩) main_call4_v0) (TRef.of (T := ⟨S_, .f32⟩) main_call4_cst) (TRef.of (T := ⟨S40960, .f32⟩) main_call4_v1) (fun x v => Host.reduceAdd x v reducesTo_S40960x128_S40960_d1 h_S_),
    TRef.unary (TRef.of (T := ⟨S40960, .f32⟩) main_call4_v1) (TRef.of (T := ⟨S40960x1, .f32⟩) main_call4_v2) (broadcastInDim S40960x1 ![0] bcast_S40960_S40960x1_0),
    TRef.unary (TRef.of (T := ⟨S40960x1, .f32⟩) main_call4_v2) (TRef.of (T := ⟨S40960x1, .f32⟩) main_v77) Host.sqrt,
    nullary main_cst_14 (constant S_ .f32 0x358637BD#32),
    unary main_cst_14 main_v78 (broadcastInDim S40960x1 ![] bcast_S_S40960x1 : (⟨S_, .f32⟩ : BufTy).Contents (Elt F) → (⟨S40960x1, .f32⟩ : BufTy).Contents (Elt F)),
    binary main_v77 main_v78 main_v79 (maximumf : (⟨S40960x1, .f32⟩ : BufTy).Contents (Elt F) → (⟨S40960x1, .f32⟩ : BufTy).Contents (Elt F) → (⟨S40960x1, .f32⟩ : BufTy).Contents (Elt F)),
    unary main_v79 main_v80 (broadcastInDim S40960x128 ![0, 1] bcast_S40960x1_S40960x128_0_1 : (⟨S40960x1, .f32⟩ : BufTy).Contents (Elt F) → (⟨S40960x128, .f32⟩ : BufTy).Contents (Elt F)),
    binary main_v76 main_v80 main_v81 (Host.divf : (⟨S40960x128, .f32⟩ : BufTy).Contents (Elt F) → (⟨S40960x128, .f32⟩ : BufTy).Contents (Elt F) → (⟨S40960x128, .f32⟩ : BufTy).Contents (Elt F)) ]

/-- The second convolution: statements through `%115`. -/
abbrev opsC1 : List (HloOp τ sig (Elt F)) :=
  [ nullary main_c_15 (constantI S_ 32 0#32),
    unary main_c_15 main_v82 (broadcastInDim S40960 ![] bcast_S_S40960 : (⟨S_, .i32⟩ : BufTy).Contents (Elt F) → (⟨S40960, .i32⟩ : BufTy).Contents (Elt F)),
    binary main_arg8 main_v82 main_v83 (cmpi .slt : (⟨S40960, .i32⟩ : BufTy).Contents (Elt F) → (⟨S40960, .i32⟩ : BufTy).Contents (Elt F) → (⟨S40960, .i1⟩ : BufTy).Contents (Elt F)),
    nullary main_c_16 (constantI S_ 32 40960#32),
    unary main_c_16 main_v84 (broadcastInDim S40960 ![] bcast_S_S40960 : (⟨S_, .i32⟩ : BufTy).Contents (Elt F) → (⟨S40960, .i32⟩ : BufTy).Contents (Elt F)),
    binary main_arg8 main_v84 main_v85 (addi : (⟨S40960, .i32⟩ : BufTy).Contents (Elt F) → (⟨S40960, .i32⟩ : BufTy).Contents (Elt F) → (⟨S40960, .i32⟩ : BufTy).Contents (Elt F)),
    ternary main_v83 main_v85 main_arg8 main_v86 (select : (⟨S40960, .i1⟩ : BufTy).Contents (Elt F) → (⟨S40960, .i32⟩ : BufTy).Contents (Elt F) → (⟨S40960, .i32⟩ : BufTy).Contents (Elt F) → (⟨S40960, .i32⟩ : BufTy).Contents (Elt F)),
    unary main_v86 main_v87 (broadcastInDim S40960x1 ![0] bcast_S40960_S40960x1_0 : (⟨S40960, .i32⟩ : BufTy).Contents (Elt F) → (⟨S40960x1, .i32⟩ : BufTy).Contents (Elt F)),
    binary main_v81 main_v87 main_v88 ((fun x i => Host.gather gather_S40960x128_S40960x1_S40960x128_1_0_n_n_0_1_1128 x i) : (⟨S40960x128, .f32⟩ : BufTy).Contents (Elt F) → (⟨S40960x1, .i32⟩ : BufTy).Contents (Elt F) → (⟨S40960x128, .f32⟩ : BufTy).Contents (Elt F)),
    nullary main_cst_17 (constant S_ .f32 0x00000000#32),
    unary main_cst_17 main_v89 (broadcastInDim S4096x128 ![] bcast_S_S4096x128 : (⟨S_, .f32⟩ : BufTy).Contents (Elt F) → (⟨S4096x128, .f32⟩ : BufTy).Contents (Elt F)),
    unary main_arg9 main_v90 (broadcastInDim S40960x1 ![0] bcast_S40960_S40960x1_0 : (⟨S40960, .i32⟩ : BufTy).Contents (Elt F) → (⟨S40960x1, .i32⟩ : BufTy).Contents (Elt F)),
    ternary main_v89 main_v90 main_v88 main_v91 ((fun x i u => Host.scatterAdd scatter_S4096x128_S40960x1_S40960x128_1_0_0_1 x i u) : (⟨S4096x128, .f32⟩ : BufTy).Contents (Elt F) → (⟨S40960x1, .i32⟩ : BufTy).Contents (Elt F) → (⟨S40960x128, .f32⟩ : BufTy).Contents (Elt F) → (⟨S4096x128, .f32⟩ : BufTy).Contents (Elt F)),
    nullary main_cst_18 (constant S_ .f32 0x3F800000#32),
    unary main_cst_18 main_v92 (broadcastInDim S40960 ![] bcast_S_S40960 : (⟨S_, .f32⟩ : BufTy).Contents (Elt F) → (⟨S40960, .f32⟩ : BufTy).Contents (Elt F)),
    nullary main_cst_19 (constant S_ .f32 0x00000000#32),
    unary main_cst_19 main_v93 (broadcastInDim S4096 ![] bcast_S_S4096 : (⟨S_, .f32⟩ : BufTy).Contents (Elt F) → (⟨S4096, .f32⟩ : BufTy).Contents (Elt F)),
    unary main_arg9 main_v94 (broadcastInDim S40960x1 ![0] bcast_S40960_S40960x1_0 : (⟨S40960, .i32⟩ : BufTy).Contents (Elt F) → (⟨S40960x1, .i32⟩ : BufTy).Contents (Elt F)),
    ternary main_v93 main_v94 main_v92 main_v95 ((fun x i u => Host.scatterAdd scatter_S4096_S40960x1_S40960_n_0_0_1 x i u) : (⟨S4096, .f32⟩ : BufTy).Contents (Elt F) → (⟨S40960x1, .i32⟩ : BufTy).Contents (Elt F) → (⟨S40960, .f32⟩ : BufTy).Contents (Elt F) → (⟨S4096, .f32⟩ : BufTy).Contents (Elt F)),
    binary main_v91 main_v47 main_v96 (subf : (⟨S4096x128, .f32⟩ : BufTy).Contents (Elt F) → (⟨S4096x128, .f32⟩ : BufTy).Contents (Elt F) → (⟨S4096x128, .f32⟩ : BufTy).Contents (Elt F)),
    nullary main_cst_20 (constant S_ .f32 0x3F800000#32),
    unary main_cst_20 main_v97 (broadcastInDim S4096 ![] bcast_S_S4096 : (⟨S_, .f32⟩ : BufTy).Contents (Elt F) → (⟨S4096, .f32⟩ : BufTy).Contents (Elt F)),
    binary main_v95 main_v97 main_v98 (subf : (⟨S4096, .f32⟩ : BufTy).Contents (Elt F) → (⟨S4096, .f32⟩ : BufTy).Contents (Elt F) → (⟨S4096, .f32⟩ : BufTy).Contents (Elt F)),
    nullary main_cst_21 (constant S_ .f32 0x3F800000#32),
    unary main_cst_21 main_v99 (broadcastInDim S4096 ![] bcast_S_S4096 : (⟨S_, .f32⟩ : BufTy).Contents (Elt F) → (⟨S4096, .f32⟩ : BufTy).Contents (Elt F)),
    binary main_v98 main_v99 main_v100 (maximumf : (⟨S4096, .f32⟩ : BufTy).Contents (Elt F) → (⟨S4096, .f32⟩ : BufTy).Contents (Elt F) → (⟨S4096, .f32⟩ : BufTy).Contents (Elt F)),
    unary main_v100 main_v101 (broadcastInDim S4096x1 ![0] bcast_S4096_S4096x1_0 : (⟨S4096, .f32⟩ : BufTy).Contents (Elt F) → (⟨S4096x1, .f32⟩ : BufTy).Contents (Elt F)),
    unary main_v101 main_v102 (broadcastInDim S4096x128 ![0, 1] bcast_S4096x1_S4096x128_0_1 : (⟨S4096x1, .f32⟩ : BufTy).Contents (Elt F) → (⟨S4096x128, .f32⟩ : BufTy).Contents (Elt F)),
    binary main_v96 main_v102 main_v103 (Host.divf : (⟨S4096x128, .f32⟩ : BufTy).Contents (Elt F) → (⟨S4096x128, .f32⟩ : BufTy).Contents (Elt F) → (⟨S4096x128, .f32⟩ : BufTy).Contents (Elt F)),
    binary main_v47 main_v103 main_v104 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    unary main_arg19 main_v105 ((transpose S256x128 [1, 0] · transposes_S128x256_S256x128_1_0) : (⟨S128x256, .f32⟩ : BufTy).Contents (Elt F) → (⟨S256x128, .f32⟩ : BufTy).Contents (Elt F)),
    binary main_v104 main_v105 main_v106 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    unary main_arg20 main_v107 (broadcastInDim S1x128 ![1] bcast_S128_S1x128_1 : (⟨S128, .f32⟩ : BufTy).Contents (Elt F) → (⟨S1x128, .f32⟩ : BufTy).Contents (Elt F)),
    unary main_v107 main_v108 (broadcastInDim S4096x128 ![0, 1] bcast_S1x128_S4096x128_0_1 : (⟨S1x128, .f32⟩ : BufTy).Contents (Elt F) → (⟨S4096x128, .f32⟩ : BufTy).Contents (Elt F)),
    binary main_v106 main_v108 main_v109 (addf : (⟨S4096x128, .f32⟩ : BufTy).Contents (Elt F) → (⟨S4096x128, .f32⟩ : BufTy).Contents (Elt F) → (⟨S4096x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S4096x128, .f32⟩) main_call5_v0) (broadcastInDim S4096x128 ![] bcast_S_S4096x128),
    TRef.binary (TRef.of (T := ⟨S4096x128, .f32⟩) main_v109) (TRef.of (T := ⟨S4096x128, .f32⟩) main_call5_v0) (TRef.of (T := ⟨S4096x128, .i1⟩) main_call5_v1) (cmpf .oge),
    TRef.nullary (TRef.of (T := ⟨S_, .f32⟩) main_call5_cst_0) (constant S_ .f32 0x3C23D70A#32),
    TRef.unary (TRef.of (T := ⟨S_, .f32⟩) main_call5_cst_0) (TRef.of (T := ⟨S4096x128, .f32⟩) main_call5_v2) (broadcastInDim S4096x128 ![] bcast_S_S4096x128),
    TRef.binary (TRef.of (T := ⟨S4096x128, .f32⟩) main_call5_v2) (TRef.of (T := ⟨S4096x128, .f32⟩) main_v109) (TRef.of (T := ⟨S4096x128, .f32⟩) main_call5_v3) mulf,
    TRef.ternary (TRef.of (T := ⟨S4096x128, .i1⟩) main_call5_v1) (TRef.of (T := ⟨S4096x128, .f32⟩) main_v109) (TRef.of (T := ⟨S4096x128, .f32⟩) main_call5_v3) (TRef.of (T := ⟨S4096x128, .f32⟩) main_v110) select,
    TRef.binary (TRef.of (T := ⟨S4096x128, .f32⟩) main_v110) (TRef.of (T := ⟨S4096x128, .f32⟩) main_v110) (TRef.of (T := ⟨S4096x128, .f32⟩) main_call6_v0) mulf,
    TRef.nullary (TRef.of (T := ⟨S_, .f32⟩) main_call6_cst) (constant S_ .f32 0x00000000#32),
    TRef.binary (TRef.of (T := ⟨S4096x128, .f32⟩) main_call6_v0) (TRef.of (T := ⟨S_, .f32⟩) main_call6_cst) (TRef.of (T := ⟨S4096, .f32⟩) main_call6_v1) (fun x v => Host.reduceAdd x v reducesTo_S4096x128_S4096_d1 h_S_),
    TRef.unary (TRef.of (T := ⟨S4096, .f32⟩) main_call6_v1) (TRef.of (T := ⟨S4096x1, .f32⟩) main_call6_v2) (broadcastInDim S4096x1 ![0] bcast_S4096_S4096x1_0),
    TRef.unary (TRef.of (T := ⟨S4096x1, .f32⟩) main_call6_v2) (TRef.of (T := ⟨S4096x1, .f32⟩) main_v111) Host.sqrt,
    nullary main_cst_22 (constant S_ .f32 0x358637BD#32),
    unary main_cst_22 main_v112 (broadcastInDim S4096x1 ![] bcast_S_S4096x1 : (⟨S_, .f32⟩ : BufTy).Contents (Elt F) → (⟨S4096x1, .f32⟩ : BufTy).Contents (Elt F)),
    binary main_v111 main_v112 main_v113 (maximumf : (⟨S4096x1, .f32⟩ : BufTy).Contents (Elt F) → (⟨S4096x1, .f32⟩ : BufTy).Contents (Elt F) → (⟨S4096x1, .f32⟩ : BufTy).Contents (Elt F)),
    unary main_v113 main_v114 (broadcastInDim S4096x128 ![0, 1] bcast_S4096x1_S4096x128_0_1 : (⟨S4096x1, .f32⟩ : BufTy).Contents (Elt F) → (⟨S4096x128, .f32⟩ : BufTy).Contents (Elt F)),
    binary main_v110 main_v114 main_v115 (Host.divf : (⟨S4096x128, .f32⟩ : BufTy).Contents (Elt F) → (⟨S4096x128, .f32⟩ : BufTy).Contents (Elt F) → (⟨S4096x128, .f32⟩ : BufTy).Contents (Elt F)) ]

/-- @main's operations, in order. -/
abbrev ops : List (HloOp τ sig (Elt F)) := opsE0 ++ opsE1 ++ opsE2 ++ opsC0 ++ opsC1

/-! ## @main is that line

The printed windows cut the line by count; the stages cut it by meaning. Both cuts are of one list. -/

/-- The first printed window's operations. -/
def win0 : List (HloOp τ sig (Elt F)) := opsE0 ++ opsE1 ++ opsE2 ++ opsC0.take 3
/-- The second printed window's operations. -/
def win1 : List (HloOp τ sig (Elt F)) := opsC0.drop 3 ++ opsC1.take 21
/-- The third printed window's operations. -/
def win2 : List (HloOp τ sig (Elt F)) := opsC1.drop 21

set_option maxRecDepth 8192 in
theorem main_part0_eq (c : Dev nD) : main_part0 (F := F) c = seq win0 := rfl
set_option maxRecDepth 8192 in
theorem main_part1_eq (c : Dev nD) : main_part1 (F := F) c = seq win1 := rfl
set_option maxRecDepth 8192 in
theorem main_part2_eq (c : Dev nD) : main_part2 (F := F) c = seq win2 := rfl

set_option maxRecDepth 8192 in
theorem ops_eq_windows : (ops : List (HloOp τ sig (Elt F))) = win0 ++ (win1 ++ win2) := rfl

/-- @main runs its three windows in order, and the windows' lists laid end to end are `ops`. -/
theorem main_eq (c : Dev nD) : main (F := F) c = seq ops := by
  rw [ops_eq_windows, seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsE0_sub : (opsE0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub ..⟩
theorem opsE1_sub : (opsE1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub ..⟩
theorem opsE2_sub : (opsE2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub ..⟩
theorem opsC0_sub : (opsC0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., binary_bufs_sub .., nullary_bufs_sub .., unary_bufs_sub .., binary_bufs_sub .., nullary_bufs_sub ..,
    unary_bufs_sub .., binary_bufs_sub .., unary_bufs_sub .., unary_bufs_sub .., binary_bufs_sub .., binary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub .., nullary_bufs_sub .., binary_bufs_sub .., unary_bufs_sub .., unary_bufs_sub .., nullary_bufs_sub ..,
    unary_bufs_sub .., binary_bufs_sub .., unary_bufs_sub .., binary_bufs_sub ..⟩
theorem opsC1_sub : (opsC1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., binary_bufs_sub .., nullary_bufs_sub .., unary_bufs_sub .., binary_bufs_sub .., nullary_bufs_sub ..,
    unary_bufs_sub .., binary_bufs_sub .., unary_bufs_sub .., unary_bufs_sub .., binary_bufs_sub .., binary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub .., nullary_bufs_sub .., binary_bufs_sub .., unary_bufs_sub .., unary_bufs_sub .., nullary_bufs_sub ..,
    unary_bufs_sub .., binary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with (((h | h) | h) | h) | h
    exacts [List.forall_iff_forall_mem.mp opsE0_sub op h, List.forall_iff_forall_mem.mp opsE1_sub op h,
      List.forall_iff_forall_mem.mp opsE2_sub op h, List.forall_iff_forall_mem.mp opsC0_sub op h,
      List.forall_iff_forall_mem.mp opsC1_sub op h]

/-! ## What each stage writes, and what it therefore keeps -/

/-- Two lines folded one after the other are their concatenation folded. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The buffers stage `opsE0` writes. -/
abbrev opsE0_W : List (Ref sig .tc) := [main_c, main_v0, main_v1, main_c_0, main_v2, main_v3, main_c_1, main_v4, main_v5, main_v6, main_v7, main_v8, main_v9, main_v10, main_v11, main_v12, main_v13, main_call0_cst, main_call0_v0, main_call0_v1, main_call0_cst_0, main_call0_v2, main_call0_v3, main_v14, main_v15]
theorem opsE0_writes : (opsE0 : List (HloOp τ sig (Elt F))).Forall fun op =>
    op.writes ⊆ (opsE0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))
/-- A buffer stage `opsE0` does not write keeps its contents through it. -/
theorem opsE0_keep (V : Valuation τ sig (Elt F)) (r : Ref sig .tc) (h : r ∉ opsE0_W) :
    after opsE0 V (Proc.devRef .tc r) = V (Proc.devRef .tc r) :=
  after_of_writes_sub opsE0 V opsE0_writes h

/-- The buffers stage `opsE1` writes. -/
abbrev opsE1_W : List (Ref sig .tc) := [main_c_2, main_v16, main_v17, main_c_3, main_v18, main_v19, main_c_4, main_v20, main_v21, main_v22, main_v23, main_v24, main_v25, main_v26, main_v27, main_v28, main_v29, main_call1_cst, main_call1_v0, main_call1_v1, main_call1_cst_0, main_call1_v2, main_call1_v3, main_v30, main_v31]
theorem opsE1_writes : (opsE1 : List (HloOp τ sig (Elt F))).Forall fun op =>
    op.writes ⊆ (opsE1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))
/-- A buffer stage `opsE1` does not write keeps its contents through it. -/
theorem opsE1_keep (V : Valuation τ sig (Elt F)) (r : Ref sig .tc) (h : r ∉ opsE1_W) :
    after opsE1 V (Proc.devRef .tc r) = V (Proc.devRef .tc r) :=
  after_of_writes_sub opsE1 V opsE1_writes h

/-- The buffers stage `opsE2` writes. -/
abbrev opsE2_W : List (Ref sig .tc) := [main_c_5, main_v32, main_v33, main_c_6, main_v34, main_v35, main_c_7, main_v36, main_v37, main_v38, main_v39, main_v40, main_v41, main_v42, main_v43, main_v44, main_v45, main_call2_cst, main_call2_v0, main_call2_v1, main_call2_cst_0, main_call2_v2, main_call2_v3, main_v46, main_v47]
theorem opsE2_writes : (opsE2 : List (HloOp τ sig (Elt F))).Forall fun op =>
    op.writes ⊆ (opsE2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))
/-- A buffer stage `opsE2` does not write keeps its contents through it. -/
theorem opsE2_keep (V : Valuation τ sig (Elt F)) (r : Ref sig .tc) (h : r ∉ opsE2_W) :
    after opsE2 V (Proc.devRef .tc r) = V (Proc.devRef .tc r) :=
  after_of_writes_sub opsE2 V opsE2_writes h

/-- The buffers stage `opsC0` writes. -/
abbrev opsC0_W : List (Ref sig .tc) := [main_c_8, main_v48, main_v49, main_c_9, main_v50, main_v51, main_v52, main_v53, main_v54, main_cst, main_v55, main_v56, main_v57, main_cst_10, main_v58, main_cst_11, main_v59, main_v60, main_v61, main_v62, main_cst_12, main_v63, main_v64, main_cst_13, main_v65, main_v66, main_v67, main_v68, main_v69, main_v70, main_v71, main_v72, main_v73, main_v74, main_v75, main_call3_cst, main_call3_v0, main_call3_v1, main_call3_cst_0, main_call3_v2, main_call3_v3, main_v76, main_call4_v0, main_call4_cst, main_call4_v1, main_call4_v2, main_v77, main_cst_14, main_v78, main_v79, main_v80, main_v81]
theorem opsC0_writes : (opsC0 : List (HloOp τ sig (Elt F))).Forall fun op =>
    op.writes ⊆ (opsC0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))
/-- A buffer stage `opsC0` does not write keeps its contents through it. -/
theorem opsC0_keep (V : Valuation τ sig (Elt F)) (r : Ref sig .tc) (h : r ∉ opsC0_W) :
    after opsC0 V (Proc.devRef .tc r) = V (Proc.devRef .tc r) :=
  after_of_writes_sub opsC0 V opsC0_writes h

/-- The buffers stage `opsC1` writes. -/
abbrev opsC1_W : List (Ref sig .tc) := [main_c_15, main_v82, main_v83, main_c_16, main_v84, main_v85, main_v86, main_v87, main_v88, main_cst_17, main_v89, main_v90, main_v91, main_cst_18, main_v92, main_cst_19, main_v93, main_v94, main_v95, main_v96, main_cst_20, main_v97, main_v98, main_cst_21, main_v99, main_v100, main_v101, main_v102, main_v103, main_v104, main_v105, main_v106, main_v107, main_v108, main_v109, main_call5_cst, main_call5_v0, main_call5_v1, main_call5_cst_0, main_call5_v2, main_call5_v3, main_v110, main_call6_v0, main_call6_cst, main_call6_v1, main_call6_v2, main_v111, main_cst_22, main_v112, main_v113, main_v114, main_v115]
theorem opsC1_writes : (opsC1 : List (HloOp τ sig (Elt F))).Forall fun op =>
    op.writes ⊆ (opsC1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))
/-- A buffer stage `opsC1` does not write keeps its contents through it. -/
theorem opsC1_keep (V : Valuation τ sig (Elt F)) (r : Ref sig .tc) (h : r ∉ opsC1_W) :
    after opsC1 V (Proc.devRef .tc r) = V (Proc.devRef .tc r) :=
  after_of_writes_sub opsC1 V opsC1_writes h

/-- The whole line as the stages folded in order. -/
theorem after_ops (V : Valuation τ sig (Elt F)) :
    after ops V = after opsC1 (after opsC0 (after opsE2 (after opsE1 (after opsE0 V)))) := by
  show after ((((opsE0 ++ opsE1) ++ opsE2) ++ opsC0) ++ opsC1) V = _
  rw [after_append, after_append, after_append, after_append]

/-- A buffer no stage writes keeps its contents through the whole line. -/
theorem ops_keep (V : Valuation τ sig (Elt F)) (r : Ref sig .tc) (h0 : r ∉ opsE0_W) (h1 : r ∉ opsE1_W) (h2 : r ∉ opsE2_W)
    (h3 : r ∉ opsC0_W) (h4 : r ∉ opsC1_W) : after ops V (Proc.devRef .tc r) = V (Proc.devRef .tc r) := by
  rw [after_ops, opsC1_keep _ r h4, opsC0_keep _ r h3, opsE2_keep _ r h2, opsE1_keep _ r h1, opsE0_keep _ r h0]

/-! ## The run -/

/-- No operation of the line allocates: each determines its results. -/
theorem ops_fresh : ∀ op ∈ (ops : List (HloOp τ sig (Elt F))), op.fresh = ∅ := by
  intro op h
  simp only [ops, List.mem_append] at h
  rcases h with (((h | h) | h) | h) | h <;>
    ((repeat (cases h with | head => rfl | tail _ h => ?_)); exact nomatch h)

/-- On every device, from any memory with zero counters: every weakly fair execution of @main terminates with the
    result buffer at the fold of the operations over the launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v115) = StableHlo.after (ops : List (HloOp τ sig (Elt Ideal))) (fun b => m (c, b)) (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run (defs (F := Ideal)) _ _).mono (fun _ h c => ⟨h c main_v115,
      (h c main_arg0).trans (ops_keep _ main_arg0 (by decide) (by decide) (by decide) (by decide) (by decide)),
      (h c main_arg1).trans (ops_keep _ main_arg1 (by decide) (by decide) (by decide) (by decide) (by decide)),
      (h c main_arg2).trans (ops_keep _ main_arg2 (by decide) (by decide) (by decide) (by decide) (by decide)),
      (h c main_arg3).trans (ops_keep _ main_arg3 (by decide) (by decide) (by decide) (by decide) (by decide)),
      (h c main_arg4).trans (ops_keep _ main_arg4 (by decide) (by decide) (by decide) (by decide) (by decide)),
      (h c main_arg5).trans (ops_keep _ main_arg5 (by decide) (by decide) (by decide) (by decide) (by decide)),
      (h c main_arg6).trans (ops_keep _ main_arg6 (by decide) (by decide) (by decide) (by decide) (by decide)),
      (h c main_arg7).trans (ops_keep _ main_arg7 (by decide) (by decide) (by decide) (by decide) (by decide)),
      (h c main_arg8).trans (ops_keep _ main_arg8 (by decide) (by decide) (by decide) (by decide) (by decide)),
      (h c main_arg9).trans (ops_keep _ main_arg9 (by decide) (by decide) (by decide) (by decide) (by decide)),
      (h c main_arg10).trans (ops_keep _ main_arg10 (by decide) (by decide) (by decide) (by decide) (by decide)),
      (h c main_arg11).trans (ops_keep _ main_arg11 (by decide) (by decide) (by decide) (by decide) (by decide)),
      (h c main_arg12).trans (ops_keep _ main_arg12 (by decide) (by decide) (by decide) (by decide) (by decide)),
      (h c main_arg13).trans (ops_keep _ main_arg13 (by decide) (by decide) (by decide) (by decide) (by decide)),
      (h c main_arg14).trans (ops_keep _ main_arg14 (by decide) (by decide) (by decide) (by decide) (by decide)),
      (h c main_arg15).trans (ops_keep _ main_arg15 (by decide) (by decide) (by decide) (by decide) (by decide)),
      (h c main_arg16).trans (ops_keep _ main_arg16 (by decide) (by decide) (by decide) (by decide) (by decide)),
      (h c main_arg17).trans (ops_keep _ main_arg17 (by decide) (by decide) (by decide) (by decide) (by decide)),
      (h c main_arg18).trans (ops_keep _ main_arg18 (by decide) (by decide) (by decide) (by decide) (by decide)),
      (h c main_arg19).trans (ops_keep _ main_arg19 (by decide) (by decide) (by decide) (by decide) (by decide)),
      (h c main_arg20).trans (ops_keep _ main_arg20 (by decide) (by decide) (by decide) (by decide) (by decide))⟩)
    (run_seq scopedRefs_eq scopedSems_eq (defs (F := Ideal)) (main (F := Ideal)) (fun _ => (ops : List (HloOp τ sig (Elt Ideal))))
      (main_eq (F := Ideal)) (fun _ => ops_sub (F := Ideal)) m ρ (fun _ => ops_fresh (F := Ideal)))

end Cert.ReferenceIdeal.RefValue

end
-- ==== Proof.RefLayer.lean ====
/-
  The two layers' host terms read entry by entry, for any number of rows.

  An embedding layer's term is a table row plus the leaky rectifier of a matrix product plus a bias row; a
  convolution layer's term divides a neighbour sum less the own row by a floored count, lays it beside the own row,
  applies a matrix product, a bias and the rectifier, and divides each row by its floored Euclidean length. Each
  broadcast, concatenation, product and row sum is read at an index `(p, q)`, and the results are the two
  whole-array functions of the shared interface.
-/
import proofs.«171769_j36816459662034_1_alg».proof.Proof.SpecArr
import proofs.«171769_j36816459662034_1_alg».proof.Proof.LibDotSum
import Idealize.ShloMosaic.Lib.IdealHost
import Idealize.ShloMosaic.Lib.ValueLayout
import Idealize.ShloMosaic.Lib.Pipeline.Value

noncomputable section

open scoped BigOperators

namespace Cert.RefLayer

open Idealize.ShloMosaic Idealize.ShloMosaic.ValueIdx

/-- A scalar constant broadcast to any shape reads its word everywhere. -/
theorem splat_apply {T : Shape} (h : (⟨0, ![]⟩ : Shape).BroadcastsInDim T ![]) (w : BitVec FTy.f32.bits) (j : T.Idx) :
    broadcastInDim T ![] h (constant (F := Ideal) ⟨0, ![]⟩ .f32 w) j = Ideal.ofBits .f32 w := by
  rw [broadcastInDim_scalar_apply]; rfl

/-- The rectifier as the reference spells it — compare with a zero splat, select the entry or the slope splat times
    it — is the leaky rectifier of the entry. -/
theorem leaky_apply {T : Shape} (h : (⟨0, ![]⟩ : Shape).BroadcastsInDim T ![]) (X : FVec Ideal T .f32) (j : T.Idx) :
    select (cmpf .oge X (broadcastInDim T ![] h (constant (F := Ideal) ⟨0, ![]⟩ .f32 0x00000000#32))) X
      (mulf (broadcastInDim T ![] h (constant (F := Ideal) ⟨0, ![]⟩ .f32 0x3C23D70A#32)) X) j = Cert.Spec.leaky (X j) := by
  rw [select_apply, cmpf_apply, mulf_apply, splat_apply, splat_apply]; rfl

/-- A bias vector made a row and the row repeated down `n` rows reads, at `(p, q)`, the vector at `q`. -/
theorem bias_apply {n : ℕ} (h1 : (⟨1, ![128]⟩ : Shape).BroadcastsInDim ⟨2, ![1, 128]⟩ ![1])
    (h2 : (⟨2, ![1, 128]⟩ : Shape).BroadcastsInDim ⟨2, ![n, 128]⟩ ![0, 1]) (b : (⟨1, ![128]⟩ : Shape).Idx → EReal)
    (p : Fin n) (q : Fin 128) :
    broadcastInDim ⟨2, ![n, 128]⟩ ![0, 1] h2 (broadcastInDim ⟨2, ![1, 128]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ => rfl
  · match a with
    | ⟨0, _⟩ => rfl

/-- A vector of `n` entries made a column reads, at `(p, u)`, the vector at `p`. -/
theorem col_apply {n : ℕ} {α : Type} (h1 : (⟨1, ![n]⟩ : Shape).BroadcastsInDim ⟨2, ![n, 1]⟩ ![0])
    (y : (⟨1, ![n]⟩ : Shape).Idx → α) (p : Fin n) (u : Fin 1) :
    broadcastInDim ⟨2, ![n, 1]⟩ ![0] h1 y (ix2 p u) = y (ix1 p) := by
  refine broadcastInDim_apply _ h1 y (ix2 p u) (ix1 p) fun a => ?_
  match a with
  | ⟨0, _⟩ =>
    show p.val = if n = 1 then 0 else p.val
    split
    · have := p.isLt; omega
    · rfl

/-- A column repeated along 128 features reads, at `(p, q)`, the column at `(p, 0)`. -/
theorem row_of_col_apply {n : ℕ} {α : Type} (h2 : (⟨2, ![n, 1]⟩ : Shape).BroadcastsInDim ⟨2, ![n, 128]⟩ ![0, 1])
    (Y : (⟨2, ![n, 1]⟩ : Shape).Idx → α) (p : Fin n) (q : Fin 128) :
    broadcastInDim ⟨2, ![n, 128]⟩ ![0, 1] h2 Y (ix2 p q) = Y (ix2 p (0 : Fin 1)) := by
  refine broadcastInDim_apply _ h2 Y (ix2 p q) (ix2 p (0 : Fin 1)) fun a => ?_
  match a with
  | ⟨0, _⟩ =>
    show p.val = if n = 1 then 0 else p.val
    split
    · have := p.isLt; omega
    · rfl
  | ⟨1, _⟩ => rfl

/-- A product of an `[n, K]` array with a `[K, 128]` array, contracting the `K` axis, read at `(p, q)`. -/
theorem dot_apply {n K : ℕ} (D : DotDims ⟨2, ![n, K]⟩ ⟨2, ![K, 128]⟩ ⟨2, ![n, 128]⟩)
    (hr : D.contr.rank = 1) (hs : D.contr.size ⟨0, by omega⟩ = K)
    (hlc : D.lhsContracting = [1]) (hrc : D.rhsContracting = [0])
    (hl0 : ∀ j k, (D.lhsIdx j k 0).val = (j 0).val) (hr1 : ∀ j k, (D.rhsIdx j k 1).val = (j 1).val)
    (l : FVec Ideal ⟨2, ![n, K]⟩ .f32) (r : FVec Ideal ⟨2, ![K, 128]⟩ .f32) (p : Fin n) (q : Fin 128) :
    Host.dotGeneral D none l r (ix2 p q) = ∑ k : Fin K, l (ix2 p k) * r (ix2 k q) := by
  show FloatOps.dotGeneral D none .single l r (ix2 p q) = _
  rw [Ideal.dotGeneral_apply]
  refine LibDotSum.sum_single D K hr hs l r (ix2 p q) _ _ (fun k => congrArg l ?_) (fun k => congrArg r ?_)
  · funext a
    match a with
    | ⟨0, _⟩ => exact Fin.ext (hl0 (ix2 p q) _)
    | ⟨1, _⟩ => exact Fin.ext (LibDotSum.lhs_contr_val D K hr hs hlc (ix2 p q) k)
  · funext a
    match a with
    | ⟨0, _⟩ => exact Fin.ext (LibDotSum.rhs_contr_val D K hr hs hrc (ix2 p q) k)
    | ⟨1, _⟩ => exact Fin.ext (hr1 (ix2 p q) _)

/-- The embedding layer's host term is the embedding layer. -/
theorem embed_value {n : ℕ} (D : DotDims ⟨2, ![n, 300]⟩ ⟨2, ![300, 128]⟩ ⟨2, ![n, 128]⟩)
    (hr : D.contr.rank = 1) (hs : D.contr.size ⟨0, by omega⟩ = 300)
    (hlc : D.lhsContracting = [1]) (hrc : D.rhsContracting = [0])
    (hl0 : ∀ j k, (D.lhsIdx j k 0).val = (j 0).val) (hr1 : ∀ j k, (D.rhsIdx j k 1).val = (j 1).val)
    (h1 : (⟨1, ![128]⟩ : Shape).BroadcastsInDim ⟨2, ![1, 128]⟩ ![1])
    (h2 : (⟨2, ![1, 128]⟩ : Shape).BroadcastsInDim ⟨2, ![n, 128]⟩ ![0, 1])
    (hz : (⟨0, ![]⟩ : Shape).BroadcastsInDim ⟨2, ![n, 128]⟩ ![])
    (g : FVec Ideal ⟨2, ![n, 128]⟩ .f32) (c : FVec Ideal ⟨2, ![n, 300]⟩ .f32) (wt : FVec Ideal ⟨2, ![300, 128]⟩ .f32)
    (b : FVec Ideal ⟨1, ![128]⟩ .f32) :
    addf g (select
        (cmpf .oge (addf (Host.dotGeneral D none c wt) (broadcastInDim ⟨2, ![n, 128]⟩ ![0, 1] h2 (broadcastInDim ⟨2, ![1, 128]⟩ ![1] h1 b)))
          (broadcastInDim ⟨2, ![n, 128]⟩ ![] hz (constant (F := Ideal) ⟨0, ![]⟩ .f32 0x00000000#32)))
        (addf (Host.dotGeneral D none c wt) (broadcastInDim ⟨2, ![n, 128]⟩ ![0, 1] h2 (broadcastInDim ⟨2, ![1, 128]⟩ ![1] h1 b)))
        (mulf (broadcastInDim ⟨2, ![n, 128]⟩ ![] hz (constant (F := Ideal) ⟨0, ![]⟩ .f32 0x3C23D70A#32))
          (addf (Host.dotGeneral D none c wt) (broadcastInDim ⟨2, ![n, 128]⟩ ![0, 1] h2 (broadcastInDim ⟨2, ![1, 128]⟩ ![1] h1 b)))))
      = Cert.SpecArr.embedArr n g c wt b := by
  funext j
  obtain ⟨p, q, rfl⟩ : ∃ p q, j = ix2 p q := ⟨j 0, j 1, eq_ix2 j⟩
  rw [addf_apply, leaky_apply, addf_apply, dot_apply D hr hs hlc hrc hl0 hr1, bias_apply]
  rfl

end Cert.RefLayer

end
-- ==== Proof.RefStagesE.lean ====
/-
  The three embedding stages of the reference: each stage's fold, at its result buffer, is the embedding layer of
  the shared interface applied to the stage's arguments — the looked-up table rows kept as the reference's own
  gather term, the weights as the reference's own transpose term.
-/
import proofs.«171769_j36816459662034_1_alg».proof.Proof.RefRun
import proofs.«171769_j36816459662034_1_alg».proof.Proof.RefLayer

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The projection weights transposed to `[300, 128]`, as the reference transposes them. -/
def tr (Wp : (⟨S128x300, .f32⟩ : BufTy).Contents (Elt Ideal)) : (⟨S300x128, .f32⟩ : BufTy).Contents (Elt Ideal) :=
  transpose S300x128 [1, 0] Wp transposes_S128x300_S300x128_1_0

/-- The table rows `node_emb[nid + 1]` of the 409600-row layer, as the reference gathers them: the index plus one,
    wrapped by the table's length where negative, made a column, and the rows gathered. -/
def gath0 (emb : (⟨S100001x128, .f32⟩ : BufTy).Contents (Elt Ideal)) (nid : (⟨S409600, .i32⟩ : BufTy).Contents (Elt Ideal)) :
    (⟨S409600x128, .f32⟩ : BufTy).Contents (Elt Ideal) :=
  Host.gather gather_S100001x128_S409600x1_S409600x128_1_0_n_n_0_1_1128 emb
    (broadcastInDim S409600x1 ![0] bcast_S409600_S409600x1_0
      (select
        (cmpi .slt (addi nid (broadcastInDim S409600 ![] bcast_S_S409600 (constantI S_ 32 1#32)))
          (broadcastInDim S409600 ![] bcast_S_S409600 (constantI S_ 32 0#32)))
        (addi (addi nid (broadcastInDim S409600 ![] bcast_S_S409600 (constantI S_ 32 1#32)))
          (broadcastInDim S409600 ![] bcast_S_S409600 (constantI S_ 32 100001#32)))
        (addi nid (broadcastInDim S409600 ![] bcast_S_S409600 (constantI S_ 32 1#32)))))

/-- The table rows `node_emb[nid + 1]` of the 40960-row layer, as the reference gathers them: the index plus one,
    wrapped by the table's length where negative, made a column, and the rows gathered. -/
def gath1 (emb : (⟨S100001x128, .f32⟩ : BufTy).Contents (Elt Ideal)) (nid : (⟨S40960, .i32⟩ : BufTy).Contents (Elt Ideal)) :
    (⟨S40960x128, .f32⟩ : BufTy).Contents (Elt Ideal) :=
  Host.gather gather_S100001x128_S40960x1_S40960x128_1_0_n_n_0_1_1128 emb
    (broadcastInDim S40960x1 ![0] bcast_S40960_S40960x1_0
      (select
        (cmpi .slt (addi nid (broadcastInDim S40960 ![] bcast_S_S40960 (constantI S_ 32 1#32)))
          (broadcastInDim S40960 ![] bcast_S_S40960 (constantI S_ 32 0#32)))
        (addi (addi nid (broadcastInDim S40960 ![] bcast_S_S40960 (constantI S_ 32 1#32)))
          (broadcastInDim S40960 ![] bcast_S_S40960 (constantI S_ 32 100001#32)))
        (addi nid (broadcastInDim S40960 ![] bcast_S_S40960 (constantI S_ 32 1#32)))))

/-- The table rows `node_emb[nid + 1]` of the 4096-row layer, as the reference gathers them: the index plus one,
    wrapped by the table's length where negative, made a column, and the rows gathered. -/
def gath2 (emb : (⟨S100001x128, .f32⟩ : BufTy).Contents (Elt Ideal)) (nid : (⟨S4096, .i32⟩ : BufTy).Contents (Elt Ideal)) :
    (⟨S4096x128, .f32⟩ : BufTy).Contents (Elt Ideal) :=
  Host.gather gather_S100001x128_S4096x1_S4096x128_1_0_n_n_0_1_1128 emb
    (broadcastInDim S4096x1 ![0] bcast_S4096_S4096x1_0
      (select
        (cmpi .slt (addi nid (broadcastInDim S4096 ![] bcast_S_S4096 (constantI S_ 32 1#32)))
          (broadcastInDim S4096 ![] bcast_S_S4096 (constantI S_ 32 0#32)))
        (addi (addi nid (broadcastInDim S4096 ![] bcast_S_S4096 (constantI S_ 32 1#32)))
          (broadcastInDim S4096 ![] bcast_S_S4096 (constantI S_ 32 100001#32)))
        (addi nid (broadcastInDim S4096 ![] bcast_S_S4096 (constantI S_ 32 1#32)))))

attribute [local irreducible] Host.gather in
set_option maxRecDepth 8192 in
/-- The first embedding stage: from any contents, its result buffer holds the embedding layer on 409600 rows. -/
theorem stageE0 (V : Valuation τ sig (Elt Ideal)) :
    after opsE0 V (Proc.devRef .tc main_v15)
      = Cert.SpecArr.embedArr 409600 (gath0 (V (Proc.devRef .tc main_arg10)) (V (Proc.devRef .tc main_arg0)))
          (V (Proc.devRef .tc main_arg3)) (tr (V (Proc.devRef .tc main_arg11))) (V (Proc.devRef .tc main_arg12)) := by
  refine Eq.trans ?_ (Cert.RefLayer.embed_value dot_S409600x300_S300x128_S409600x128_1_0_0_1_n_n rfl rfl rfl rfl
    (fun _ _ => rfl) (fun _ _ => rfl) bcast_S128_S1x128_1 bcast_S1x128_S409600x128_0_1 bcast_S_S409600x128 _ _ _ _)
  after_results_simp
  rfl

attribute [local irreducible] Host.gather in
set_option maxRecDepth 8192 in
/-- The second embedding stage: from any contents, its result buffer holds the embedding layer on 40960 rows. -/
theorem stageE1 (V : Valuation τ sig (Elt Ideal)) :
    after opsE1 V (Proc.devRef .tc main_v31)
      = Cert.SpecArr.embedArr 40960 (gath1 (V (Proc.devRef .tc main_arg10)) (V (Proc.devRef .tc main_arg1)))
          (V (Proc.devRef .tc main_arg4)) (tr (V (Proc.devRef .tc main_arg13))) (V (Proc.devRef .tc main_arg14)) := by
  refine Eq.trans ?_ (Cert.RefLayer.embed_value dot_S40960x300_S300x128_S40960x128_1_0_0_1_n_n rfl rfl rfl rfl
    (fun _ _ => rfl) (fun _ _ => rfl) bcast_S128_S1x128_1 bcast_S1x128_S40960x128_0_1 bcast_S_S40960x128 _ _ _ _)
  after_results_simp
  rfl

attribute [local irreducible] Host.gather in
set_option maxRecDepth 8192 in
/-- The third embedding stage: from any contents, its result buffer holds the embedding layer on 4096 rows. -/
theorem stageE2 (V : Valuation τ sig (Elt Ideal)) :
    after opsE2 V (Proc.devRef .tc main_v47)
      = Cert.SpecArr.embedArr 4096 (gath2 (V (Proc.devRef .tc main_arg10)) (V (Proc.devRef .tc main_arg2)))
          (V (Proc.devRef .tc main_arg5)) (tr (V (Proc.devRef .tc main_arg15))) (V (Proc.devRef .tc main_arg16)) := by
  refine Eq.trans ?_ (Cert.RefLayer.embed_value dot_S4096x300_S300x128_S4096x128_1_0_0_1_n_n rfl rfl rfl rfl
    (fun _ _ => rfl) (fun _ _ => rfl) bcast_S128_S1x128_1 bcast_S1x128_S4096x128_0_1 bcast_S_S4096x128 _ _ _ _)
  after_results_simp
  rfl

end Cert.ReferenceIdeal.RefValue

end
-- ==== Proof.RefDefs.lean ====
/-
  The graph parts of the reference's two convolution stages, as functions of the arrays they read.

  A convolution stage gathers the source node's row for every edge, adds the gathered rows into their destination
  nodes (the neighbour sum), and adds a one into every edge's destination (the neighbour count).  A negative source
  index counts from the end.  The weights enter transposed.  These are the reference's own host terms, named so that
  the float part of a stage can be stated over them.
-/
import proofs.«171769_j36816459662034_1_alg».proof.ReferenceIdeal

noncomputable section

namespace Cert.ReferenceIdeal.RefValue

open Cert.ReferenceIdeal Idealize.ShloMosaic

variable {F : FTy → Type} [FloatOps F] [Facts₀]

open Facts₀

/-- The first convolution's neighbour sum: rows of `h` gathered at the edges' sources, added into the edges'
    destinations, from zero. -/
def agg0 (h : (⟨S409600x128, .f32⟩ : BufTy).Contents (Elt F)) (src dst : (⟨S409600, .i32⟩ : BufTy).Contents (Elt F)) :
    (⟨S40960x128, .f32⟩ : BufTy).Contents (Elt F) :=
  Host.scatterAdd scatter_S40960x128_S409600x1_S409600x128_1_0_0_1
    (broadcastInDim S40960x128 ![] bcast_S_S40960x128 (constant S_ .f32 0x00000000#32))
    (broadcastInDim S409600x1 ![0] bcast_S409600_S409600x1_0 dst)
    (Host.gather gather_S409600x128_S409600x1_S409600x128_1_0_n_n_0_1_1128 h
      (broadcastInDim S409600x1 ![0] bcast_S409600_S409600x1_0
        (select (cmpi .slt src (broadcastInDim S409600 ![] bcast_S_S409600 (constantI S_ 32 0#32)))
          (addi src (broadcastInDim S409600 ![] bcast_S_S409600 (constantI S_ 32 409600#32))) src)))

/-- The first convolution's neighbour count: a one added into every edge's destination, from zero. -/
def cnt0 (dst : (⟨S409600, .i32⟩ : BufTy).Contents (Elt F)) : (⟨S40960, .f32⟩ : BufTy).Contents (Elt F) :=
  Host.scatterAdd scatter_S40960_S409600x1_S409600_n_0_0_1
    (broadcastInDim S40960 ![] bcast_S_S40960 (constant S_ .f32 0x00000000#32))
    (broadcastInDim S409600x1 ![0] bcast_S409600_S409600x1_0 dst)
    (broadcastInDim S409600 ![] bcast_S_S409600 (constant S_ .f32 0x3F800000#32))

/-- A convolution's weights, transposed to `[256, 128]`. -/
def tr2 (W : (⟨S128x256, .f32⟩ : BufTy).Contents (Elt F)) : (⟨S256x128, .f32⟩ : BufTy).Contents (Elt F) :=
  transpose S256x128 [1, 0] W transposes_S128x256_S256x128_1_0

/-- The second convolution's weights, transposed the same way. -/
abbrev tr2b (W : (⟨S128x256, .f32⟩ : BufTy).Contents (Elt F)) : (⟨S256x128, .f32⟩ : BufTy).Contents (Elt F) := tr2 W

/-- The second convolution's neighbour sum. -/
def agg1 (h : (⟨S40960x128, .f32⟩ : BufTy).Contents (Elt F)) (src dst : (⟨S40960, .i32⟩ : BufTy).Contents (Elt F)) :
    (⟨S4096x128, .f32⟩ : BufTy).Contents (Elt F) :=
  Host.scatterAdd scatter_S4096x128_S40960x1_S40960x128_1_0_0_1
    (broadcastInDim S4096x128 ![] bcast_S_S4096x128 (constant S_ .f32 0x00000000#32))
    (broadcastInDim S40960x1 ![0] bcast_S40960_S40960x1_0 dst)
    (Host.gather gather_S40960x128_S40960x1_S40960x128_1_0_n_n_0_1_1128 h
      (broadcastInDim S40960x1 ![0] bcast_S40960_S40960x1_0
        (select (cmpi .slt src (broadcastInDim S40960 ![] bcast_S_S40960 (constantI S_ 32 0#32)))
          (addi src (broadcastInDim S40960 ![] bcast_S_S40960 (constantI S_ 32 40960#32))) src)))

/-- The second convolution's neighbour count. -/
def cnt1 (dst : (⟨S40960, .i32⟩ : BufTy).Contents (Elt F)) : (⟨S4096, .f32⟩ : BufTy).Contents (Elt F) :=
  Host.scatterAdd scatter_S4096_S40960x1_S40960_n_0_0_1
    (broadcastInDim S4096 ![] bcast_S_S4096 (constant S_ .f32 0x00000000#32))
    (broadcastInDim S40960x1 ![0] bcast_S40960_S40960x1_0 dst)
    (broadcastInDim S40960 ![] bcast_S_S40960 (constant S_ .f32 0x3F800000#32))

end Cert.ReferenceIdeal.RefValue

end
-- ==== Proof.RefStagesC.lean ====
/-
  The reference's two convolution stages as the convolution layer of the shared interface.

  First the layer's host term is read entry by entry for any number of rows: the own row and the neighbour mean laid
  side by side read the own row below feature 128 and the mean from there on; the host's sum along the features of a
  row is the sum over the 128 feature coordinates; the term before normalisation is the leaky rectifier of the affine
  form of the concatenated row, and the normalisation divides by the row's Euclidean length floored at the small
  constant.  Then each stage's list of operations, folded from any contents of the buffers, leaves in its result
  buffer that term over the stage's operands.
-/
import proofs.«171769_j36816459662034_1_alg».proof.Proof.RefRun
import proofs.«171769_j36816459662034_1_alg».proof.Proof.RefDefs
import proofs.«171769_j36816459662034_1_alg».proof.Proof.RefLayer
import Idealize.ShloMosaic.PureOps.Ideal.Laws

noncomputable section

open scoped BigOperators

namespace Cert.RefLayerC

open Idealize.ShloMosaic Idealize.ShloMosaic.ValueIdx

/-- Two blocks of 128 features side by side over `n` rows, read at feature `k` of 256: the first block below 128, the
    second block at `k - 128` from there on. -/
theorem cat_apply {n : ℕ} (hcat : Shape.Concatenates [(⟨2, ![n, 128]⟩ : Shape), ⟨2, ![n, 128]⟩] ⟨2, ![n, 256]⟩ 1)
    (a b : (⟨2, ![n, 128]⟩ : Shape).Idx → EReal) (p : Fin n) (k : Fin 256) :
    concatenate ⟨2, ![n, 256]⟩ 1 [⟨⟨2, ![n, 128]⟩, a⟩, ⟨⟨2, ![n, 128]⟩, b⟩] hcat (ix2 p k)
      = if h : k.val < 128 then a (ix2 p ⟨k.val, h⟩) else b (ix2 p ⟨k.val - 128, by omega⟩) := by
  by_cases h : k.val < 128
  · rw [dif_pos h]
    exact concatenate_pair_apply_left 1 a b _ (ix2 p k) rfl (ix2 p ⟨k.val, h⟩) (fun ax => by
      match ax with
      | ⟨0, _⟩ => rfl
      | ⟨1, _⟩ => rfl)
  · rw [dif_neg h]
    exact concatenate_pair_apply_right 1 a b _ (ix2 p k) rfl rfl (ix2 p ⟨k.val - 128, by omega⟩) (fun ax hne => by
      match ax, hne with
      | ⟨0, _⟩, _ => rfl
      | ⟨1, _⟩, hne => exact absurd rfl hne) (by
      show k.val - 128 + 128 = k.val
      omega)

/-- The host's sum along the features of row `p`, from the zero word. -/
theorem rowsum_apply {n : ℕ} (hred : (⟨2, ![n, 128]⟩ : Shape).ReducesTo [1] ⟨1, ![n]⟩)
    (hred' : (⟨2, ![n, 128]⟩ : Shape).Reduces [1] ⟨1, ![n]⟩) (hu : 0 < (⟨0, ![]⟩ : Shape).numel)
    (y : FVec Ideal ⟨2, ![n, 128]⟩ .f32) (p : Fin n) :
    Host.reduceAdd y (constant (F := Ideal) ⟨0, ![]⟩ .f32 0x00000000#32) hred hu (ix1 p) = ∑ r : Fin 128, y (ix2 p r) := by
  rw [hostReduceAdd_apply, Ideal.hostReduceAdd_single hred hred']
  show Ideal.ofBits .f32 0x00000000#32 + _ = _
  rw [Ideal.ofBits_zero_f32, zero_add]
  refine Finset.sum_congr rfl fun r _ => congrArg y (funext fun ax => Fin.ext ?_)
  match ax with
  | ⟨0, _⟩ => rfl
  | ⟨1, _⟩ => rfl

/-- The host's square root at an entry. -/
theorem hostSqrt_apply {s : Shape} {φ : FTy} (x : FVec Ideal s φ) (i : s.Idx) : Host.sqrt x i = Ideal.sqrt (x i) := rfl

variable {n : ℕ}

/-- The neighbour mean as the host spells it: the neighbour sum less the own row, over the count less one floored at
    one, the floored count made a column and repeated along the features. -/
def meanT (hz1 : (⟨0, ![]⟩ : Shape).BroadcastsInDim ⟨1, ![n]⟩ ![])
    (hc1 : (⟨1, ![n]⟩ : Shape).BroadcastsInDim ⟨2, ![n, 1]⟩ ![0])
    (hc2 : (⟨2, ![n, 1]⟩ : Shape).BroadcastsInDim ⟨2, ![n, 128]⟩ ![0, 1])
    (hs ag : FVec Ideal ⟨2, ![n, 128]⟩ .f32) (cnt : FVec Ideal ⟨1, ![n]⟩ .f32) : FVec Ideal ⟨2, ![n, 128]⟩ .f32 :=
  Host.divf (subf ag hs)
    (broadcastInDim ⟨2, ![n, 128]⟩ ![0, 1] hc2 (broadcastInDim ⟨2, ![n, 1]⟩ ![0] hc1
      (maximumf (subf cnt (broadcastInDim ⟨1, ![n]⟩ ![] hz1 (constant (F := Ideal) ⟨0, ![]⟩ .f32 0x3F800000#32)))
        (broadcastInDim ⟨1, ![n]⟩ ![] hz1 (constant (F := Ideal) ⟨0, ![]⟩ .f32 0x3F800000#32)))))

/-- The affine form: the own row and the mean side by side, times the weights, plus the bias row. -/
def yT (D : DotDims ⟨2, ![n, 256]⟩ ⟨2, ![256, 128]⟩ ⟨2, ![n, 128]⟩)
    (h1 : (⟨1, ![128]⟩ : Shape).BroadcastsInDim ⟨2, ![1, 128]⟩ ![1])
    (h2 : (⟨2, ![1, 128]⟩ : Shape).BroadcastsInDim ⟨2, ![n, 128]⟩ ![0, 1])
    (hcat : Shape.Concatenates [(⟨2, ![n, 128]⟩ : Shape), ⟨2, ![n, 128]⟩] ⟨2, ![n, 256]⟩ 1)
    (hs mean : FVec Ideal ⟨2, ![n, 128]⟩ .f32) (wt : FVec Ideal ⟨2, ![256, 128]⟩ .f32) (b : FVec Ideal ⟨1, ![128]⟩ .f32) :
    FVec Ideal ⟨2, ![n, 128]⟩ .f32 :=
  addf (Host.dotGeneral D none (concatenate ⟨2, ![n, 256]⟩ 1 [⟨⟨2, ![n, 128]⟩, hs⟩, ⟨⟨2, ![n, 128]⟩, mean⟩] hcat) wt)
    (broadcastInDim ⟨2, ![n, 128]⟩ ![0, 1] h2 (broadcastInDim ⟨2, ![1, 128]⟩ ![1] h1 b))

/-- The leaky rectifier as the host spells it. -/
def leakyT (hz : (⟨0, ![]⟩ : Shape).BroadcastsInDim ⟨2, ![n, 128]⟩ ![]) (y : FVec Ideal ⟨2, ![n, 128]⟩ .f32) :
    FVec Ideal ⟨2, ![n, 128]⟩ .f32 :=
  select (cmpf .oge y (broadcastInDim ⟨2, ![n, 128]⟩ ![] hz (constant (F := Ideal) ⟨0, ![]⟩ .f32 0x00000000#32))) y
    (mulf (broadcastInDim ⟨2, ![n, 128]⟩ ![] hz (constant (F := Ideal) ⟨0, ![]⟩ .f32 0x3C23D70A#32)) y)

/-- A convolution layer's host term before normalisation. -/
def preTerm (D : DotDims ⟨2, ![n, 256]⟩ ⟨2, ![256, 128]⟩ ⟨2, ![n, 128]⟩)
    (h1 : (⟨1, ![128]⟩ : Shape).BroadcastsInDim ⟨2, ![1, 128]⟩ ![1])
    (h2 : (⟨2, ![1, 128]⟩ : Shape).BroadcastsInDim ⟨2, ![n, 128]⟩ ![0, 1])
    (hz : (⟨0, ![]⟩ : Shape).BroadcastsInDim ⟨2, ![n, 128]⟩ ![])
    (hz1 : (⟨0, ![]⟩ : Shape).BroadcastsInDim ⟨1, ![n]⟩ ![])
    (hc1 : (⟨1, ![n]⟩ : Shape).BroadcastsInDim ⟨2, ![n, 1]⟩ ![0])
    (hc2 : (⟨2, ![n, 1]⟩ : Shape).BroadcastsInDim ⟨2, ![n, 128]⟩ ![0, 1])
    (hcat : Shape.Concatenates [(⟨2, ![n, 128]⟩ : Shape), ⟨2, ![n, 128]⟩] ⟨2, ![n, 256]⟩ 1)
    (hs ag : FVec Ideal ⟨2, ![n, 128]⟩ .f32) (cnt : FVec Ideal ⟨1, ![n]⟩ .f32)
    (wt : FVec Ideal ⟨2, ![256, 128]⟩ .f32) (b : FVec Ideal ⟨1, ![128]⟩ .f32) : FVec Ideal ⟨2, ![n, 128]⟩ .f32 :=
  leakyT hz (yT D h1 h2 hcat hs (meanT hz1 hc1 hc2 hs ag cnt) wt b)

/-- A convolution layer's normalisation as the host spells it: every row divided by the square root of the sum of
    its squares, the root floored at the small constant. -/
def normTerm (hzc : (⟨0, ![]⟩ : Shape).BroadcastsInDim ⟨2, ![n, 1]⟩ ![])
    (hc1 : (⟨1, ![n]⟩ : Shape).BroadcastsInDim ⟨2, ![n, 1]⟩ ![0])
    (hc2 : (⟨2, ![n, 1]⟩ : Shape).BroadcastsInDim ⟨2, ![n, 128]⟩ ![0, 1])
    (hred : (⟨2, ![n, 128]⟩ : Shape).ReducesTo [1] ⟨1, ![n]⟩) (hu : 0 < (⟨0, ![]⟩ : Shape).numel)
    (y : FVec Ideal ⟨2, ![n, 128]⟩ .f32) : FVec Ideal ⟨2, ![n, 128]⟩ .f32 :=
  Host.divf y (broadcastInDim ⟨2, ![n, 128]⟩ ![0, 1] hc2
    (maximumf
      (Host.sqrt (broadcastInDim ⟨2, ![n, 1]⟩ ![0] hc1
        (Host.reduceAdd (mulf y y) (constant (F := Ideal) ⟨0, ![]⟩ .f32 0x00000000#32) hred hu)))
      (broadcastInDim ⟨2, ![n, 1]⟩ ![] hzc (constant (F := Ideal) ⟨0, ![]⟩ .f32 0x358637BD#32))))

/-- The own row and the neighbour mean side by side, read at feature `k` of 256. -/
theorem catTerm_apply (hz1 : (⟨0, ![]⟩ : Shape).BroadcastsInDim ⟨1, ![n]⟩ ![])
    (hc1 : (⟨1, ![n]⟩ : Shape).BroadcastsInDim ⟨2, ![n, 1]⟩ ![0])
    (hc2 : (⟨2, ![n, 1]⟩ : Shape).BroadcastsInDim ⟨2, ![n, 128]⟩ ![0, 1])
    (hcat : Shape.Concatenates [(⟨2, ![n, 128]⟩ : Shape), ⟨2, ![n, 128]⟩] ⟨2, ![n, 256]⟩ 1)
    (hs ag : FVec Ideal ⟨2, ![n, 128]⟩ .f32) (cnt : FVec Ideal ⟨1, ![n]⟩ .f32) (p : Fin n) (k : Fin 256) :
    concatenate ⟨2, ![n, 256]⟩ 1 [⟨⟨2, ![n, 128]⟩, hs⟩, ⟨⟨2, ![n, 128]⟩, meanT hz1 hc1 hc2 hs ag cnt⟩] hcat (ix2 p k)
      = Cert.Spec.catAt (fun r => hs (ix2 p r)) (fun r => ag (ix2 p r)) (cnt (ix1 p)) k := by
  rw [cat_apply]
  unfold Cert.Spec.catAt
  by_cases h : k.val < 128
  · rw [dif_pos h, dif_pos h]
  · rw [dif_neg h, dif_neg h]
    unfold meanT
    rw [hostDivf_apply, subf_apply, Cert.RefLayer.row_of_col_apply, Cert.RefLayer.col_apply,
      maximumf_apply, subf_apply, Cert.RefLayer.splat_apply]
    rfl

/-- The host term before normalisation at `(p, r)`. -/
theorem preTerm_apply (D : DotDims ⟨2, ![n, 256]⟩ ⟨2, ![256, 128]⟩ ⟨2, ![n, 128]⟩)
    (hr : D.contr.rank = 1) (hsz : D.contr.size ⟨0, by omega⟩ = 256)
    (hlc : D.lhsContracting = [1]) (hrc : D.rhsContracting = [0])
    (hl0 : ∀ j k, (D.lhsIdx j k 0).val = (j 0).val) (hr1 : ∀ j k, (D.rhsIdx j k 1).val = (j 1).val)
    (h1 : (⟨1, ![128]⟩ : Shape).BroadcastsInDim ⟨2, ![1, 128]⟩ ![1])
    (h2 : (⟨2, ![1, 128]⟩ : Shape).BroadcastsInDim ⟨2, ![n, 128]⟩ ![0, 1])
    (hz : (⟨0, ![]⟩ : Shape).BroadcastsInDim ⟨2, ![n, 128]⟩ ![])
    (hz1 : (⟨0, ![]⟩ : Shape).BroadcastsInDim ⟨1, ![n]⟩ ![])
    (hc1 : (⟨1, ![n]⟩ : Shape).BroadcastsInDim ⟨2, ![n, 1]⟩ ![0])
    (hc2 : (⟨2, ![n, 1]⟩ : Shape).BroadcastsInDim ⟨2, ![n, 128]⟩ ![0, 1])
    (hcat : Shape.Concatenates [(⟨2, ![n, 128]⟩ : Shape), ⟨2, ![n, 128]⟩] ⟨2, ![n, 256]⟩ 1)
    (hs ag : FVec Ideal ⟨2, ![n, 128]⟩ .f32) (cnt : FVec Ideal ⟨1, ![n]⟩ .f32)
    (wt : FVec Ideal ⟨2, ![256, 128]⟩ .f32) (b : FVec Ideal ⟨1, ![128]⟩ .f32) (p : Fin n) (r : Fin 128) :
    preTerm D h1 h2 hz hz1 hc1 hc2 hcat hs ag cnt wt b (ix2 p r)
      = Cert.Spec.preAt (fun r => hs (ix2 p r)) (fun r => ag (ix2 p r)) (cnt (ix1 p)) (fun k r => wt (ix2 k r))
          (fun r => b (ix1 r)) r := by
  unfold preTerm leakyT yT
  rw [Cert.RefLayer.leaky_apply, addf_apply, Cert.RefLayer.dot_apply D hr hsz hlc hrc hl0 hr1, Cert.RefLayer.bias_apply]
  unfold Cert.Spec.preAt
  refine congrArg Cert.Spec.leaky (congrArg (· + b (ix1 r)) (Finset.sum_congr rfl fun k _ => ?_))
  exact congrArg (· * wt (ix2 k r)) (catTerm_apply hz1 hc1 hc2 hcat hs ag cnt p k)

/-- The normalised row at `(p, q)`. -/
theorem normTerm_apply (hzc : (⟨0, ![]⟩ : Shape).BroadcastsInDim ⟨2, ![n, 1]⟩ ![])
    (hc1 : (⟨1, ![n]⟩ : Shape).BroadcastsInDim ⟨2, ![n, 1]⟩ ![0])
    (hc2 : (⟨2, ![n, 1]⟩ : Shape).BroadcastsInDim ⟨2, ![n, 128]⟩ ![0, 1])
    (hred : (⟨2, ![n, 128]⟩ : Shape).ReducesTo [1] ⟨1, ![n]⟩) (hred' : (⟨2, ![n, 128]⟩ : Shape).Reduces [1] ⟨1, ![n]⟩)
    (hu : 0 < (⟨0, ![]⟩ : Shape).numel) (y : FVec Ideal ⟨2, ![n, 128]⟩ .f32) (p : Fin n) (q : Fin 128) :
    normTerm hzc hc1 hc2 hred hu y (ix2 p q)
      = Ideal.div (y (ix2 p q))
          (max (Ideal.sqrt (∑ r : Fin 128, y (ix2 p r) * y (ix2 p r))) (Ideal.ofBits .f32 0x358637BD#32)) := by
  unfold normTerm
  rw [hostDivf_apply, Cert.RefLayer.row_of_col_apply, maximumf_apply, Cert.RefLayer.splat_apply, hostSqrt_apply,
    Cert.RefLayer.col_apply, rowsum_apply hred hred' hu]
  rfl

/-- A convolution layer's host term is the convolution layer. -/
theorem conv_value (D : DotDims ⟨2, ![n, 256]⟩ ⟨2, ![256, 128]⟩ ⟨2, ![n, 128]⟩)
    (hr : D.contr.rank = 1) (hsz : D.contr.size ⟨0, by omega⟩ = 256)
    (hlc : D.lhsContracting = [1]) (hrc : D.rhsContracting = [0])
    (hl0 : ∀ j k, (D.lhsIdx j k 0).val = (j 0).val) (hr1 : ∀ j k, (D.rhsIdx j k 1).val = (j 1).val)
    (h1 : (⟨1, ![128]⟩ : Shape).BroadcastsInDim ⟨2, ![1, 128]⟩ ![1])
    (h2 : (⟨2, ![1, 128]⟩ : Shape).BroadcastsInDim ⟨2, ![n, 128]⟩ ![0, 1])
    (hz : (⟨0, ![]⟩ : Shape).BroadcastsInDim ⟨2, ![n, 128]⟩ ![])
    (hz1 : (⟨0, ![]⟩ : Shape).BroadcastsInDim ⟨1, ![n]⟩ ![])
    (hzc : (⟨0, ![]⟩ : Shape).BroadcastsInDim ⟨2, ![n, 1]⟩ ![])
    (hc1 : (⟨1, ![n]⟩ : Shape).BroadcastsInDim ⟨2, ![n, 1]⟩ ![0])
    (hc2 : (⟨2, ![n, 1]⟩ : Shape).BroadcastsInDim ⟨2, ![n, 128]⟩ ![0, 1])
    (hcat : Shape.Concatenates [(⟨2, ![n, 128]⟩ : Shape), ⟨2, ![n, 128]⟩] ⟨2, ![n, 256]⟩ 1)
    (hred : (⟨2, ![n, 128]⟩ : Shape).ReducesTo [1] ⟨1, ![n]⟩) (hred' : (⟨2, ![n, 128]⟩ : Shape).Reduces [1] ⟨1, ![n]⟩)
    (hu : 0 < (⟨0, ![]⟩ : Shape).numel)
    (hs ag : FVec Ideal ⟨2, ![n, 128]⟩ .f32) (cnt : FVec Ideal ⟨1, ![n]⟩ .f32)
    (wt : FVec Ideal ⟨2, ![256, 128]⟩ .f32) (b : FVec Ideal ⟨1, ![128]⟩ .f32) :
    normTerm hzc hc1 hc2 hred hu (preTerm D h1 h2 hz hz1 hc1 hc2 hcat hs ag cnt wt b)
      = Cert.SpecArr.convArr n hs ag cnt wt b := by
  funext j
  obtain ⟨p, q, rfl⟩ : ∃ p q, j = ix2 p q := ⟨j 0, j 1, eq_ix2 j⟩
  rw [normTerm_apply hzc hc1 hc2 hred hred' hu]
  simp only [preTerm_apply D hr hsz hlc hrc hl0 hr1]
  rfl

end Cert.RefLayerC

namespace Cert.ReferenceIdeal.RefValue

open Cert.ReferenceIdeal Cert.ReferenceIdeal.Gen Idealize.ShloMosaic Idealize.ShloMosaic.TcCoe Idealize.SL.Sem
  Idealize.ShloMosaic.StableHlo

/-! ## The first convolution stage -/

section
variable {F : FTy → Type} [FloatOps F]

/-- The first convolution's operations through the neighbour mean. -/
abbrev opsC0a : List (HloOp τ sig (Elt F)) :=
  [ nullary main_c_8 (constantI S_ 32 0#32),
    unary main_c_8 main_v48 (broadcastInDim S409600 ![] bcast_S_S409600 : (⟨S_, .i32⟩ : BufTy).Contents (Elt F) → (⟨S409600, .i32⟩ : BufTy).Contents (Elt F)),
    binary main_arg6 main_v48 main_v49 (cmpi .slt : (⟨S409600, .i32⟩ : BufTy).Contents (Elt F) → (⟨S409600, .i32⟩ : BufTy).Contents (Elt F) → (⟨S409600, .i1⟩ : BufTy).Contents (Elt F)),
    nullary main_c_9 (constantI S_ 32 409600#32),
    unary main_c_9 main_v50 (broadcastInDim S409600 ![] bcast_S_S409600 : (⟨S_, .i32⟩ : BufTy).Contents (Elt F) → (⟨S409600, .i32⟩ : BufTy).Contents (Elt F)),
    binary main_arg6 main_v50 main_v51 (addi : (⟨S409600, .i32⟩ : BufTy).Contents (Elt F) → (⟨S409600, .i32⟩ : BufTy).Contents (Elt F) → (⟨S409600, .i32⟩ : BufTy).Contents (Elt F)),
    ternary main_v49 main_v51 main_arg6 main_v52 (select : (⟨S409600, .i1⟩ : BufTy).Contents (Elt F) → (⟨S409600, .i32⟩ : BufTy).Contents (Elt F) → (⟨S409600, .i32⟩ : BufTy).Contents (Elt F) → (⟨S409600, .i32⟩ : BufTy).Contents (Elt F)),
    unary main_v52 main_v53 (broadcastInDim S409600x1 ![0] bcast_S409600_S409600x1_0 : (⟨S409600, .i32⟩ : BufTy).Contents (Elt F) → (⟨S409600x1, .i32⟩ : BufTy).Contents (Elt F)),
    binary main_v15 main_v53 main_v54 ((fun x i => Host.gather gather_S409600x128_S409600x1_S409600x128_1_0_n_n_0_1_1128 x i) : (⟨S409600x128, .f32⟩ : BufTy).Contents (Elt F) → (⟨S409600x1, .i32⟩ : BufTy).Contents (Elt F) → (⟨S409600x128, .f32⟩ : BufTy).Contents (Elt F)),
    nullary main_cst (constant S_ .f32 0x00000000#32),
    unary main_cst main_v55 (broadcastInDim S40960x128 ![] bcast_S_S40960x128 : (⟨S_, .f32⟩ : BufTy).Contents (Elt F) → (⟨S40960x128, .f32⟩ : BufTy).Contents (Elt F)),
    unary main_arg7 main_v56 (broadcastInDim S409600x1 ![0] bcast_S409600_S409600x1_0 : (⟨S409600, .i32⟩ : BufTy).Contents (Elt F) → (⟨S409600x1, .i32⟩ : BufTy).Contents (Elt F)),
    ternary main_v55 main_v56 main_v54 main_v57 ((fun x i u => Host.scatterAdd scatter_S40960x128_S409600x1_S409600x128_1_0_0_1 x i u) : (⟨S40960x128, .f32⟩ : BufTy).Contents (Elt F) → (⟨S409600x1, .i32⟩ : BufTy).Contents (Elt F) → (⟨S409600x128, .f32⟩ : BufTy).Contents (Elt F) → (⟨S40960x128, .f32⟩ : BufTy).Contents (Elt F)),
    nullary main_cst_10 (constant S_ .f32 0x3F800000#32),
    unary main_cst_10 main_v58 (broadcastInDim S409600 ![] bcast_S_S409600 : (⟨S_, .f32⟩ : BufTy).Contents (Elt F) → (⟨S409600, .f32⟩ : BufTy).Contents (Elt F)),
    nullary main_cst_11 (constant S_ .f32 0x00000000#32),
    unary main_cst_11 main_v59 (broadcastInDim S40960 ![] bcast_S_S40960 : (⟨S_, .f32⟩ : BufTy).Contents (Elt F) → (⟨S40960, .f32⟩ : BufTy).Contents (Elt F)),
    unary main_arg7 main_v60 (broadcastInDim S409600x1 ![0] bcast_S409600_S409600x1_0 : (⟨S409600, .i32⟩ : BufTy).Contents (Elt F) → (⟨S409600x1, .i32⟩ : BufTy).Contents (Elt F)),
    ternary main_v59 main_v60 main_v58 main_v61 ((fun x i u => Host.scatterAdd scatter_S40960_S409600x1_S409600_n_0_0_1 x i u) : (⟨S40960, .f32⟩ : BufTy).Contents (Elt F) → (⟨S409600x1, .i32⟩ : BufTy).Contents (Elt F) → (⟨S409600, .f32⟩ : BufTy).Contents (Elt F) → (⟨S40960, .f32⟩ : BufTy).Contents (Elt F)),
    binary main_v57 main_v31 main_v62 (subf : (⟨S40960x128, .f32⟩ : BufTy).Contents (Elt F) → (⟨S40960x128, .f32⟩ : BufTy).Contents (Elt F) → (⟨S40960x128, .f32⟩ : BufTy).Contents (Elt F)),
    nullary main_cst_12 (constant S_ .f32 0x3F800000#32),
    unary main_cst_12 main_v63 (broadcastInDim S40960 ![] bcast_S_S40960 : (⟨S_, .f32⟩ : BufTy).Contents (Elt F) → (⟨S40960, .f32⟩ : BufTy).Contents (Elt F)),
    binary main_v61 main_v63 main_v64 (subf : (⟨S40960, .f32⟩ : BufTy).Contents (Elt F) → (⟨S40960, .f32⟩ : BufTy).Contents (Elt F) → (⟨S40960, .f32⟩ : BufTy).Contents (Elt F)),
    nullary main_cst_13 (constant S_ .f32 0x3F800000#32),
    unary main_cst_13 main_v65 (broadcastInDim S40960 ![] bcast_S_S40960 : (⟨S_, .f32⟩ : BufTy).Contents (Elt F) → (⟨S40960, .f32⟩ : BufTy).Contents (Elt F)),
    binary main_v64 main_v65 main_v66 (maximumf : (⟨S40960, .f32⟩ : BufTy).Contents (Elt F) → (⟨S40960, .f32⟩ : BufTy).Contents (Elt F) → (⟨S40960, .f32⟩ : BufTy).Contents (Elt F)),
    unary main_v66 main_v67 (broadcastInDim S40960x1 ![0] bcast_S40960_S40960x1_0 : (⟨S40960, .f32⟩ : BufTy).Contents (Elt F) → (⟨S40960x1, .f32⟩ : BufTy).Contents (Elt F)),
    unary main_v67 main_v68 (broadcastInDim S40960x128 ![0, 1] bcast_S40960x1_S40960x128_0_1 : (⟨S40960x1, .f32⟩ : BufTy).Contents (Elt F) → (⟨S40960x128, .f32⟩ : BufTy).Contents (Elt F)),
    binary main_v62 main_v68 main_v69 (Host.divf : (⟨S40960x128, .f32⟩ : BufTy).Contents (Elt F) → (⟨S40960x128, .f32⟩ : BufTy).Contents (Elt F) → (⟨S40960x128, .f32⟩ : BufTy).Contents (Elt F)) ]

/-- … from the concatenation through the affine form. -/
abbrev opsC0b : List (HloOp τ sig (Elt F)) :=
  [ binary main_v31 main_v69 main_v70 ((fun a b => concatenate S40960x256 1 [⟨S40960x128, a⟩, ⟨S40960x128, b⟩] concatenates_S40960x128_S40960x128_S40960x256_d1) : (⟨S40960x128, .f32⟩ : BufTy).Contents (Elt F) → (⟨S40960x128, .f32⟩ : BufTy).Contents (Elt F) → (⟨S40960x256, .f32⟩ : BufTy).Contents (Elt F)),
    unary main_arg17 main_v71 ((transpose S256x128 [1, 0] · transposes_S128x256_S256x128_1_0) : (⟨S128x256, .f32⟩ : BufTy).Contents (Elt F) → (⟨S256x128, .f32⟩ : BufTy).Contents (Elt F)),
    binary main_v70 main_v71 main_v72 ((fun l r => Host.dotGeneral dot_S40960x256_S256x128_S40960x128_1_0_0_1_n_n none l r) : (⟨S40960x256, .f32⟩ : BufTy).Contents (Elt F) → (⟨S256x128, .f32⟩ : BufTy).Contents (Elt F) → (⟨S40960x128, .f32⟩ : BufTy).Contents (Elt F)),
    unary main_arg18 main_v73 (broadcastInDim S1x128 ![1] bcast_S128_S1x128_1 : (⟨S128, .f32⟩ : BufTy).Contents (Elt F) → (⟨S1x128, .f32⟩ : BufTy).Contents (Elt F)),
    unary main_v73 main_v74 (broadcastInDim S40960x128 ![0, 1] bcast_S1x128_S40960x128_0_1 : (⟨S1x128, .f32⟩ : BufTy).Contents (Elt F) → (⟨S40960x128, .f32⟩ : BufTy).Contents (Elt F)),
    binary main_v72 main_v74 main_v75 (addf : (⟨S40960x128, .f32⟩ : BufTy).Contents (Elt F) → (⟨S40960x128, .f32⟩ : BufTy).Contents (Elt F) → (⟨S40960x128, .f32⟩ : BufTy).Contents (Elt F)) ]

/-- … the leaky rectifier. -/
abbrev opsC0c : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S40960x128, .f32⟩) main_call3_v0) (broadcastInDim S40960x128 ![] bcast_S_S40960x128),
    TRef.binary (TRef.of (T := ⟨S40960x128, .f32⟩) main_v75) (TRef.of (T := ⟨S40960x128, .f32⟩) main_call3_v0) (TRef.of (T := ⟨S40960x128, .i1⟩) main_call3_v1) (cmpf .oge),
    TRef.nullary (TRef.of (T := ⟨S_, .f32⟩) main_call3_cst_0) (constant S_ .f32 0x3C23D70A#32),
    TRef.unary (TRef.of (T := ⟨S_, .f32⟩) main_call3_cst_0) (TRef.of (T := ⟨S40960x128, .f32⟩) main_call3_v2) (broadcastInDim S40960x128 ![] bcast_S_S40960x128),
    TRef.binary (TRef.of (T := ⟨S40960x128, .f32⟩) main_call3_v2) (TRef.of (T := ⟨S40960x128, .f32⟩) main_v75) (TRef.of (T := ⟨S40960x128, .f32⟩) main_call3_v3) mulf,
    TRef.ternary (TRef.of (T := ⟨S40960x128, .i1⟩) main_call3_v1) (TRef.of (T := ⟨S40960x128, .f32⟩) main_v75) (TRef.of (T := ⟨S40960x128, .f32⟩) main_call3_v3) (TRef.of (T := ⟨S40960x128, .f32⟩) main_v76) select ]

/-- … the normalisation. -/
abbrev opsC0d : List (HloOp τ sig (Elt F)) :=
  [ TRef.binary (TRef.of (T := ⟨S40960x128, .f32⟩) main_v76) (TRef.of (T := ⟨S40960x128, .f32⟩) main_v76) (TRef.of (T := ⟨S40960x128, .f32⟩) main_call4_v0) mulf,
    TRef.nullary (TRef.of (T := ⟨S_, .f32⟩) main_call4_cst) (constant S_ .f32 0x00000000#32),
    TRef.binary (TRef.of (T := ⟨S40960x128, .f32⟩) main_call4_v0) (TRef.of (T := ⟨S_, .f32⟩) main_call4_cst) (TRef.of (T := ⟨S40960, .f32⟩) main_call4_v1) (fun x v => Host.reduceAdd x v reducesTo_S40960x128_S40960_d1 h_S_),
    TRef.unary (TRef.of (T := ⟨S40960, .f32⟩) main_call4_v1) (TRef.of (T := ⟨S40960x1, .f32⟩) main_call4_v2) (broadcastInDim S40960x1 ![0] bcast_S40960_S40960x1_0),
    TRef.unary (TRef.of (T := ⟨S40960x1, .f32⟩) main_call4_v2) (TRef.of (T := ⟨S40960x1, .f32⟩) main_v77) Host.sqrt,
    nullary main_cst_14 (constant S_ .f32 0x358637BD#32),
    unary main_cst_14 main_v78 (broadcastInDim S40960x1 ![] bcast_S_S40960x1 : (⟨S_, .f32⟩ : BufTy).Contents (Elt F) → (⟨S40960x1, .f32⟩ : BufTy).Contents (Elt F)),
    binary main_v77 main_v78 main_v79 (maximumf : (⟨S40960x1, .f32⟩ : BufTy).Contents (Elt F) → (⟨S40960x1, .f32⟩ : BufTy).Contents (Elt F) → (⟨S40960x1, .f32⟩ : BufTy).Contents (Elt F)),
    unary main_v79 main_v80 (broadcastInDim S40960x128 ![0, 1] bcast_S40960x1_S40960x128_0_1 : (⟨S40960x1, .f32⟩ : BufTy).Contents (Elt F) → (⟨S40960x128, .f32⟩ : BufTy).Contents (Elt F)),
    binary main_v76 main_v80 main_v81 (Host.divf : (⟨S40960x128, .f32⟩ : BufTy).Contents (Elt F) → (⟨S40960x128, .f32⟩ : BufTy).Contents (Elt F) → (⟨S40960x128, .f32⟩ : BufTy).Contents (Elt F)) ]

theorem opsC0_split : (opsC0 : List (HloOp τ sig (Elt F))) = opsC0a ++ (opsC0b ++ (opsC0c ++ opsC0d)) := rfl

end

/-- The first part leaves the neighbour mean of its operands. -/
theorem opsC0a_mean (V : Valuation τ sig (Elt Ideal)) :
    after opsC0a V (Proc.devRef .tc main_v69)
      = Cert.RefLayerC.meanT bcast_S_S40960 bcast_S40960_S40960x1_0 bcast_S40960x1_S40960x128_0_1 (V (Proc.devRef .tc main_v31))
          (agg0 (V (Proc.devRef .tc main_v15)) (V (Proc.devRef .tc main_arg6)) (V (Proc.devRef .tc main_arg7))) (cnt0 (V (Proc.devRef .tc main_arg7))) := by
  after_results_simp <;> rfl

/-- The first part writes neither the own rows, the weights nor the bias. -/
theorem opsC0a_keep_hs (V : Valuation τ sig (Elt Ideal)) : after opsC0a V (Proc.devRef .tc main_v31) = V (Proc.devRef .tc main_v31) := by
  after_results_simp
theorem opsC0a_keep_w (V : Valuation τ sig (Elt Ideal)) : after opsC0a V (Proc.devRef .tc main_arg17) = V (Proc.devRef .tc main_arg17) := by
  after_results_simp
theorem opsC0a_keep_b (V : Valuation τ sig (Elt Ideal)) : after opsC0a V (Proc.devRef .tc main_arg18) = V (Proc.devRef .tc main_arg18) := by
  after_results_simp

/-- The second part leaves the affine form of the own rows and the mean it finds. -/
theorem opsC0b_y (W : Valuation τ sig (Elt Ideal)) :
    after opsC0b W (Proc.devRef .tc main_v75)
      = Cert.RefLayerC.yT dot_S40960x256_S256x128_S40960x128_1_0_0_1_n_n bcast_S128_S1x128_1 bcast_S1x128_S40960x128_0_1 concatenates_S40960x128_S40960x128_S40960x256_d1 (W (Proc.devRef .tc main_v31)) (W (Proc.devRef .tc main_v69))
          (tr2 (W (Proc.devRef .tc main_arg17))) (W (Proc.devRef .tc main_arg18)) := by
  after_results_simp <;> rfl

/-- The third part leaves the leaky rectifier of the affine form it finds. -/
theorem opsC0c_pre (W : Valuation τ sig (Elt Ideal)) :
    after opsC0c W (Proc.devRef .tc main_v76) = Cert.RefLayerC.leakyT bcast_S_S40960x128 (W (Proc.devRef .tc main_v75)) := by
  after_results_simp <;> rfl

/-- The last part leaves the normalisation of the rows it finds. -/
theorem opsC0d_out (W : Valuation τ sig (Elt Ideal)) :
    after opsC0d W (Proc.devRef .tc main_v81)
      = Cert.RefLayerC.normTerm bcast_S_S40960x1 bcast_S40960_S40960x1_0 bcast_S40960x1_S40960x128_0_1 reducesTo_S40960x128_S40960_d1 h_S_ (W (Proc.devRef .tc main_v76)) := by
  after_results_simp <;> rfl

/-- The first convolution stage leaves the convolution layer of its operands in `%81`. -/
theorem stageC0 (V : Valuation τ sig (Elt Ideal)) :
    after opsC0 V (Proc.devRef .tc main_v81)
      = Cert.SpecArr.convArr 40960 (V (Proc.devRef .tc main_v31))
          (agg0 (V (Proc.devRef .tc main_v15)) (V (Proc.devRef .tc main_arg6)) (V (Proc.devRef .tc main_arg7)))
          (cnt0 (V (Proc.devRef .tc main_arg7))) (tr2 (V (Proc.devRef .tc main_arg17))) (V (Proc.devRef .tc main_arg18)) := by
  rw [opsC0_split, after_append, after_append, after_append, opsC0d_out, opsC0c_pre, opsC0b_y, opsC0a_mean, opsC0a_keep_hs,
    opsC0a_keep_w, opsC0a_keep_b]
  exact Cert.RefLayerC.conv_value dot_S40960x256_S256x128_S40960x128_1_0_0_1_n_n rfl rfl rfl rfl (fun _ _ => rfl) (fun _ _ => rfl) bcast_S128_S1x128_1 bcast_S1x128_S40960x128_0_1 bcast_S_S40960x128
    bcast_S_S40960 bcast_S_S40960x1 bcast_S40960_S40960x1_0 bcast_S40960x1_S40960x128_0_1 concatenates_S40960x128_S40960x128_S40960x256_d1 reducesTo_S40960x128_S40960_d1 (by decide) h_S_ _ _ _ _ _

/-! ## The second convolution stage -/

section
variable {F : FTy → Type} [FloatOps F]

/-- The second convolution's operations through the neighbour mean. -/
abbrev opsC1a : List (HloOp τ sig (Elt F)) :=
  [ nullary main_c_15 (constantI S_ 32 0#32),
    unary main_c_15 main_v82 (broadcastInDim S40960 ![] bcast_S_S40960 : (⟨S_, .i32⟩ : BufTy).Contents (Elt F) → (⟨S40960, .i32⟩ : BufTy).Contents (Elt F)),
    binary main_arg8 main_v82 main_v83 (cmpi .slt : (⟨S40960, .i32⟩ : BufTy).Contents (Elt F) → (⟨S40960, .i32⟩ : BufTy).Contents (Elt F) → (⟨S40960, .i1⟩ : BufTy).Contents (Elt F)),
    nullary main_c_16 (constantI S_ 32 40960#32),
    unary main_c_16 main_v84 (broadcastInDim S40960 ![] bcast_S_S40960 : (⟨S_, .i32⟩ : BufTy).Contents (Elt F) → (⟨S40960, .i32⟩ : BufTy).Contents (Elt F)),
    binary main_arg8 main_v84 main_v85 (addi : (⟨S40960, .i32⟩ : BufTy).Contents (Elt F) → (⟨S40960, .i32⟩ : BufTy).Contents (Elt F) → (⟨S40960, .i32⟩ : BufTy).Contents (Elt F)),
    ternary main_v83 main_v85 main_arg8 main_v86 (select : (⟨S40960, .i1⟩ : BufTy).Contents (Elt F) → (⟨S40960, .i32⟩ : BufTy).Contents (Elt F) → (⟨S40960, .i32⟩ : BufTy).Contents (Elt F) → (⟨S40960, .i32⟩ : BufTy).Contents (Elt F)),
    unary main_v86 main_v87 (broadcastInDim S40960x1 ![0] bcast_S40960_S40960x1_0 : (⟨S40960, .i32⟩ : BufTy).Contents (Elt F) → (⟨S40960x1, .i32⟩ : BufTy).Contents (Elt F)),
    binary main_v81 main_v87 main_v88 ((fun x i => Host.gather gather_S40960x128_S40960x1_S40960x128_1_0_n_n_0_1_1128 x i) : (⟨S40960x128, .f32⟩ : BufTy).Contents (Elt F) → (⟨S40960x1, .i32⟩ : BufTy).Contents (Elt F) → (⟨S40960x128, .f32⟩ : BufTy).Contents (Elt F)),
    nullary main_cst_17 (constant S_ .f32 0x00000000#32),
    unary main_cst_17 main_v89 (broadcastInDim S4096x128 ![] bcast_S_S4096x128 : (⟨S_, .f32⟩ : BufTy).Contents (Elt F) → (⟨S4096x128, .f32⟩ : BufTy).Contents (Elt F)),
    unary main_arg9 main_v90 (broadcastInDim S40960x1 ![0] bcast_S40960_S40960x1_0 : (⟨S40960, .i32⟩ : BufTy).Contents (Elt F) → (⟨S40960x1, .i32⟩ : BufTy).Contents (Elt F)),
    ternary main_v89 main_v90 main_v88 main_v91 ((fun x i u => Host.scatterAdd scatter_S4096x128_S40960x1_S40960x128_1_0_0_1 x i u) : (⟨S4096x128, .f32⟩ : BufTy).Contents (Elt F) → (⟨S40960x1, .i32⟩ : BufTy).Contents (Elt F) → (⟨S40960x128, .f32⟩ : BufTy).Contents (Elt F) → (⟨S4096x128, .f32⟩ : BufTy).Contents (Elt F)),
    nullary main_cst_18 (constant S_ .f32 0x3F800000#32),
    unary main_cst_18 main_v92 (broadcastInDim S40960 ![] bcast_S_S40960 : (⟨S_, .f32⟩ : BufTy).Contents (Elt F) → (⟨S40960, .f32⟩ : BufTy).Contents (Elt F)),
    nullary main_cst_19 (constant S_ .f32 0x00000000#32),
    unary main_cst_19 main_v93 (broadcastInDim S4096 ![] bcast_S_S4096 : (⟨S_, .f32⟩ : BufTy).Contents (Elt F) → (⟨S4096, .f32⟩ : BufTy).Contents (Elt F)),
    unary main_arg9 main_v94 (broadcastInDim S40960x1 ![0] bcast_S40960_S40960x1_0 : (⟨S40960, .i32⟩ : BufTy).Contents (Elt F) → (⟨S40960x1, .i32⟩ : BufTy).Contents (Elt F)),
    ternary main_v93 main_v94 main_v92 main_v95 ((fun x i u => Host.scatterAdd scatter_S4096_S40960x1_S40960_n_0_0_1 x i u) : (⟨S4096, .f32⟩ : BufTy).Contents (Elt F) → (⟨S40960x1, .i32⟩ : BufTy).Contents (Elt F) → (⟨S40960, .f32⟩ : BufTy).Contents (Elt F) → (⟨S4096, .f32⟩ : BufTy).Contents (Elt F)),
    binary main_v91 main_v47 main_v96 (subf : (⟨S4096x128, .f32⟩ : BufTy).Contents (Elt F) → (⟨S4096x128, .f32⟩ : BufTy).Contents (Elt F) → (⟨S4096x128, .f32⟩ : BufTy).Contents (Elt F)),
    nullary main_cst_20 (constant S_ .f32 0x3F800000#32),
    unary main_cst_20 main_v97 (broadcastInDim S4096 ![] bcast_S_S4096 : (⟨S_, .f32⟩ : BufTy).Contents (Elt F) → (⟨S4096, .f32⟩ : BufTy).Contents (Elt F)),
    binary main_v95 main_v97 main_v98 (subf : (⟨S4096, .f32⟩ : BufTy).Contents (Elt F) → (⟨S4096, .f32⟩ : BufTy).Contents (Elt F) → (⟨S4096, .f32⟩ : BufTy).Contents (Elt F)),
    nullary main_cst_21 (constant S_ .f32 0x3F800000#32),
    unary main_cst_21 main_v99 (broadcastInDim S4096 ![] bcast_S_S4096 : (⟨S_, .f32⟩ : BufTy).Contents (Elt F) → (⟨S4096, .f32⟩ : BufTy).Contents (Elt F)),
    binary main_v98 main_v99 main_v100 (maximumf : (⟨S4096, .f32⟩ : BufTy).Contents (Elt F) → (⟨S4096, .f32⟩ : BufTy).Contents (Elt F) → (⟨S4096, .f32⟩ : BufTy).Contents (Elt F)),
    unary main_v100 main_v101 (broadcastInDim S4096x1 ![0] bcast_S4096_S4096x1_0 : (⟨S4096, .f32⟩ : BufTy).Contents (Elt F) → (⟨S4096x1, .f32⟩ : BufTy).Contents (Elt F)),
    unary main_v101 main_v102 (broadcastInDim S4096x128 ![0, 1] bcast_S4096x1_S4096x128_0_1 : (⟨S4096x1, .f32⟩ : BufTy).Contents (Elt F) → (⟨S4096x128, .f32⟩ : BufTy).Contents (Elt F)),
    binary main_v96 main_v102 main_v103 (Host.divf : (⟨S4096x128, .f32⟩ : BufTy).Contents (Elt F) → (⟨S4096x128, .f32⟩ : BufTy).Contents (Elt F) → (⟨S4096x128, .f32⟩ : BufTy).Contents (Elt F)) ]

/-- … from the concatenation through the affine form. -/
abbrev opsC1b : List (HloOp τ sig (Elt F)) :=
  [ binary main_v47 main_v103 main_v104 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    unary main_arg19 main_v105 ((transpose S256x128 [1, 0] · transposes_S128x256_S256x128_1_0) : (⟨S128x256, .f32⟩ : BufTy).Contents (Elt F) → (⟨S256x128, .f32⟩ : BufTy).Contents (Elt F)),
    binary main_v104 main_v105 main_v106 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    unary main_arg20 main_v107 (broadcastInDim S1x128 ![1] bcast_S128_S1x128_1 : (⟨S128, .f32⟩ : BufTy).Contents (Elt F) → (⟨S1x128, .f32⟩ : BufTy).Contents (Elt F)),
    unary main_v107 main_v108 (broadcastInDim S4096x128 ![0, 1] bcast_S1x128_S4096x128_0_1 : (⟨S1x128, .f32⟩ : BufTy).Contents (Elt F) → (⟨S4096x128, .f32⟩ : BufTy).Contents (Elt F)),
    binary main_v106 main_v108 main_v109 (addf : (⟨S4096x128, .f32⟩ : BufTy).Contents (Elt F) → (⟨S4096x128, .f32⟩ : BufTy).Contents (Elt F) → (⟨S4096x128, .f32⟩ : BufTy).Contents (Elt F)) ]

/-- … the leaky rectifier. -/
abbrev opsC1c : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S4096x128, .f32⟩) main_call5_v0) (broadcastInDim S4096x128 ![] bcast_S_S4096x128),
    TRef.binary (TRef.of (T := ⟨S4096x128, .f32⟩) main_v109) (TRef.of (T := ⟨S4096x128, .f32⟩) main_call5_v0) (TRef.of (T := ⟨S4096x128, .i1⟩) main_call5_v1) (cmpf .oge),
    TRef.nullary (TRef.of (T := ⟨S_, .f32⟩) main_call5_cst_0) (constant S_ .f32 0x3C23D70A#32),
    TRef.unary (TRef.of (T := ⟨S_, .f32⟩) main_call5_cst_0) (TRef.of (T := ⟨S4096x128, .f32⟩) main_call5_v2) (broadcastInDim S4096x128 ![] bcast_S_S4096x128),
    TRef.binary (TRef.of (T := ⟨S4096x128, .f32⟩) main_call5_v2) (TRef.of (T := ⟨S4096x128, .f32⟩) main_v109) (TRef.of (T := ⟨S4096x128, .f32⟩) main_call5_v3) mulf,
    TRef.ternary (TRef.of (T := ⟨S4096x128, .i1⟩) main_call5_v1) (TRef.of (T := ⟨S4096x128, .f32⟩) main_v109) (TRef.of (T := ⟨S4096x128, .f32⟩) main_call5_v3) (TRef.of (T := ⟨S4096x128, .f32⟩) main_v110) select ]

/-- … the normalisation. -/
abbrev opsC1d : List (HloOp τ sig (Elt F)) :=
  [ TRef.binary (TRef.of (T := ⟨S4096x128, .f32⟩) main_v110) (TRef.of (T := ⟨S4096x128, .f32⟩) main_v110) (TRef.of (T := ⟨S4096x128, .f32⟩) main_call6_v0) mulf,
    TRef.nullary (TRef.of (T := ⟨S_, .f32⟩) main_call6_cst) (constant S_ .f32 0x00000000#32),
    TRef.binary (TRef.of (T := ⟨S4096x128, .f32⟩) main_call6_v0) (TRef.of (T := ⟨S_, .f32⟩) main_call6_cst) (TRef.of (T := ⟨S4096, .f32⟩) main_call6_v1) (fun x v => Host.reduceAdd x v reducesTo_S4096x128_S4096_d1 h_S_),
    TRef.unary (TRef.of (T := ⟨S4096, .f32⟩) main_call6_v1) (TRef.of (T := ⟨S4096x1, .f32⟩) main_call6_v2) (broadcastInDim S4096x1 ![0] bcast_S4096_S4096x1_0),
    TRef.unary (TRef.of (T := ⟨S4096x1, .f32⟩) main_call6_v2) (TRef.of (T := ⟨S4096x1, .f32⟩) main_v111) Host.sqrt,
    nullary main_cst_22 (constant S_ .f32 0x358637BD#32),
    unary main_cst_22 main_v112 (broadcastInDim S4096x1 ![] bcast_S_S4096x1 : (⟨S_, .f32⟩ : BufTy).Contents (Elt F) → (⟨S4096x1, .f32⟩ : BufTy).Contents (Elt F)),
    binary main_v111 main_v112 main_v113 (maximumf : (⟨S4096x1, .f32⟩ : BufTy).Contents (Elt F) → (⟨S4096x1, .f32⟩ : BufTy).Contents (Elt F) → (⟨S4096x1, .f32⟩ : BufTy).Contents (Elt F)),
    unary main_v113 main_v114 (broadcastInDim S4096x128 ![0, 1] bcast_S4096x1_S4096x128_0_1 : (⟨S4096x1, .f32⟩ : BufTy).Contents (Elt F) → (⟨S4096x128, .f32⟩ : BufTy).Contents (Elt F)),
    binary main_v110 main_v114 main_v115 (Host.divf : (⟨S4096x128, .f32⟩ : BufTy).Contents (Elt F) → (⟨S4096x128, .f32⟩ : BufTy).Contents (Elt F) → (⟨S4096x128, .f32⟩ : BufTy).Contents (Elt F)) ]

theorem opsC1_split : (opsC1 : List (HloOp τ sig (Elt F))) = opsC1a ++ (opsC1b ++ (opsC1c ++ opsC1d)) := rfl

end

/-- The first part leaves the neighbour mean of its operands. -/
theorem opsC1a_mean (V : Valuation τ sig (Elt Ideal)) :
    after opsC1a V (Proc.devRef .tc main_v103)
      = Cert.RefLayerC.meanT bcast_S_S4096 bcast_S4096_S4096x1_0 bcast_S4096x1_S4096x128_0_1 (V (Proc.devRef .tc main_v47))
          (agg1 (V (Proc.devRef .tc main_v81)) (V (Proc.devRef .tc main_arg8)) (V (Proc.devRef .tc main_arg9))) (cnt1 (V (Proc.devRef .tc main_arg9))) := by
  after_results_simp <;> rfl

/-- The first part writes neither the own rows, the weights nor the bias. -/
theorem opsC1a_keep_hs (V : Valuation τ sig (Elt Ideal)) : after opsC1a V (Proc.devRef .tc main_v47) = V (Proc.devRef .tc main_v47) := by
  after_results_simp
theorem opsC1a_keep_w (V : Valuation τ sig (Elt Ideal)) : after opsC1a V (Proc.devRef .tc main_arg19) = V (Proc.devRef .tc main_arg19) := by
  after_results_simp
theorem opsC1a_keep_b (V : Valuation τ sig (Elt Ideal)) : after opsC1a V (Proc.devRef .tc main_arg20) = V (Proc.devRef .tc main_arg20) := by
  after_results_simp

/-- The second part leaves the affine form of the own rows and the mean it finds. -/
theorem opsC1b_y (W : Valuation τ sig (Elt Ideal)) :
    after opsC1b W (Proc.devRef .tc main_v109)
      = Cert.RefLayerC.yT dot_S4096x256_S256x128_S4096x128_1_0_0_1_n_n bcast_S128_S1x128_1 bcast_S1x128_S4096x128_0_1 concatenates_S4096x128_S4096x128_S4096x256_d1 (W (Proc.devRef .tc main_v47)) (W (Proc.devRef .tc main_v103))
          (tr2 (W (Proc.devRef .tc main_arg19))) (W (Proc.devRef .tc main_arg20)) := by
  after_results_simp <;> rfl

/-- The third part leaves the leaky rectifier of the affine form it finds. -/
theorem opsC1c_pre (W : Valuation τ sig (Elt Ideal)) :
    after opsC1c W (Proc.devRef .tc main_v110) = Cert.RefLayerC.leakyT bcast_S_S4096x128 (W (Proc.devRef .tc main_v109)) := by
  after_results_simp <;> rfl

/-- The last part leaves the normalisation of the rows it finds. -/
theorem opsC1d_out (W : Valuation τ sig (Elt Ideal)) :
    after opsC1d W (Proc.devRef .tc main_v115)
      = Cert.RefLayerC.normTerm bcast_S_S4096x1 bcast_S4096_S4096x1_0 bcast_S4096x1_S4096x128_0_1 reducesTo_S4096x128_S4096_d1 h_S_ (W (Proc.devRef .tc main_v110)) := by
  after_results_simp <;> rfl

/-- The second convolution stage leaves the convolution layer of its operands in `%115`. -/
theorem stageC1 (V : Valuation τ sig (Elt Ideal)) :
    after opsC1 V (Proc.devRef .tc main_v115)
      = Cert.SpecArr.convArr 4096 (V (Proc.devRef .tc main_v47))
          (agg1 (V (Proc.devRef .tc main_v81)) (V (Proc.devRef .tc main_arg8)) (V (Proc.devRef .tc main_arg9)))
          (cnt1 (V (Proc.devRef .tc main_arg9))) (tr2 (V (Proc.devRef .tc main_arg19))) (V (Proc.devRef .tc main_arg20)) := by
  rw [opsC1_split, after_append, after_append, after_append, opsC1d_out, opsC1c_pre, opsC1b_y, opsC1a_mean, opsC1a_keep_hs,
    opsC1a_keep_w, opsC1a_keep_b]
  exact Cert.RefLayerC.conv_value dot_S4096x256_S256x128_S4096x128_1_0_0_1_n_n rfl rfl rfl rfl (fun _ _ => rfl) (fun _ _ => rfl) bcast_S128_S1x128_1 bcast_S1x128_S4096x128_0_1 bcast_S_S4096x128
    bcast_S_S4096 bcast_S_S4096x1 bcast_S4096_S4096x1_0 bcast_S4096x1_S4096x128_0_1 concatenates_S4096x128_S4096x128_S4096x256_d1 reducesTo_S4096x128_S4096_d1 (by decide) h_S_ _ _ _ _ _

end Cert.ReferenceIdeal.RefValue

end
-- ==== Proof.RefOut.lean ====
/-
  The reference's result as one term of the shared interface: the two convolution layers over the three embedding
  layers, read off the stages' lemmas in order.
-/
import proofs.«171769_j36816459662034_1_alg».proof.Proof.RefStagesE
import proofs.«171769_j36816459662034_1_alg».proof.Proof.RefStagesC

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The whole line's fold at the result buffer, from any contents: the second convolution layer over the third
    embedding, the first convolution layer over the second embedding and the first embedding's neighbour sum — each
    stage's lemma at the contents the earlier stages leave, and what a later stage does not write kept. -/
theorem out_eq_val (V : Valuation τ sig (Elt Ideal)) :
    after (ops : List (HloOp τ sig (Elt Ideal))) V (Proc.devRef .tc main_v115)
      = Cert.SpecArr.convArr 4096 (Cert.SpecArr.embedArr 4096 (gath2 (V (Proc.devRef .tc main_arg10)) (V (Proc.devRef .tc main_arg2))) (V (Proc.devRef .tc main_arg5)) (tr (V (Proc.devRef .tc main_arg15))) (V (Proc.devRef .tc main_arg16)))
          (agg1 (Cert.SpecArr.convArr 40960 (Cert.SpecArr.embedArr 40960 (gath1 (V (Proc.devRef .tc main_arg10)) (V (Proc.devRef .tc main_arg1))) (V (Proc.devRef .tc main_arg4)) (tr (V (Proc.devRef .tc main_arg13))) (V (Proc.devRef .tc main_arg14))) (agg0 (Cert.SpecArr.embedArr 409600 (gath0 (V (Proc.devRef .tc main_arg10)) (V (Proc.devRef .tc main_arg0))) (V (Proc.devRef .tc main_arg3)) (tr (V (Proc.devRef .tc main_arg11))) (V (Proc.devRef .tc main_arg12))) (V (Proc.devRef .tc main_arg6)) (V (Proc.devRef .tc main_arg7))) (cnt0 (V (Proc.devRef .tc main_arg7))) (tr2 (V (Proc.devRef .tc main_arg17))) (V (Proc.devRef .tc main_arg18)))
            (V (Proc.devRef .tc main_arg8)) (V (Proc.devRef .tc main_arg9)))
          (cnt1 (V (Proc.devRef .tc main_arg9))) (tr2 (V (Proc.devRef .tc main_arg19))) (V (Proc.devRef .tc main_arg20)) := by
  rw [after_ops, stageC1, stageC0]
  rw [opsC0_keep _ main_v47 (by decide), opsC0_keep _ main_arg8 (by decide), opsC0_keep _ main_arg9 (by decide), opsC0_keep _ main_arg19 (by decide), opsC0_keep _ main_arg20 (by decide)]
  rw [stageE2]
  rw [opsE2_keep _ main_v31 (by decide), opsE2_keep _ main_v15 (by decide), opsE2_keep _ main_arg6 (by decide), opsE2_keep _ main_arg7 (by decide), opsE2_keep _ main_arg17 (by decide), opsE2_keep _ main_arg18 (by decide), opsE2_keep _ main_arg8 (by decide), opsE2_keep _ main_arg9 (by decide), opsE2_keep _ main_arg19 (by decide), opsE2_keep _ main_arg20 (by decide)]
  rw [stageE1]
  rw [opsE1_keep _ main_v15 (by decide), opsE1_keep _ main_arg6 (by decide), opsE1_keep _ main_arg7 (by decide), opsE1_keep _ main_arg17 (by decide), opsE1_keep _ main_arg18 (by decide), opsE1_keep _ main_arg8 (by decide), opsE1_keep _ main_arg9 (by decide), opsE1_keep _ main_arg19 (by decide), opsE1_keep _ main_arg20 (by decide), opsE1_keep _ main_arg10 (by decide), opsE1_keep _ main_arg2 (by decide), opsE1_keep _ main_arg5 (by decide), opsE1_keep _ main_arg15 (by decide), opsE1_keep _ main_arg16 (by decide)]
  rw [stageE0]
  rw [opsE0_keep _ main_arg6 (by decide), opsE0_keep _ main_arg7 (by decide), opsE0_keep _ main_arg17 (by decide), opsE0_keep _ main_arg18 (by decide), opsE0_keep _ main_arg8 (by decide), opsE0_keep _ main_arg9 (by decide), opsE0_keep _ main_arg19 (by decide), opsE0_keep _ main_arg20 (by decide), opsE0_keep _ main_arg10 (by decide), opsE0_keep _ main_arg2 (by decide), opsE0_keep _ main_arg5 (by decide), opsE0_keep _ main_arg15 (by decide), opsE0_keep _ main_arg16 (by decide), opsE0_keep _ main_arg1 (by decide), opsE0_keep _ main_arg4 (by decide), opsE0_keep _ main_arg13 (by decide), opsE0_keep _ main_arg14 (by decide)]

/-- The result buffer after @main's operations from the launch contents `m` of device `c`. -/
theorem out_eq (m : (ℓ : Loc nD τ sig) → Buf (Elt Ideal) ℓ) (c : Dev nD) :
    after (ops : List (HloOp τ sig (Elt Ideal))) (fun b => m (c, b)) (Proc.devRef .tc main_v115)
      = Cert.SpecArr.convArr 4096 (Cert.SpecArr.embedArr 4096 (gath2 (m ((c.tc : Thread nD τ).loc main_arg10)) (m ((c.tc : Thread nD τ).loc main_arg2))) (m ((c.tc : Thread nD τ).loc main_arg5)) (tr (m ((c.tc : Thread nD τ).loc main_arg15))) (m ((c.tc : Thread nD τ).loc main_arg16)))
          (agg1 (Cert.SpecArr.convArr 40960 (Cert.SpecArr.embedArr 40960 (gath1 (m ((c.tc : Thread nD τ).loc main_arg10)) (m ((c.tc : Thread nD τ).loc main_arg1))) (m ((c.tc : Thread nD τ).loc main_arg4)) (tr (m ((c.tc : Thread nD τ).loc main_arg13))) (m ((c.tc : Thread nD τ).loc main_arg14))) (agg0 (Cert.SpecArr.embedArr 409600 (gath0 (m ((c.tc : Thread nD τ).loc main_arg10)) (m ((c.tc : Thread nD τ).loc main_arg0))) (m ((c.tc : Thread nD τ).loc main_arg3)) (tr (m ((c.tc : Thread nD τ).loc main_arg11))) (m ((c.tc : Thread nD τ).loc main_arg12))) (m ((c.tc : Thread nD τ).loc main_arg6)) (m ((c.tc : Thread nD τ).loc main_arg7))) (cnt0 (m ((c.tc : Thread nD τ).loc main_arg7))) (tr2 (m ((c.tc : Thread nD τ).loc main_arg17))) (m ((c.tc : Thread nD τ).loc main_arg18)))
            (m ((c.tc : Thread nD τ).loc main_arg8)) (m ((c.tc : Thread nD τ).loc main_arg9)))
          (cnt1 (m ((c.tc : Thread nD τ).loc main_arg9))) (tr2 (m ((c.tc : Thread nD τ).loc main_arg19))) (m ((c.tc : Thread nD τ).loc main_arg20)) :=
  out_eq_val (fun b => m (c, b))

end Cert.ReferenceIdeal.RefValue

end
-- ==== Proof.Bridge.lean ====
/-
  The host operations shared by the two programs.

  Around its regions the kernel program applies the same host operations as the reference: the table look-up of a
  layer's nodes, the transposition of weights, the gather of an edge block's source rows and their sum per
  destination node, the count of edges per destination node. Each pair is one function of its operands.
-/
import proofs.«171769_j36816459662034_1_alg».proof.Proof.KHost
import proofs.«171769_j36816459662034_1_alg».proof.Proof.RefStagesE
import proofs.«171769_j36816459662034_1_alg».proof.Proof.RefDefs

set_option maxRecDepth 16384

noncomputable section

namespace Cert.Bridge

open Idealize.ShloMosaic

theorem gath0_eq (x : (⟨Cert.KernelIdeal.S100001x128, .f32⟩ : BufTy).Contents (Elt Ideal)) (y : (⟨Cert.KernelIdeal.S409600, .i32⟩ : BufTy).Contents (Elt Ideal)) :
    Cert.KernelIdeal.KHost.gath0 x y = Cert.ReferenceIdeal.RefValue.gath0 x y := rfl
theorem gath1_eq (x : (⟨Cert.KernelIdeal.S100001x128, .f32⟩ : BufTy).Contents (Elt Ideal)) (y : (⟨Cert.KernelIdeal.S40960, .i32⟩ : BufTy).Contents (Elt Ideal)) :
    Cert.KernelIdeal.KHost.gath1 x y = Cert.ReferenceIdeal.RefValue.gath1 x y := rfl
theorem gath2_eq (x : (⟨Cert.KernelIdeal.S100001x128, .f32⟩ : BufTy).Contents (Elt Ideal)) (y : (⟨Cert.KernelIdeal.S4096, .i32⟩ : BufTy).Contents (Elt Ideal)) :
    Cert.KernelIdeal.KHost.gath2 x y = Cert.ReferenceIdeal.RefValue.gath2 x y := rfl
theorem tr0_eq (x : (⟨Cert.KernelIdeal.S128x300, .f32⟩ : BufTy).Contents (Elt Ideal)) :
    Cert.KernelIdeal.KHost.tr0 x = Cert.ReferenceIdeal.RefValue.tr x := rfl
theorem tr1_eq (x : (⟨Cert.KernelIdeal.S128x300, .f32⟩ : BufTy).Contents (Elt Ideal)) :
    Cert.KernelIdeal.KHost.tr1 x = Cert.ReferenceIdeal.RefValue.tr x := rfl
theorem tr2_eq (x : (⟨Cert.KernelIdeal.S128x300, .f32⟩ : BufTy).Contents (Elt Ideal)) :
    Cert.KernelIdeal.KHost.tr2 x = Cert.ReferenceIdeal.RefValue.tr x := rfl
theorem agg0_eq (h : (⟨Cert.KernelIdeal.S409600x128, .f32⟩ : BufTy).Contents (Elt Ideal)) (s d : (⟨Cert.KernelIdeal.S409600, .i32⟩ : BufTy).Contents (Elt Ideal)) :
    Cert.KernelIdeal.KHost.agg0 h s d = Cert.ReferenceIdeal.RefValue.agg0 (F := Ideal) h s d := rfl
theorem cnt0_eq (d : (⟨Cert.KernelIdeal.S409600, .i32⟩ : BufTy).Contents (Elt Ideal)) :
    Cert.KernelIdeal.KHost.cnt0 d = Cert.ReferenceIdeal.RefValue.cnt0 (F := Ideal) d := rfl
theorem trc0_eq (x : (⟨Cert.KernelIdeal.S128x256, .f32⟩ : BufTy).Contents (Elt Ideal)) :
    Cert.KernelIdeal.KHost.trc0 x = Cert.ReferenceIdeal.RefValue.tr2 (F := Ideal) x := rfl
theorem agg1_eq (h : (⟨Cert.KernelIdeal.S40960x128, .f32⟩ : BufTy).Contents (Elt Ideal)) (s d : (⟨Cert.KernelIdeal.S40960, .i32⟩ : BufTy).Contents (Elt Ideal)) :
    Cert.KernelIdeal.KHost.agg1 h s d = Cert.ReferenceIdeal.RefValue.agg1 (F := Ideal) h s d := rfl
theorem cnt1_eq (d : (⟨Cert.KernelIdeal.S40960, .i32⟩ : BufTy).Contents (Elt Ideal)) :
    Cert.KernelIdeal.KHost.cnt1 d = Cert.ReferenceIdeal.RefValue.cnt1 (F := Ideal) d := rfl
theorem trc1_eq (x : (⟨Cert.KernelIdeal.S128x256, .f32⟩ : BufTy).Contents (Elt Ideal)) :
    Cert.KernelIdeal.KHost.trc1 x = Cert.ReferenceIdeal.RefValue.tr2 (F := Ideal) x := rfl

end Cert.Bridge

end
-- ==== Proof.lean ====
/-
  The certificate of the five claims.

  Both programs embed three layers of graph nodes — a looked-up table row plus the leaky rectifier of an affine
  form of the node's content — and then apply two graph convolutions, each joining a node's own row with the mean
  of its other neighbours' rows, applying an affine map and the leaky rectifier, and normalising the row by its
  Euclidean length. The kernel program computes the layers in kernel regions, block of rows by block of rows, and
  leaves the table look-ups, the transpositions and the neighbour sums and counts to the host; the reference
  computes everything on the host. At the extended reals a change of float format is the identity, a matrix
  product is a plain sum however it is tiled, and the two programs apply the same host operations around the
  layers, so entry by entry they compute one function of the arguments. No finiteness of the inputs is used.

  The frames of the two kernel programs are the generated frame certificates; the reference's frame is its run
  with the result dropped; the idealization's ledger is empty.
-/
import proofs.«171769_j36816459662034_1_alg».proof.Defs
import proofs.«171769_j36816459662034_1_alg».proof.Proof.Gen.Kernel
import proofs.«171769_j36816459662034_1_alg».proof.Proof.Gen.Kernel.Frame
import proofs.«171769_j36816459662034_1_alg».proof.Proof.Gen.KernelIdeal
import proofs.«171769_j36816459662034_1_alg».proof.Proof.Gen.KernelIdeal.Frame
import proofs.«171769_j36816459662034_1_alg».proof.Proof.Gen.ReferenceIdeal
import proofs.«171769_j36816459662034_1_alg».proof.Proof.Gen.Pre_finite_inputs
import proofs.«171769_j36816459662034_1_alg».proof.Proof.KRun
import proofs.«171769_j36816459662034_1_alg».proof.Proof.KValue
import proofs.«171769_j36816459662034_1_alg».proof.Proof.RefRun
import proofs.«171769_j36816459662034_1_alg».proof.Proof.RefOut
import proofs.«171769_j36816459662034_1_alg».proof.Proof.Bridge
import Idealize.ShloMosaic.Adequacy
import Idealize.ShloMosaic.Init

set_option maxRecDepth 16384

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- From memories agreeing on the arguments both programs end with the second convolution's rows of the third
    layer: the kernel program by its regions' whole-array values along the chain of boundary contents, the
    reference by its stages; the host operations between the layers are the same functions. -/
theorem algebraic : Cert.algebraic_KernelIdeal_ReferenceIdeal := by
  intro m ρ m' ρ' _ hagree
  refine ⟨fun c => Cert.KernelIdeal.KValue.C4 m c, ?_, ?_⟩
  · exact (θ_run Cert.KernelIdeal.defs _ _).mono
      (fun r h c => ⟨(h c).1.trans (Cert.KernelIdeal.KValue.R4 m ρ c), (h c).2⟩)
      (Cert.KernelIdeal.KRun.run_named m ρ)
  · refine (θ_run Cert.ReferenceIdeal.defs _ _).mono (fun r h c => ⟨(h c).1.trans ?_, (h c).2⟩)
      (Cert.ReferenceIdeal.RefValue.run m' ρ')
    rw [Cert.ReferenceIdeal.RefValue.out_eq m' c]
    obtain ⟨a0, a1, a2, a3, a4, a5, a6, a7, a8, a9, a10, a11, a12, a13, a14, a15, a16, a17, a18, a19, a20⟩ := hagree c
    rw [a0, a1, a2, a3, a4, a5, a6, a7, a8, a9, a10, a11, a12, a13, a14, a15, a16, a17, a18, a19, a20]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
